-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256 : Shape := ⟨2, ![32, 256]⟩
abbrev S50000x512 : Shape := ⟨2, ![50000, 512]⟩
abbrev S2x2048x512 : Shape := ⟨3, ![2, 2048, 512]⟩
abbrev S2x2048 : Shape := ⟨2, ![2, 2048]⟩
abbrev S2x2048x1024 : Shape := ⟨3, ![2, 2048, 1024]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part2 {F : FTy → Type} [FloatOps F] (main_arg8 : FVec F S2x2048 .f32) (main_arg9 : FVec F S2x2048 .f32) (main_v33 : IVec S_ 1) : IVec S_ 1 :=
  let main_v34 : FVec F S2x2048 .f32 := Host.absf main_arg8
  let main_cst_12 : FVec F S_ .f32 := constant S_ .f32 0x7F800000#32
  let main_v35 : FVec F S2x2048 .f32 := broadcastInDim S2x2048 ![] bcast_S_S2x2048 main_cst_12
  let main_v36 : IVec S2x2048 1 := cmpf .olt main_v34 main_v35
  let main_c_13 : IVec S_ 1 := constantI S_ 1 1#1
  let main_v37 : IVec S_ 1 := (fun x v => Host.reduce IntOp.andi x v reducesTo_S2x2048_S_d0_1 h_S_) main_v36 main_c_13
  let main_v38 : IVec S_ 1 := andi main_v33 main_v37
  let main_v39 : FVec F S2x2048 .f32 := Host.absf main_arg9
  let main_cst_14 : FVec F S_ .f32 := constant S_ .f32 0x7F800000#32
  let main_v40 : FVec F S2x2048 .f32 := broadcastInDim S2x2048 ![] bcast_S_S2x2048 main_cst_14
  let main_v41 : IVec S2x2048 1 := cmpf .olt main_v39 main_v40
  let main_c_15 : IVec S_ 1 := constantI S_ 1 1#1
  let main_v42 : IVec S_ 1 := (fun x v => Host.reduce IntOp.andi x v reducesTo_S2x2048_S_d0_1 h_S_) main_v41 main_c_15
  let main_v43 : IVec S_ 1 := andi main_v38 main_v42
  main_v43

def fn_part1 {F : FTy → Type} [FloatOps F] (main_arg5 : FVec F S2x2048 .f32) (main_arg6 : FVec F S2x2048x1024 .f32) (main_arg7 : FVec F S2x2048x512 .f32) (main_arg8 : FVec F S2x2048 .f32) (main_arg9 : FVec F S2x2048 .f32) (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  let main_v19 : FVec F S2x2048 .f32 := Host.absf main_arg5
  let main_cst_6 : FVec F S_ .f32 := constant S_ .f32 0x7F800000#32
  let main_v20 : FVec F S2x2048 .f32 := broadcastInDim S2x2048 ![] bcast_S_S2x2048 main_cst_6
  let main_v21 : IVec S2x2048 1 := cmpf .olt main_v19 main_v20
  let main_c_7 : IVec S_ 1 := constantI S_ 1 1#1
  let main_v22 : IVec S_ 1 := (fun x v => Host.reduce IntOp.andi x v reducesTo_S2x2048_S_d0_1 h_S_) main_v21 main_c_7
  let main_v23 : IVec S_ 1 := andi main_v18 main_v22
  let main_v24 : FVec F S2x2048x1024 .f32 := Host.absf main_arg6
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  let main_v29 : FVec F S2x2048x512 .f32 := Host.absf main_arg7
  let main_cst_10 : FVec F S_ .f32 := constant S_ .f32 0x7F800000#32
  let main_v30 : FVec F S2x2048x512 .f32 := broadcastInDim S2x2048x512 ![] bcast_S_S2x2048x512 main_cst_10
  let main_v31 : IVec S2x2048x512 1 := cmpf .olt main_v29 main_v30
  let main_c_11 : IVec S_ 1 := constantI S_ 1 1#1
  let main_v32 : IVec S_ 1 := (fun x v => Host.reduce IntOp.andi x v reducesTo_S2x2048x512_S_d0_1_2 h_S_) main_v31 main_c_11
  let main_v33 : IVec S_ 1 := andi main_v28 main_v32
  fn_part2 (F := F) main_arg8 main_arg9 main_v33

def fn {F : FTy → Type} [FloatOps F] (main_arg0 : IVec S32x256 32) (main_arg1 : FVec F S50000x512 .f32) (main_arg2 : FVec F S2x2048x512 .f32) (main_arg3 : FVec F S2x2048x512 .f32) (main_arg4 : FVec F S2x2048 .f32) (main_arg5 : FVec F S2x2048 .f32) (main_arg6 : FVec F S2x2048x1024 .f32) (main_arg7 : FVec F S2x2048x512 .f32) (main_arg8 : FVec F S2x2048 .f32) (main_arg9 : FVec F S2x2048 .f32) : IVec S_ 1 :=
  let main_v0 : FVec F S50000x512 .f32 := Host.absf main_arg1
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S2x2048x512 .f32 := Host.absf main_arg2
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S2x2048 .f32 := Host.absf main_arg4
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_arg5 main_arg6 main_arg7 main_arg8 main_arg9 main_v13 main_v16
-- ==== Kernel.lean ====
abbrev S32x256 : Shape := ⟨2, ![32, 256]⟩
abbrev S50000x512 : Shape := ⟨2, ![50000, 512]⟩
abbrev S2x2048x512 : Shape := ⟨3, ![2, 2048, 512]⟩
abbrev S2x2048 : Shape := ⟨2, ![2, 2048]⟩
abbrev S2x2048x1024 : Shape := ⟨3, ![2, 2048, 1024]⟩
abbrev S_ : Shape := ⟨0, ![]⟩
abbrev S32x256x1 : Shape := ⟨3, ![32, 256, 1]⟩
abbrev S32x256x512 : Shape := ⟨3, ![32, 256, 512]⟩
abbrev S2x512x512 : Shape := ⟨3, ![2, 512, 512]⟩
abbrev S2x1536x512 : Shape := ⟨3, ![2, 1536, 512]⟩
abbrev S2x512x1536 : Shape := ⟨3, ![2, 512, 1536]⟩
abbrev S1x512x1536 : Shape := ⟨3, ![1, 512, 1536]⟩
abbrev S512x1536 : Shape := ⟨2, ![512, 1536]⟩
abbrev S512x3072 : Shape := ⟨2, ![512, 3072]⟩
abbrev S2x512 : Shape := ⟨2, ![2, 512]⟩
abbrev S2x1536 : Shape := ⟨2, ![2, 1536]⟩
abbrev S1x1536 : Shape := ⟨2, ![1, 1536]⟩
abbrev S1536 : Shape := ⟨1, ![1536]⟩
abbrev S3072 : Shape := ⟨1, ![3072]⟩
abbrev S1x3072 : Shape := ⟨2, ![1, 3072]⟩
abbrev S2x512x1024 : Shape := ⟨3, ![2, 512, 1024]⟩
abbrev S2x1536x1024 : Shape := ⟨3, ![2, 1536, 1024]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S1024x3072 : Shape := ⟨2, ![1024, 3072]⟩
abbrev S32x256x1024 : Shape := ⟨3, ![32, 256, 1024]⟩
abbrev S32x2x512 : Shape := ⟨3, ![32, 2, 512]⟩
abbrev S1x256x512 : Shape := ⟨3, ![1, 256, 512]⟩
abbrev S1x256x1024 : Shape := ⟨3, ![1, 256, 1024]⟩
abbrev S1x2x512 : Shape := ⟨3, ![1, 2, 512]⟩
abbrev S256x512 : Shape := ⟨2, ![256, 512]⟩
abbrev S256x3072 : Shape := ⟨2, ![256, 3072]⟩
abbrev S256x1024 : Shape := ⟨2, ![256, 1024]⟩
abbrev S1x512 : Shape := ⟨2, ![1, 512]⟩
abbrev S512 : Shape := ⟨1, ![512]⟩
abbrev S1x1x512 : Shape := ⟨3, ![1, 1, 512]⟩
abbrev S32x256x2x512 : Shape := ⟨4, ![32, 256, 2, 512]⟩
abbrev S2x32x512 : Shape := ⟨3, ![2, 32, 512]⟩

abbrev nBuf : Space → Nat
  | .hbm => 70
  | .vmem => 12
  | .smem => 0
  | _ => 0

abbrev bufTy : (tb : Table) → Fin (tcTables nBuf tb) → BufTy
  | .hbm, ⟨0, _⟩ => ⟨S32x256, .i32⟩
  | .hbm, ⟨1, _⟩ => ⟨S50000x512, .f32⟩
  | .hbm, ⟨2, _⟩ => ⟨S2x2048x512, .f32⟩
  | .hbm, ⟨3, _⟩ => ⟨S2x2048x512, .f32⟩
  | .hbm, ⟨4, _⟩ => ⟨S2x2048, .f32⟩
  | .hbm, ⟨5, _⟩ => ⟨S2x2048, .f32⟩
  | .hbm, ⟨6, _⟩ => ⟨S2x2048x1024, .f32⟩
  | .hbm, ⟨7, _⟩ => ⟨S2x2048x512, .f32⟩
  | .hbm, ⟨8, _⟩ => ⟨S2x2048, .f32⟩
  | .hbm, ⟨9, _⟩ => ⟨S2x2048, .f32⟩
  | .hbm, ⟨10, _⟩ => ⟨S_, .i32⟩
  | .hbm, ⟨11, _⟩ => ⟨S32x256, .i32⟩
  | .hbm, ⟨12, _⟩ => ⟨S32x256, .i1⟩
  | .hbm, ⟨13, _⟩ => ⟨S_, .i32⟩
  | .hbm, ⟨14, _⟩ => ⟨S32x256, .i32⟩
  | .hbm, ⟨15, _⟩ => ⟨S32x256, .i32⟩
  | .hbm, ⟨16, _⟩ => ⟨S32x256, .i32⟩
  | .hbm, ⟨17, _⟩ => ⟨S32x256x1, .i32⟩
  | .hbm, ⟨18, _⟩ => ⟨S32x256x512, .f32⟩
  | .hbm, ⟨19, _⟩ => ⟨S32x256x512, .bf16⟩
  | .hbm, ⟨20, _⟩ => ⟨S2x512x512, .f32⟩
  | .hbm, ⟨21, _⟩ => ⟨S2x512x512, .f32⟩
  | .hbm, ⟨22, _⟩ => ⟨S2x512x512, .f32⟩
  | .hbm, ⟨23, _⟩ => ⟨S2x1536x512, .f32⟩
  | .hbm, ⟨24, _⟩ => ⟨S2x512x1536, .f32⟩
  | .hbm, ⟨25, _⟩ => ⟨S1x512x1536, .f32⟩
  | .hbm, ⟨26, _⟩ => ⟨S512x1536, .f32⟩
  | .hbm, ⟨27, _⟩ => ⟨S1x512x1536, .f32⟩
  | .hbm, ⟨28, _⟩ => ⟨S512x1536, .f32⟩
  | .hbm, ⟨29, _⟩ => ⟨S512x3072, .f32⟩
  | .hbm, ⟨30, _⟩ => ⟨S512x3072, .bf16⟩
  | .hbm, ⟨31, _⟩ => ⟨S2x2048, .f32⟩
  | .hbm, ⟨32, _⟩ => ⟨S2x512, .f32⟩
  | .hbm, ⟨33, _⟩ => ⟨S2x512, .f32⟩
  | .hbm, ⟨34, _⟩ => ⟨S2x512, .f32⟩
  | .hbm, ⟨35, _⟩ => ⟨S2x1536, .f32⟩
  | .hbm, ⟨36, _⟩ => ⟨S1x1536, .f32⟩
  | .hbm, ⟨37, _⟩ => ⟨S1536, .f32⟩
  | .hbm, ⟨38, _⟩ => ⟨S1x1536, .f32⟩
  | .hbm, ⟨39, _⟩ => ⟨S1536, .f32⟩
  | .hbm, ⟨40, _⟩ => ⟨S3072, .f32⟩
  | .hbm, ⟨41, _⟩ => ⟨S1x3072, .f32⟩
  | .hbm, ⟨42, _⟩ => ⟨S2x512x1024, .f32⟩
  | .hbm, ⟨43, _⟩ => ⟨S2x512x1024, .f32⟩
  | .hbm, ⟨44, _⟩ => ⟨S2x512x1024, .f32⟩
  | .hbm, ⟨45, _⟩ => ⟨S2x1536x1024, .f32⟩
  | .hbm, ⟨46, _⟩ => ⟨S2x1024x1536, .f32⟩
  | .hbm, ⟨47, _⟩ => ⟨S1x1024x1536, .f32⟩
  | .hbm, ⟨48, _⟩ => ⟨S1024x1536, .f32⟩
  | .hbm, ⟨49, _⟩ => ⟨S1x1024x1536, .f32⟩
  | .hbm, ⟨50, _⟩ => ⟨S1024x1536, .f32⟩
  | .hbm, ⟨51, _⟩ => ⟨S1024x3072, .f32⟩
  | .hbm, ⟨52, _⟩ => ⟨S1024x3072, .bf16⟩
  | .hbm, ⟨53, _⟩ => ⟨S2x2048, .f32⟩
  | .hbm, ⟨54, _⟩ => ⟨S2x512, .f32⟩
  | .hbm, ⟨55, _⟩ => ⟨S2x512, .f32⟩
  | .hbm, ⟨56, _⟩ => ⟨S2x512, .f32⟩
  | .hbm, ⟨57, _⟩ => ⟨S2x1536, .f32⟩
  | .hbm, ⟨58, _⟩ => ⟨S1x1536, .f32⟩
  | .hbm, ⟨59, _⟩ => ⟨S1536, .f32⟩
  | .hbm, ⟨60, _⟩ => ⟨S1x1536, .f32⟩
  | .hbm, ⟨61, _⟩ => ⟨S1536, .f32⟩
  | .hbm, ⟨62, _⟩ => ⟨S3072, .f32⟩
  | .hbm, ⟨63, _⟩ => ⟨S1x3072, .f32⟩
  | .hbm, ⟨64, _⟩ => ⟨S32x256x1024, .f32⟩
  | .hbm, ⟨65, _⟩ => ⟨S32x2x512, .f32⟩
  | .hbm, ⟨66, _⟩ => ⟨S32x2x512, .f32⟩
  | .hbm, ⟨67, _⟩ => ⟨S32x256x2x512, .f32⟩
  | .hbm, ⟨68, _⟩ => ⟨S2x32x512, .f32⟩
  | .hbm, ⟨69, _⟩ => ⟨S2x32x512, .f32⟩
  | .local _ .vmem, ⟨0, _⟩ => ⟨S1x256x512, .bf16⟩
  | .local _ .vmem, ⟨1, _⟩ => ⟨S1x256x512, .bf16⟩
  | .local _ .vmem, ⟨2, _⟩ => ⟨S512x3072, .bf16⟩
  | .local _ .vmem, ⟨3, _⟩ => ⟨S1x3072, .f32⟩
  | .local _ .vmem, ⟨4, _⟩ => ⟨S1024x3072, .bf16⟩
  | .local _ .vmem, ⟨5, _⟩ => ⟨S1x3072, .f32⟩
  | .local _ .vmem, ⟨6, _⟩ => ⟨S1x256x1024, .f32⟩
  | .local _ .vmem, ⟨7, _⟩ => ⟨S1x256x1024, .f32⟩
  | .local _ .vmem, ⟨8, _⟩ => ⟨S1x2x512, .f32⟩
  | .local _ .vmem, ⟨9, _⟩ => ⟨S1x2x512, .f32⟩
  | .local _ .vmem, ⟨10, _⟩ => ⟨S1x2x512, .f32⟩
  | .local _ .vmem, ⟨11, _⟩ => ⟨S1x2x512, .f32⟩
  | _, _ => ⟨S32x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  bitsLt_bf16_f32 : FTy.bits .bf16 < FTy.bits .f32
  slices_S2x2048x512_S2x512x512_0_0_0 : S2x2048x512.Slices ![0, 0, 0] S2x512x512
  slices_S2x2048x512_S2x512x512_0_1024_0 : S2x2048x512.Slices ![0, 1024, 0] S2x512x512
  slices_S2x2048x512_S2x512x512_0_1536_0 : S2x2048x512.Slices ![0, 1536, 0] S2x512x512
  concatenates_S2x512x512_S2x512x512_S2x512x512_S2x1536x512_d1 : Shape.Concatenates [S2x512x512, S2x512x512, S2x512x512] S2x1536x512 1
  transposes_S2x1536x512_S2x512x1536_0_2_1 : S2x1536x512.Transposes [0, 2, 1] S2x512x1536
  slices_S2x512x1536_S1x512x1536_0_0_0 : S2x512x1536.Slices ![0, 0, 0] S1x512x1536
  shapeCasts_S1x512x1536_S512x1536 : S1x512x1536.ShapeCasts S512x1536
  slices_S2x512x1536_S1x512x1536_1_0_0 : S2x512x1536.Slices ![1, 0, 0] S1x512x1536
  concatenates_S512x1536_S512x1536_S512x3072_d1 : Shape.Concatenates [S512x1536, S512x1536] S512x3072 1
  slices_S2x2048_S2x512_0_0 : S2x2048.Slices ![0, 0] S2x512
  slices_S2x2048_S2x512_0_1024 : S2x2048.Slices ![0, 1024] S2x512
  slices_S2x2048_S2x512_0_1536 : S2x2048.Slices ![0, 1536] S2x512
  concatenates_S2x512_S2x512_S2x512_S2x1536_d1 : Shape.Concatenates [S2x512, S2x512, S2x512] S2x1536 1
  slices_S2x1536_S1x1536_0_0 : S2x1536.Slices ![0, 0] S1x1536
  shapeCasts_S1x1536_S1536 : S1x1536.ShapeCasts S1536
  slices_S2x1536_S1x1536_1_0 : S2x1536.Slices ![1, 0] S1x1536
  concatenates_S1536_S1536_S3072_d0 : Shape.Concatenates [S1536, S1536] S3072 0
  shapeCasts_S3072_S1x3072 : S3072.ShapeCasts S1x3072
  slices_S2x2048x1024_S2x512x1024_0_0_0 : S2x2048x1024.Slices ![0, 0, 0] S2x512x1024
  slices_S2x2048x1024_S2x512x1024_0_1024_0 : S2x2048x1024.Slices ![0, 1024, 0] S2x512x1024
  slices_S2x2048x1024_S2x512x1024_0_1536_0 : S2x2048x1024.Slices ![0, 1536, 0] S2x512x1024
  concatenates_S2x512x1024_S2x512x1024_S2x512x1024_S2x1536x1024_d1 : Shape.Concatenates [S2x512x1024, S2x512x1024, S2x512x1024] S2x1536x1024 1
  transposes_S2x1536x1024_S2x1024x1536_0_2_1 : S2x1536x1024.Transposes [0, 2, 1] S2x1024x1536
  slices_S2x1024x1536_S1x1024x1536_0_0_0 : S2x1024x1536.Slices ![0, 0, 0] S1x1024x1536
  shapeCasts_S1x1024x1536_S1024x1536 : S1x1024x1536.ShapeCasts S1024x1536
  slices_S2x1024x1536_S1x1024x1536_1_0_0 : S2x1024x1536.Slices ![1, 0, 0] S1x1024x1536
  concatenates_S1024x1536_S1024x1536_S1024x3072_d1 : Shape.Concatenates [S1024x1536, S1024x1536] S1024x3072 1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x512 : S256x3072.Slices ![0, 0] S256x512
  slices_S256x3072_o0_512_S256x512 : S256x3072.Slices ![0, 512] S256x512
  slices_S256x3072_o0_1024_S256x512 : S256x3072.Slices ![0, 1024] S256x512
  slices_S256x3072_o0_1536_S256x512 : S256x3072.Slices ![0, 1536] S256x512
  slices_S256x3072_o0_2048_S256x512 : S256x3072.Slices ![0, 2048] S256x512
  slices_S256x3072_o0_2560_S256x512 : S256x3072.Slices ![0, 2560] S256x512
  concatenates_S256x512_S256x512_S256x1024_d1 : Shape.Concatenates [S256x512, S256x512] S256x1024 1
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x256x1024_S1x256x512_0_0_0 : ∀ a, (![0, 0, 0] : Fin 3 → Nat) a + S1x256x512.size a ≤ S1x256x1024.size a
  shapeCasts_S256x512_S1x256x512 : S256x512.ShapeCasts S1x256x512
  inb_S1x256x1024_S1x256x512_0_0_512 : ∀ a, (![0, 0, 512] : Fin 3 → Nat) a + S1x256x512.size a ≤ S1x256x1024.size a
  slices_S256x512_o255_0_S1x512 : S256x512.Slices ![255, 0] S1x512
  shapeCasts_S1x512_S512 : S1x512.ShapeCasts S512
  inb_S1x2x512_S1x1x512_0_0_0 : ∀ a, (![0, 0, 0] : Fin 3 → Nat) a + S1x1x512.size a ≤ S1x2x512.size a
  h_S1x1x512 : 0 < S1x1x512.numel
  shapeCasts_S1x1x512_S512 : S1x1x512.ShapeCasts S512
  shapeCasts_S512_S1x1x512 : S512.ShapeCasts S1x1x512
  inb_S1x2x512_S1x1x512_0_1_0 : ∀ a, (![0, 1, 0] : Fin 3 → Nat) a + S1x1x512.size a ≤ S1x2x512.size a
  shapeCasts_S32x256x1024_S32x256x2x512 : S32x256x1024.ShapeCasts S32x256x2x512
  transposes_S32x2x512_S2x32x512_1_0_2 : S32x2x512.Transposes [1, 0, 2] S2x32x512
  gather_S50000x512_S32x256x1_S32x256x512_2_0_n_n_0_2_1512_wf : GatherDims.WF S50000x512 S32x256x1 S32x256x512 [2] [0] [] [0] [] 2 ![1, 512]
  dot_S256x512_S512x3072_S256x3072_1_0_0_1_n_n_wf : DotDims.WF S256x512 S512x3072 S256x3072 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S32x256x512.size a
  hwx0_0 : ∀ i : grid0.Coords, EltTy.bits .bf16 = 32 ∨ (Rect.block (s := S32x256x512) S1x256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S512x3072.size a
  hwx0_1 : ∀ i : grid0.Coords, EltTy.bits .bf16 = 32 ∨ (Rect.block (s := S512x3072) S512x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S32x256x1024.size a
  hwx0_5 : ∀ i : grid0.Coords, EltTy.bits .f32 = 32 ∨ (Rect.block (s := S32x256x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x512.size a ≤ S32x2x512.size a
  hwx0_6 : ∀ i : grid0.Coords, EltTy.bits .f32 = 32 ∨ (Rect.block (s := S32x2x512) S1x2x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x512.size a ≤ S32x2x512.size a
  hwx0_7 : ∀ i : grid0.Coords, EltTy.bits .f32 = 32 ∨ (Rect.block (s := S32x2x512) S1x2x512.size (cc0_transform_7 i) (hinb0_7 i)).WholeWords (EltTy.packing .f32)

variable [Facts₀]

def gather_S50000x512_S32x256x1_S32x256x512_2_0_n_n_0_2_1512 : GatherDims S50000x512 S32x256x1 S32x256x512 where
  offsetDims := [2]
  collapsedSliceDims := [0]
  operandBatchingDims := []
  startIndicesBatchingDims := []
  startIndexMap := [0]
  indexVectorDim := 2
  sliceSizes := ![1, 512]
  wf := gather_S50000x512_S32x256x1_S32x256x512_2_0_n_n_0_2_1512_wf
def dot_S256x512_S512x3072_S256x3072_1_0_0_1_n_n : DotDims S256x512 S512x3072 S256x3072 where
  lhsContracting := [1]
  rhsContracting := [0]
  lhsNonContracting := [0]
  rhsNonContracting := [1]
  lhsBatch := []
  rhsBatch := []
  wf := dot_S256x512_S512x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_v7) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v52_1) S1x2x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v52_2) S1x2x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x256 : Shape := ⟨2, ![32, 256]⟩
abbrev S50000x512 : Shape := ⟨2, ![50000, 512]⟩
abbrev S2x2048x512 : Shape := ⟨3, ![2, 2048, 512]⟩
abbrev S2x2048 : Shape := ⟨2, ![2, 2048]⟩
abbrev S2x2048x1024 : Shape := ⟨3, ![2, 2048, 1024]⟩
abbrev S_ : Shape := ⟨0, ![]⟩
abbrev S32x256x1 : Shape := ⟨3, ![32, 256, 1]⟩
abbrev S32x256x512 : Shape := ⟨3, ![32, 256, 512]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S32x256x2048 : Shape := ⟨3, ![32, 256, 2048]⟩
abbrev S1x1x2048 : Shape := ⟨3, ![1, 1, 2048]⟩
abbrev S32x256x1024 : Shape := ⟨3, ![32, 256, 1024]⟩
abbrev S1x2048x1024 : Shape := ⟨3, ![1, 2048, 1024]⟩
abbrev S2048x1024 : Shape := ⟨2, ![2048, 1024]⟩
abbrev S32x256x1x512 : Shape := ⟨4, ![32, 256, 1, 512]⟩
abbrev S32x256x2x512 : Shape := ⟨4, ![32, 256, 2, 512]⟩
abbrev S32x1x512 : Shape := ⟨3, ![32, 1, 512]⟩
abbrev S32x512 : Shape := ⟨2, ![32, 512]⟩
abbrev S1x32x512 : Shape := ⟨3, ![1, 32, 512]⟩
abbrev S2x32x512 : Shape := ⟨3, ![2, 32, 512]⟩

abbrev nBuf : Space → Nat
  | .hbm => 187
  | .vmem => 0
  | .smem => 0
  | _ => 0

abbrev hbmTy0_0 (i : Nat) : BufTy := match i % 128 with
  | 0 => ⟨S32x256, .i32⟩
  | 1 => ⟨S50000x512, .f32⟩
  | 2 => ⟨S2x2048x512, .f32⟩
  | 3 => ⟨S2x2048x512, .f32⟩
  | 4 => ⟨S2x2048, .f32⟩
  | 5 => ⟨S2x2048, .f32⟩
  | 6 => ⟨S2x2048x1024, .f32⟩
  | 7 => ⟨S2x2048x512, .f32⟩
  | 8 => ⟨S2x2048, .f32⟩
  | 9 => ⟨S2x2048, .f32⟩
  | 10 => ⟨S_, .i32⟩
  | 11 => ⟨S32x256, .i32⟩
  | 12 => ⟨S32x256, .i1⟩
  | 13 => ⟨S_, .i32⟩
  | 14 => ⟨S32x256, .i32⟩
  | 15 => ⟨S32x256, .i32⟩
  | 16 => ⟨S32x256, .i32⟩
  | 17 => ⟨S32x256x1, .i32⟩
  | 18 => ⟨S32x256x512, .f32⟩
  | 19 => ⟨S1x2048x512, .f32⟩
  | 20 => ⟨S2048x512, .f32⟩
  | 21 => ⟨S1x2048, .f32⟩
  | 22 => ⟨S2048, .f32⟩
  | 23 => ⟨S1x2048, .f32⟩
  | 24 => ⟨S2048, .f32⟩
  | 25 => ⟨S32x256x2048, .f32⟩
  | 26 => ⟨S1x1x2048, .f32⟩
  | 27 => ⟨S32x256x2048, .f32⟩
  | 28 => ⟨S32x256x2048, .f32⟩
  | 29 => ⟨S1x1x2048, .f32⟩
  | 30 => ⟨S32x256x2048, .f32⟩
  | 31 => ⟨S32x256x2048, .f32⟩
  | 32 => ⟨S32x256x512, .f32⟩
  | 33 => ⟨S32x256x512, .f32⟩
  | 34 => ⟨S32x256x512, .f32⟩
  | 35 => ⟨S32x256x512, .f32⟩
  | 36 => ⟨S32x256x512, .f32⟩
  | 37 => ⟨S32x256x512, .f32⟩
  | 38 => ⟨S_, .f32⟩
  | 39 => ⟨S32x256x512, .f32⟩
  | 40 => ⟨S32x256x512, .f32⟩
  | 41 => ⟨S_, .f32⟩
  | 42 => ⟨S32x256x512, .f32⟩
  | 43 => ⟨S32x256x512, .f32⟩
  | 44 => ⟨S32x256x512, .f32⟩
  | 45 => ⟨S32x256x512, .f32⟩
  | 46 => ⟨S32x256x512, .f32⟩
  | 47 => ⟨S32x256x512, .f32⟩
  | 48 => ⟨S_, .f32⟩
  | 49 => ⟨S32x256x512, .f32⟩
  | 50 => ⟨S32x256x512, .f32⟩
  | 51 => ⟨S_, .f32⟩
  | 52 => ⟨S32x256x512, .f32⟩
  | 53 => ⟨S32x256x512, .f32⟩
  | 54 => ⟨S32x256x512, .f32⟩
  | 55 => ⟨S32x256x512, .f32⟩
  | 56 => ⟨S1x2048x512, .f32⟩
  | 57 => ⟨S2048x512, .f32⟩
  | 58 => ⟨S1x2048, .f32⟩
  | 59 => ⟨S2048, .f32⟩
  | 60 => ⟨S1x2048, .f32⟩
  | 61 => ⟨S2048, .f32⟩
  | 62 => ⟨S32x256x2048, .f32⟩
  | 63 => ⟨S1x1x2048, .f32⟩
  | 64 => ⟨S32x256x2048, .f32⟩
  | 65 => ⟨S32x256x2048, .f32⟩
  | 66 => ⟨S1x1x2048, .f32⟩
  | 67 => ⟨S32x256x2048, .f32⟩
  | 68 => ⟨S32x256x2048, .f32⟩
  | 69 => ⟨S32x256x512, .f32⟩
  | 70 => ⟨S32x256x512, .f32⟩
  | 71 => ⟨S32x256x512, .f32⟩
  | 72 => ⟨S32x256x512, .f32⟩
  | 73 => ⟨S32x256x512, .f32⟩
  | 74 => ⟨S32x256x512, .f32⟩
  | 75 => ⟨S_, .f32⟩
  | 76 => ⟨S32x256x512, .f32⟩
  | 77 => ⟨S32x256x512, .f32⟩
  | 78 => ⟨S_, .f32⟩
  | 79 => ⟨S32x256x512, .f32⟩
  | 80 => ⟨S32x256x512, .f32⟩
  | 81 => ⟨S32x256x512, .f32⟩
  | 82 => ⟨S32x256x512, .f32⟩
  | 83 => ⟨S32x256x512, .f32⟩
  | 84 => ⟨S32x256x512, .f32⟩
  | 85 => ⟨S_, .f32⟩
  | 86 => ⟨S32x256x512, .f32⟩
  | 87 => ⟨S32x256x512, .f32⟩
  | 88 => ⟨S_, .f32⟩
  | 89 => ⟨S32x256x512, .f32⟩
  | 90 => ⟨S32x256x512, .f32⟩
  | 91 => ⟨S32x256x512, .f32⟩
  | 92 => ⟨S32x256x512, .f32⟩
  | 93 => ⟨S32x256x1024, .f32⟩
  | 94 => ⟨S1x2048x1024, .f32⟩
  | 95 => ⟨S2048x1024, .f32⟩
  | 96 => ⟨S1x2048, .f32⟩
  | 97 => ⟨S2048, .f32⟩
  | 98 => ⟨S1x2048, .f32⟩
  | 99 => ⟨S2048, .f32⟩
  | 100 => ⟨S32x256x2048, .f32⟩
  | 101 => ⟨S1x1x2048, .f32⟩
  | 102 => ⟨S32x256x2048, .f32⟩
  | 103 => ⟨S32x256x2048, .f32⟩
  | 104 => ⟨S1x1x2048, .f32⟩
  | 105 => ⟨S32x256x2048, .f32⟩
  | 106 => ⟨S32x256x2048, .f32⟩
  | 107 => ⟨S32x256x512, .f32⟩
  | 108 => ⟨S32x256x512, .f32⟩
  | 109 => ⟨S32x256x512, .f32⟩
  | 110 => ⟨S32x256x512, .f32⟩
  | 111 => ⟨S32x256x512, .f32⟩
  | 112 => ⟨S32x256x512, .f32⟩
  | 113 => ⟨S_, .f32⟩
  | 114 => ⟨S32x256x512, .f32⟩
  | 115 => ⟨S32x256x512, .f32⟩
  | 116 => ⟨S_, .f32⟩
  | 117 => ⟨S32x256x512, .f32⟩
  | 118 => ⟨S32x256x512, .f32⟩
  | 119 => ⟨S32x256x512, .f32⟩
  | 120 => ⟨S32x256x512, .f32⟩
  | 121 => ⟨S32x256x512, .f32⟩
  | 122 => ⟨S32x256x512, .f32⟩
  | 123 => ⟨S_, .f32⟩
  | 124 => ⟨S32x256x512, .f32⟩
  | 125 => ⟨S32x256x512, .f32⟩
  | 126 => ⟨S_, .f32⟩
  | 127 => ⟨S32x256x512, .f32⟩
  | _ => ⟨S32x256, .i32⟩

abbrev hbmTy0_1 (i : Nat) : BufTy := match i % 128 with
  | 0 => ⟨S32x256x512, .f32⟩
  | 1 => ⟨S32x256x512, .f32⟩
  | 2 => ⟨S32x256x512, .f32⟩
  | 3 => ⟨S1x2048x1024, .f32⟩
  | 4 => ⟨S2048x1024, .f32⟩
  | 5 => ⟨S1x2048, .f32⟩
  | 6 => ⟨S2048, .f32⟩
  | 7 => ⟨S1x2048, .f32⟩
  | 8 => ⟨S2048, .f32⟩
  | 9 => ⟨S32x256x2048, .f32⟩
  | 10 => ⟨S1x1x2048, .f32⟩
  | 11 => ⟨S32x256x2048, .f32⟩
  | 12 => ⟨S32x256x2048, .f32⟩
  | 13 => ⟨S1x1x2048, .f32⟩
  | 14 => ⟨S32x256x2048, .f32⟩
  | 15 => ⟨S32x256x2048, .f32⟩
  | 16 => ⟨S32x256x512, .f32⟩
  | 17 => ⟨S32x256x512, .f32⟩
  | 18 => ⟨S32x256x512, .f32⟩
  | 19 => ⟨S32x256x512, .f32⟩
  | 20 => ⟨S32x256x512, .f32⟩
  | 21 => ⟨S32x256x512, .f32⟩
  | 22 => ⟨S_, .f32⟩
  | 23 => ⟨S32x256x512, .f32⟩
  | 24 => ⟨S32x256x512, .f32⟩
  | 25 => ⟨S_, .f32⟩
  | 26 => ⟨S32x256x512, .f32⟩
  | 27 => ⟨S32x256x512, .f32⟩
  | 28 => ⟨S32x256x512, .f32⟩
  | 29 => ⟨S32x256x512, .f32⟩
  | 30 => ⟨S32x256x512, .f32⟩
  | 31 => ⟨S32x256x512, .f32⟩
  | 32 => ⟨S_, .f32⟩
  | 33 => ⟨S32x256x512, .f32⟩
  | 34 => ⟨S32x256x512, .f32⟩
  | 35 => ⟨S_, .f32⟩
  | 36 => ⟨S32x256x512, .f32⟩
  | 37 => ⟨S32x256x512, .f32⟩
  | 38 => ⟨S32x256x512, .f32⟩
  | 39 => ⟨S32x256x512, .f32⟩
  | 40 => ⟨S32x256x512, .f32⟩
  | 41 => ⟨S32x256x512, .f32⟩
  | 42 => ⟨S32x256x1x512, .f32⟩
  | 43 => ⟨S32x256x1x512, .f32⟩
  | 44 => ⟨S32x256x2x512, .f32⟩
  | 45 => ⟨S32x1x512, .f32⟩
  | 46 => ⟨S32x512, .f32⟩
  | 47 => ⟨S32x1x512, .f32⟩
  | 48 => ⟨S32x512, .f32⟩
  | 49 => ⟨S1x32x512, .f32⟩
  | 50 => ⟨S1x32x512, .f32⟩
  | 51 => ⟨S2x32x512, .f32⟩
  | 52 => ⟨S32x1x512, .f32⟩
  | 53 => ⟨S32x512, .f32⟩
  | 54 => ⟨S32x1x512, .f32⟩
  | 55 => ⟨S32x512, .f32⟩
  | 56 => ⟨S1x32x512, .f32⟩
  | 57 => ⟨S1x32x512, .f32⟩
  | 58 => ⟨S2x32x512, .f32⟩
  | _ => ⟨S32x256, .i32⟩

abbrev hbmTy (i : Nat) : BufTy := match i / 128 with
  | 0 => hbmTy0_0 i
  | 1 => hbmTy0_1 i
  | _ => ⟨S32x256, .i32⟩

abbrev bufTy : (tb : Table) → Fin (tcTables nBuf tb) → BufTy
  | .hbm, ⟨i, _⟩ => hbmTy i
  | _, _ => ⟨S32x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_cst_7 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_8 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_10 : Ref sig .tc := ⟨.hbm, 123, rfl⟩
abbrev main_v101 : Ref sig .tc := ⟨.hbm, 124, rfl⟩
abbrev main_v102 : Ref sig .tc := ⟨.hbm, 125, rfl⟩
abbrev main_cst_11 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_12 : Ref sig .tc := ⟨.hbm, 150, rfl⟩
abbrev main_v126 : Ref sig .tc := ⟨.hbm, 151, rfl⟩
abbrev main_v127 : Ref sig .tc := ⟨.hbm, 152, rfl⟩
abbrev main_cst_13 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_14 : Ref sig .tc := ⟨.hbm, 160, rfl⟩
abbrev main_v134 : Ref sig .tc := ⟨.hbm, 161, rfl⟩
abbrev main_v135 : Ref sig .tc := ⟨.hbm, 162, rfl⟩
abbrev main_cst_15 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩

abbrev nD : Nat := 1
abbrev τ : Topo := Topo.v7x

variable {F : FTy → Type} [FloatOps F]

class Facts₀ : Prop where
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  slices_S2x2048x512_S1x2048x512_0_0_0 : S2x2048x512.Slices ![0, 0, 0] S1x2048x512
  shapeCasts_S1x2048x512_S2048x512 : S1x2048x512.ShapeCasts S2048x512
  slices_S2x2048_S1x2048_0_0 : S2x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S32x256x2048_0_1_2 : S1x1x2048.BroadcastsInDim S32x256x2048 (![0, 1, 2] : Fin 3 → Fin S32x256x2048.rank)
  slices_S32x256x2048_S32x256x512_0_0_0 : S32x256x2048.Slices ![0, 0, 0] S32x256x512
  slices_S32x256x2048_S32x256x512_0_0_512 : S32x256x2048.Slices ![0, 0, 512] S32x256x512
  slices_S32x256x2048_S32x256x512_0_0_1024 : S32x256x2048.Slices ![0, 0, 1024] S32x256x512
  slices_S32x256x2048_S32x256x512_0_0_1536 : S32x256x2048.Slices ![0, 0, 1536] S32x256x512
  bcast_S_S32x256x512 : S_.BroadcastsInDim S32x256x512 (![] : Fin 0 → Fin S32x256x512.rank)
  slices_S2x2048x512_S1x2048x512_1_0_0 : S2x2048x512.Slices ![1, 0, 0] S1x2048x512
  slices_S2x2048_S1x2048_1_0 : S2x2048.Slices ![1, 0] S1x2048
  concatenates_S32x256x512_S32x256x512_S32x256x1024_d2 : Shape.Concatenates [S32x256x512, S32x256x512] S32x256x1024 2
  slices_S2x2048x1024_S1x2048x1024_0_0_0 : S2x2048x1024.Slices ![0, 0, 0] S1x2048x1024
  shapeCasts_S1x2048x1024_S2048x1024 : S1x2048x1024.ShapeCasts S2048x1024
  slices_S2x2048x1024_S1x2048x1024_1_0_0 : S2x2048x1024.Slices ![1, 0, 0] S1x2048x1024
  bcast_S32x256x512_S32x256x1x512_0_1_3 : S32x256x512.BroadcastsInDim S32x256x1x512 (![0, 1, 3] : Fin 3 → Fin S32x256x1x512.rank)
  concatenates_S32x256x1x512_S32x256x1x512_S32x256x2x512_d2 : Shape.Concatenates [S32x256x1x512, S32x256x1x512] S32x256x2x512 2
  slices_S32x256x512_S32x1x512_0_255_0 : S32x256x512.Slices ![0, 255, 0] S32x1x512
  shapeCasts_S32x1x512_S32x512 : S32x1x512.ShapeCasts S32x512
  bcast_S32x512_S1x32x512_1_2 : S32x512.BroadcastsInDim S1x32x512 (![1, 2] : Fin 2 → Fin S1x32x512.rank)
  concatenates_S1x32x512_S1x32x512_S2x32x512_d0 : Shape.Concatenates [S1x32x512, S1x32x512] S2x32x512 0
  gather_S50000x512_S32x256x1_S32x256x512_2_0_n_n_0_2_1512_wf : GatherDims.WF S50000x512 S32x256x1 S32x256x512 [2] [0] [] [0] [] 2 ![1, 512]
  dot_S32x256x512_S2048x512_S32x256x2048_2_1_01_0_n_n_wf : DotDims.WF S32x256x512 S2048x512 S32x256x2048 [2] [1] [0, 1] [0] [] []
  dot_S32x256x1024_S2048x1024_S32x256x2048_2_1_01_0_n_n_wf : DotDims.WF S32x256x1024 S2048x1024 S32x256x2048 [2] [1] [0, 1] [0] [] []

variable [Facts₀]

def gather_S50000x512_S32x256x1_S32x256x512_2_0_n_n_0_2_1512 : GatherDims S50000x512 S32x256x1 S32x256x512 where
  offsetDims := [2]
  collapsedSliceDims := [0]
  operandBatchingDims := []
  startIndicesBatchingDims := []
  startIndexMap := [0]
  indexVectorDim := 2
  sliceSizes := ![1, 512]
  wf := gather_S50000x512_S32x256x1_S32x256x512_2_0_n_n_0_2_1512_wf
def dot_S32x256x512_S2048x512_S32x256x2048_2_1_01_0_n_n : DotDims S32x256x512 S2048x512 S32x256x2048 where
  lhsContracting := [2]
  rhsContracting := [1]
  lhsNonContracting := [0, 1]
  rhsNonContracting := [0]
  lhsBatch := []
  rhsBatch := []
  wf := dot_S32x256x512_S2048x512_S32x256x2048_2_1_01_0_n_n_wf
def dot_S32x256x1024_S2048x1024_S32x256x2048_2_1_01_0_n_n : DotDims S32x256x1024 S2048x1024 S32x256x2048 where
  lhsContracting := [2]
  rhsContracting := [1]
  lhsNonContracting := [0, 1]
  rhsNonContracting := [0]
  lhsBatch := []
  rhsBatch := []
  wf := dot_S32x256x1024_S2048x1024_S32x256x2048_2_1_01_0_n_n_wf

class Facts : Prop extends Facts₀ where

variable [Facts]
-- ==== Proof.FrameDefsBits.lean ====
/-
  What the fused two-layer cell kernel leaves behind, stated once for the frame proof and the value proof to share.

  One grid point is one batch row: the body reads that row's 256 embedded tokens (a 1×256×512 block), the two packed weight
  matrices and the two packed bias rows (whole, the same at every point), and writes three blocks: the row's 256×1024 slab of
  per-timestep outputs in two column halves (layer 0 then layer 1), and two 2×512 blocks holding the last timestep's hidden
  and cell values of the forward direction, one row per layer. Each output buffer after the body is therefore the function
  assembled from its two stores, each store's value a pure term (a named payload of the body) of the five input blocks.

  `V` is what the region finds in memory: the launch memory after the host operations that gather the embeddings and pack the
  weights and biases. `iblk` is a window's block at a grid point read off `V`. `dats` is the pipeline's proof data: arrays at
  `V`, input buffers at their blocks, output buffers at the assembled functions.
-/
import proofs.«122567_j76991583748156_2_alg».proof.Proof.Gen.Kernel.Launch
import proofs.«122567_j76991583748156_2_alg».proof.Proof.Gen.Kernel.Skeleton
import proofs.«122567_j76991583748156_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Memory as the region finds it -/

/-- Core `c`'s buffer contents when the region is entered: the launch memory after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

/-- The whole token block. -/
abbrev rTok : Rect S1x256x512 := Rect.unit (s := S1x256x512) ![0, 0, 0] S1x256x512.size inb_S1x256x512_S1x256x512_0_0_0
/-- The whole layer-0 weight matrix. -/
abbrev rW0 : Rect S512x3072 := Rect.unit (s := S512x3072) ![0, 0] S512x3072.size inb_S512x3072_S512x3072_0_0
/-- A whole bias row. -/
abbrev rBias : Rect S1x3072 := Rect.unit (s := S1x3072) ![0, 0] S1x3072.size inb_S1x3072_S1x3072_0_0
/-- The whole layer-1 weight matrix. -/
abbrev rW1 : Rect S1024x3072 := Rect.unit (s := S1024x3072) ![0, 0] S1024x3072.size inb_S1024x3072_S1024x3072_0_0
/-- Columns 0–511 of the per-timestep output slab: layer 0. -/
abbrev rEncLo : Rect S1x256x1024 := Rect.unit (s := S1x256x1024) ![0, 0, 0] S1x256x512.size inb_S1x256x1024_S1x256x512_0_0_0
/-- Columns 512–1023 of the per-timestep output slab: layer 1. -/
abbrev rEncHi : Rect S1x256x1024 := Rect.unit (s := S1x256x1024) ![0, 0, 512] S1x256x512.size inb_S1x256x1024_S1x256x512_0_0_512
/-- Row 0 of a last-timestep block: layer 0. -/
abbrev rRow0 : Rect S1x2x512 := Rect.unit (s := S1x2x512) ![0, 0, 0] S1x1x512.size inb_S1x2x512_S1x1x512_0_0_0
/-- Row 1 of a last-timestep block: layer 1. -/
abbrev rRow1 : Rect S1x2x512 := Rect.unit (s := S1x2x512) ![0, 1, 0] S1x1x512.size inb_S1x2x512_S1x1x512_0_1_0

/-! ## The values the body computes, as terms of the five input blocks

`tok` the token block, `w0` / `b0` layer 0's packed weights and bias, `w1` / `b1` layer 1's. -/

section Values
variable (tok : Vec F S1x256x512 .bf16) (w0 : Vec F S512x3072 .bf16) (b0 : Vec F S1x3072 .f32)
  (w1 : Vec F S1024x3072 .bf16) (b1 : Vec F S1x3072 .f32)

/-- Layer 0, forward direction: the cell value `sigmoid(i) * tanh(g)`. -/
def cell0f : FVec F S256x512 .f32 := k0_pay2 (View.ld tok rTok) (View.ld w0 rW0) (View.ld b0 rBias)
/-- Layer 0, forward direction: the hidden value `sigmoid(o) * tanh(cell)`. -/
def hid0f : FVec F S256x512 .f32 := k0_pay3 (View.ld tok rTok) (View.ld w0 rW0) (View.ld b0 rBias)
/-- Layer 0, backward direction: the hidden value. -/
def hid0b : FVec F S256x512 .f32 := k0_pay4 (View.ld tok rTok) (View.ld w0 rW0) (View.ld b0 rBias)
/-- Layer 1, backward direction: the three gate pre-activations (input, cell candidate, output). -/
def pre1bi : FVec F S256x512 .f32 := k0_pay6 (View.ld tok rTok) (View.ld w0 rW0) (View.ld b0 rBias) (View.ld w1 rW1) (View.ld b1 rBias)
def pre1bg : FVec F S256x512 .f32 := k0_pay7 (View.ld tok rTok) (View.ld w0 rW0) (View.ld b0 rBias) (View.ld w1 rW1) (View.ld b1 rBias)
def pre1bo : FVec F S256x512 .f32 := k0_pay8 (View.ld tok rTok) (View.ld w0 rW0) (View.ld b0 rBias) (View.ld w1 rW1) (View.ld b1 rBias)
/-- Layer 1, forward direction: the cell value. -/
def cell1f : FVec F S256x512 .f32 := k0_pay9 (View.ld tok rTok) (View.ld w0 rW0) (View.ld b0 rBias) (View.ld w1 rW1) (View.ld b1 rBias)
/-- Layer 1, forward direction: the output gate `sigmoid(o)`. -/
def gate1fo : FVec F S256x512 .f32 := k0_pay10 (View.ld tok rTok) (View.ld w0 rW0) (View.ld b0 rBias) (View.ld w1 rW1) (View.ld b1 rBias)

/-- The per-timestep output slab after the body: layer 1's sum of directions in the upper columns (stored last), layer 0's
    in the lower. -/
def out0_5 : Vec F S1x256x1024 .f32 :=
  View.canon [⟨rEncHi, k0_pay13 (pre1bi tok w0 b0 w1 b1) (pre1bg tok w0 b0 w1 b1) (pre1bo tok w0 b0 w1 b1) (cell1f tok w0 b0 w1 b1) (gate1fo tok w0 b0 w1 b1)⟩,
    ⟨rEncLo, k0_pay12 (hid0f tok w0 b0) (hid0b tok w0 b0)⟩]

/-- The last-timestep hidden block after the body: layer 1's row (stored last), layer 0's row. -/
def out0_6 : Vec F S1x2x512 .f32 :=
  View.canon [⟨rRow1, k0_pay15 (cell1f tok w0 b0 w1 b1) (gate1fo tok w0 b0 w1 b1)⟩,
    ⟨rRow0, k0_pay14 (hid0f tok w0 b0)⟩]

/-- The last-timestep cell block after the body: layer 1's row (stored last), layer 0's row. -/
def out0_7 : Vec F S1x2x512 .f32 :=
  View.canon [⟨rRow1, k0_pay17 (cell1f tok w0 b0 w1 b1)⟩,
    ⟨rRow0, k0_pay16 (cell0f tok w0 b0)⟩]

end Values

/-! ## The pipeline's proof data -/

/-- Arrays as the region finds them; after the body at point `t` each input buffer at its block and each output buffer at
    the function assembled from its stores; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

end Cert.Kernel.Frm

end
-- ==== Proof.FrameHostBits.lean ====
/-
  The host side of the frame: what the operations of the entry function around the one region do to memory.

  Before the region 54 operations gather the embedded tokens and slice, concatenate, transpose and round the weights and
  biases into the five arrays the region reads; after it 3 operations reshape and transpose the three arrays it wrote.
  Every one of them writes only its own result buffer and allocates nothing. So no argument array is written before the
  region (`V_main_argK`: the region finds it as launched) nor after it (`W_main_argK`: it ends as launched), the
  entry function is the region continued by the later operations (`hmain`), and those touch unscoped buffers only,
  allocate nothing and write no array a window stages (`sfx_sub`, `sfx_fresh`, `sfx_keeps`).
-/
import proofs.«122567_j76991583748156_2_alg».proof.Proof.FrameDefsBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function around the region -/

/-- No operation before the region allocates a buffer. -/
theorem hostOps0_fresh : (hostOps0 : List (HloOp τ sig (Elt F))).Forall fun op => op.fresh = ∅ := by
  simp only [List.Forall]; repeat' constructor
/-- Nor does any operation after it. -/
theorem hostOps1_fresh : (hostOps1 : List (HloOp τ sig (Elt F))).Forall fun op => op.fresh = ∅ := by
  simp only [List.Forall]; repeat' constructor

/-- The entry function is the operations before the region, the region, the operations after it: run from the launch
    memory it reduces to the region, entered at `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only; with nothing prefetched each such buffer is
    an array of the pipeline or one that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result (the reshaped slab, the two transposed blocks), and
    none of the three is an array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- No operation before the region writes `main_arg0` (the token ids): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes `main_arg1` (the embedding table): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes `main_arg2` (layer 0's input weights): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the region writes `main_arg3` (layer 0's recurrent weights): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation before the region writes `main_arg4` (layer 0's input bias): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation before the region writes `main_arg5` (layer 0's recurrent bias): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation before the region writes `main_arg6` (layer 1's input weights): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation before the region writes `main_arg7` (layer 1's recurrent weights): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No operation before the region writes `main_arg8` (layer 1's input bias): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No operation before the region writes `main_arg9` (layer 1's recurrent bias): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

end Cert.Kernel.Frm

end
-- ==== Proof.FrameBodyBits.lean ====
/-
  The body side of the frame: what one run of the fused two-layer cell kernel does to the eight staging buffers.

  At every grid point each input window's current staging buffer holds that window's block (`before0_W`), whether the
  pipeline fetched it there or not: the token block moves with the point and is fetched every time, the four weight and
  bias blocks never move and are fetched once. The body loads the five input buffers whole, and fills each output buffer
  with two stores whose rectangles tile it (`cover0_W`): the two column halves of the per-timestep slab, the two rows of
  each last-timestep block. (Before each store it also loads the rectangle it is about to overwrite; the loaded value
  is not used.) So it runs, from the inputs at any read contents and the outputs at anything, to the inputs unchanged and
  each output at the function assembled from its two stores (`sound_kernel`), which at a grid point is the library's
  body obligation for the proof data (`body_obligation`).
-/
import proofs.«122567_j76991583748156_2_alg».proof.Proof.FrameDefsBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the body finds in the input windows' buffers -/

/-- Input window 0 (the token block): its current staging buffer holds its block at every point, fetched there or not, for
    any proof data whose array is the region-entry contents and whose body leaves the block in place. Where the window
    was not fetched its block index has not moved, so the block left by the point before is this point's. The window
    is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (layer 0's packed weights): its current staging buffer holds its block at every point, fetched there or not, for
    any proof data whose array is the region-entry contents and whose body leaves the block in place. Where the window
    was not fetched its block index has not moved, so the block left by the point before is this point's. The window
    is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (layer 0's packed bias row): its current staging buffer holds its block at every point, fetched there or not, for
    any proof data whose array is the region-entry contents and whose body leaves the block in place. Where the window
    was not fetched its block index has not moved, so the block left by the point before is this point's. The window
    is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (layer 1's packed weights): its current staging buffer holds its block at every point, fetched there or not, for
    any proof data whose array is the region-entry contents and whose body leaves the block in place. Where the window
    was not fetched its block index has not moved, so the block left by the point before is this point's. The window
    is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (layer 1's packed bias row): its current staging buffer holds its block at every point, fetched there or not, for
    any proof data whose array is the region-entry contents and whose body leaves the block in place. Where the window
    was not fetched its block index has not moved, so the block left by the point before is this point's. The window
    is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same of the proof data of this certificate. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The output windows' stores cover their buffers -/

/-- The two column halves tile the per-timestep slab (checked by evaluation), so every index lies in one of them. -/
theorem cover0_5 (p0 : Vec F S1x256x512 .f32) (p1 : Vec F S1x256x512 .f32) (y : S1x256x1024.Idx) :
    ∃ pc ∈ ([⟨rEncHi, p0⟩, ⟨rEncLo, p1⟩] : List (View.Piece (Elt F) S1x256x1024 .f32)), y ∈ pc.1.set :=
  View.cover_of_tiled [⟨rEncHi, p0⟩, ⟨rEncLo, p1⟩] S1x256x512.size (by rfl) y

/-- The two rows tile a last-timestep block (checked by evaluation), so every index lies in one of them: the hidden
    block's stores, -/
theorem cover0_6 (p0 : Vec F S1x1x512 .f32) (p1 : Vec F S1x1x512 .f32) (y : S1x2x512.Idx) :
    ∃ pc ∈ ([⟨rRow1, p0⟩, ⟨rRow0, p1⟩] : List (View.Piece (Elt F) S1x2x512 .f32)), y ∈ pc.1.set :=
  View.cover_of_tiled [⟨rRow1, p0⟩, ⟨rRow0, p1⟩] S1x1x512.size (by rfl) y

/-- and the cell block's, through the same two rectangles. -/
theorem cover0_7 (p0 : Vec F S1x1x512 .f32) (p1 : Vec F S1x1x512 .f32) (y : S1x2x512.Idx) :
    ∃ pc ∈ ([⟨rRow1, p0⟩, ⟨rRow0, p1⟩] : List (View.Piece (Elt F) S1x2x512 .f32)), y ∈ pc.1.set :=
  cover0_6 p0 p1 y

/-! ## The body's triple -/

set_option maxHeartbeats 1000000 in
/-- The kernel body on whole staging memrefs, the five inputs' at read contents `x0 … x4` and the three outputs' at
    anything, runs to the continuation holding the inputs' as they were and each output's at the function assembled
    from its two stores over `x0 … x4`. The printed function and its two parts are their skeletons: five whole loads,
    then per output rectangle one unused load and one store of a named payload of the loaded values. -/
theorem sound_kernel (c : Dev nD) (E : Set ℕ) (i : grid0.Coords) (arg1 : Memref sig .tc .vmem S1x256x512 .bf16) (harg1 : arg1.IsWhole) (arg2 : Memref sig .tc .vmem S512x3072 .bf16) (harg2 : arg2.IsWhole) (arg3 : Memref sig .tc .vmem S1x3072 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S1x256x1024 .f32) (harg6 : arg6.IsWhole) (arg7 : Memref sig .tc .vmem S1x2x512 .f32) (harg7 : arg7.IsWhole) (arg8 : Memref sig .tc .vmem S1x2x512 .f32) (harg8 : arg8.IsWhole)
    (x0 : Vec F S1x256x512 .bf16) (x1 : Vec F S512x3072 .bf16) (x2 : Vec F S1x3072 .f32) (x3 : Vec F S1024x3072 .bf16) (x4 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _ _)
  isplitl [H6]
  · iexists _; isplitr
    swap; · iexact H6
    ipureintro
    try dsimp only
    exact View.read_writes_eq_canon _ _ _ (cover0_6 _ _)
  iexists _; isplitr
  swap; · iexact H7
  ipureintro
  try dsimp only
  exact View.read_writes_eq_canon _ _ _ (cover0_7 _ _)

/-! ## The body obligation, at a generic point -/

/-- What the body is called with at point `t`: the invariant, the core's debt, and each window's current staging buffer
    whole at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: the same with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies at those blocks; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point: its precondition and postcondition are the eight windows conjoined
    one by one. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.FrameBits.lean ====
/-
  The frame of the kernel program: every weakly fair execution of its entry function terminates without a
  fault, and its ten argument arrays end as launched.

  The run is the library's frame theorem for an entry function with operations on both sides of its one region, fed the
  launch facts, the body obligation at every grid point, and the host-side facts. Its post says every array a window
  stages ends at what the library computes from the proof data, and every other unscoped buffer as the operations after
  the region leave it. None of the ten arguments is staged by a window (the windows stage the gathered tokens, the
  packed weights and biases, and the three results), so each ends as the later operations leave it, which is as
  launched.
-/
import proofs.«122567_j76991583748156_2_alg».proof.Proof.FrameHostBits
import proofs.«122567_j76991583748156_2_alg».proof.Proof.FrameBodyBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The run and the frame -/

-- the frame theorem's implicit arguments are found by unifying its conclusion with this one, which takes unfolding plain
-- definitions in a metavariable's type
set_option backward.isDefEq.respectTransparency.types false in
/-- From any memory with zero counters: every weakly fair execution of the entry function on the TensorCores terminates,
    and every final state has every array of the pipeline at what the library computes from the proof data and every
    other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Frm.run_main' depends on axioms: [propext, Classical.choice, Quot.sound] -/
#guard_msgs in #print axioms run_main

/-- The frame: the ten argument arrays end as launched. Each is an unscoped buffer no window stages, so the run's post
    gives it as the operations after the region leave it, and none of them, nor any before the region, writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.Kernel.Frm

end
-- ==== Proof.FrameDefsIdeal.lean ====
/-
  What the fused two-layer cell kernel leaves behind, stated once for the frame proof and the value proof to share.

  One grid point is one batch row: the body reads that row's 256 embedded tokens (a 1×256×512 block), the two packed weight
  matrices and the two packed bias rows (whole, the same at every point), and writes three blocks: the row's 256×1024 slab of
  per-timestep outputs in two column halves (layer 0 then layer 1), and two 2×512 blocks holding the last timestep's hidden
  and cell values of the forward direction, one row per layer. Each output buffer after the body is therefore the function
  assembled from its two stores, each store's value a pure term (a named payload of the body) of the five input blocks.

  `V` is what the region finds in memory: the launch memory after the host operations that gather the embeddings and pack the
  weights and biases. `iblk` is a window's block at a grid point read off `V`. `dats` is the pipeline's proof data: arrays at
  `V`, input buffers at their blocks, output buffers at the assembled functions.
-/
import proofs.«122567_j76991583748156_2_alg».proof.Proof.Gen.KernelIdeal.Launch
import proofs.«122567_j76991583748156_2_alg».proof.Proof.Gen.KernelIdeal.Skeleton
import proofs.«122567_j76991583748156_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Memory as the region finds it -/

/-- Core `c`'s buffer contents when the region is entered: the launch memory after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

/-- The whole token block. -/
abbrev rTok : Rect S1x256x512 := Rect.unit (s := S1x256x512) ![0, 0, 0] S1x256x512.size inb_S1x256x512_S1x256x512_0_0_0
/-- The whole layer-0 weight matrix. -/
abbrev rW0 : Rect S512x3072 := Rect.unit (s := S512x3072) ![0, 0] S512x3072.size inb_S512x3072_S512x3072_0_0
/-- A whole bias row. -/
abbrev rBias : Rect S1x3072 := Rect.unit (s := S1x3072) ![0, 0] S1x3072.size inb_S1x3072_S1x3072_0_0
/-- The whole layer-1 weight matrix. -/
abbrev rW1 : Rect S1024x3072 := Rect.unit (s := S1024x3072) ![0, 0] S1024x3072.size inb_S1024x3072_S1024x3072_0_0
/-- Columns 0–511 of the per-timestep output slab: layer 0. -/
abbrev rEncLo : Rect S1x256x1024 := Rect.unit (s := S1x256x1024) ![0, 0, 0] S1x256x512.size inb_S1x256x1024_S1x256x512_0_0_0
/-- Columns 512–1023 of the per-timestep output slab: layer 1. -/
abbrev rEncHi : Rect S1x256x1024 := Rect.unit (s := S1x256x1024) ![0, 0, 512] S1x256x512.size inb_S1x256x1024_S1x256x512_0_0_512
/-- Row 0 of a last-timestep block: layer 0. -/
abbrev rRow0 : Rect S1x2x512 := Rect.unit (s := S1x2x512) ![0, 0, 0] S1x1x512.size inb_S1x2x512_S1x1x512_0_0_0
/-- Row 1 of a last-timestep block: layer 1. -/
abbrev rRow1 : Rect S1x2x512 := Rect.unit (s := S1x2x512) ![0, 1, 0] S1x1x512.size inb_S1x2x512_S1x1x512_0_1_0

/-! ## The values the body computes, as terms of the five input blocks

`tok` the token block, `w0` / `b0` layer 0's packed weights and bias, `w1` / `b1` layer 1's. -/

section Values
variable (tok : Vec F S1x256x512 .bf16) (w0 : Vec F S512x3072 .bf16) (b0 : Vec F S1x3072 .f32)
  (w1 : Vec F S1024x3072 .bf16) (b1 : Vec F S1x3072 .f32)

/-- Layer 0, forward direction: the cell value `sigmoid(i) * tanh(g)`. -/
def cell0f : FVec F S256x512 .f32 := k0_pay2 (View.ld tok rTok) (View.ld w0 rW0) (View.ld b0 rBias)
/-- Layer 0, forward direction: the hidden value `sigmoid(o) * tanh(cell)`. -/
def hid0f : FVec F S256x512 .f32 := k0_pay3 (View.ld tok rTok) (View.ld w0 rW0) (View.ld b0 rBias)
/-- Layer 0, backward direction: the hidden value. -/
def hid0b : FVec F S256x512 .f32 := k0_pay4 (View.ld tok rTok) (View.ld w0 rW0) (View.ld b0 rBias)
/-- Layer 1, backward direction: the three gate pre-activations (input, cell candidate, output). -/
def pre1bi : FVec F S256x512 .f32 := k0_pay6 (View.ld tok rTok) (View.ld w0 rW0) (View.ld b0 rBias) (View.ld w1 rW1) (View.ld b1 rBias)
def pre1bg : FVec F S256x512 .f32 := k0_pay7 (View.ld tok rTok) (View.ld w0 rW0) (View.ld b0 rBias) (View.ld w1 rW1) (View.ld b1 rBias)
def pre1bo : FVec F S256x512 .f32 := k0_pay8 (View.ld tok rTok) (View.ld w0 rW0) (View.ld b0 rBias) (View.ld w1 rW1) (View.ld b1 rBias)
/-- Layer 1, forward direction: the cell value. -/
def cell1f : FVec F S256x512 .f32 := k0_pay9 (View.ld tok rTok) (View.ld w0 rW0) (View.ld b0 rBias) (View.ld w1 rW1) (View.ld b1 rBias)
/-- Layer 1, forward direction: the output gate `sigmoid(o)`. -/
def gate1fo : FVec F S256x512 .f32 := k0_pay10 (View.ld tok rTok) (View.ld w0 rW0) (View.ld b0 rBias) (View.ld w1 rW1) (View.ld b1 rBias)

/-- The per-timestep output slab after the body: layer 1's sum of directions in the upper columns (stored last), layer 0's
    in the lower. -/
def out0_5 : Vec F S1x256x1024 .f32 :=
  View.canon [⟨rEncHi, k0_pay13 (pre1bi tok w0 b0 w1 b1) (pre1bg tok w0 b0 w1 b1) (pre1bo tok w0 b0 w1 b1) (cell1f tok w0 b0 w1 b1) (gate1fo tok w0 b0 w1 b1)⟩,
    ⟨rEncLo, k0_pay12 (hid0f tok w0 b0) (hid0b tok w0 b0)⟩]

/-- The last-timestep hidden block after the body: layer 1's row (stored last), layer 0's row. -/
def out0_6 : Vec F S1x2x512 .f32 :=
  View.canon [⟨rRow1, k0_pay15 (cell1f tok w0 b0 w1 b1) (gate1fo tok w0 b0 w1 b1)⟩,
    ⟨rRow0, k0_pay14 (hid0f tok w0 b0)⟩]

/-- The last-timestep cell block after the body: layer 1's row (stored last), layer 0's row. -/
def out0_7 : Vec F S1x2x512 .f32 :=
  View.canon [⟨rRow1, k0_pay17 (cell1f tok w0 b0 w1 b1)⟩,
    ⟨rRow0, k0_pay16 (cell0f tok w0 b0)⟩]

end Values

/-! ## The pipeline's proof data -/

/-- Arrays as the region finds them; after the body at point `t` each input buffer at its block and each output buffer at
    the function assembled from its stores; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

end Cert.KernelIdeal.Frm

end
-- ==== Proof.FrameHostIdeal.lean ====
/-
  The host side of the frame: what the operations of the entry function around the one region do to memory.

  Before the region 54 operations gather the embedded tokens and slice, concatenate, transpose and round the weights and
  biases into the five arrays the region reads; after it 3 operations reshape and transpose the three arrays it wrote.
  Every one of them writes only its own result buffer and allocates nothing. So no argument array is written before the
  region (`V_main_argK`: the region finds it as launched) nor after it (`W_main_argK`: it ends as launched), the
  entry function is the region continued by the later operations (`hmain`), and those touch unscoped buffers only,
  allocate nothing and write no array a window stages (`sfx_sub`, `sfx_fresh`, `sfx_keeps`).
-/
import proofs.«122567_j76991583748156_2_alg».proof.Proof.FrameDefsIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function around the region -/

/-- No operation before the region allocates a buffer. -/
theorem hostOps0_fresh : (hostOps0 : List (HloOp τ sig (Elt F))).Forall fun op => op.fresh = ∅ := by
  simp only [List.Forall]; repeat' constructor
/-- Nor does any operation after it. -/
theorem hostOps1_fresh : (hostOps1 : List (HloOp τ sig (Elt F))).Forall fun op => op.fresh = ∅ := by
  simp only [List.Forall]; repeat' constructor

/-- The entry function is the operations before the region, the region, the operations after it: run from the launch
    memory it reduces to the region, entered at `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only; with nothing prefetched each such buffer is
    an array of the pipeline or one that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result (the reshaped slab, the two transposed blocks), and
    none of the three is an array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- No operation before the region writes `main_arg0` (the token ids): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes `main_arg1` (the embedding table): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes `main_arg2` (layer 0's input weights): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the region writes `main_arg3` (layer 0's recurrent weights): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation before the region writes `main_arg4` (layer 0's input bias): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation before the region writes `main_arg5` (layer 0's recurrent bias): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation before the region writes `main_arg6` (layer 1's input weights): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation before the region writes `main_arg7` (layer 1's recurrent weights): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No operation before the region writes `main_arg8` (layer 1's input bias): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No operation before the region writes `main_arg9` (layer 1's recurrent bias): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

end Cert.KernelIdeal.Frm

end
-- ==== Proof.FrameBodyIdeal.lean ====
/-
  The body side of the frame: what one run of the fused two-layer cell kernel does to the eight staging buffers.

  At every grid point each input window's current staging buffer holds that window's block (`before0_W`), whether the
  pipeline fetched it there or not: the token block moves with the point and is fetched every time, the four weight and
  bias blocks never move and are fetched once. The body loads the five input buffers whole, and fills each output buffer
  with two stores whose rectangles tile it (`cover0_W`): the two column halves of the per-timestep slab, the two rows of
  each last-timestep block. (Before each store it also loads the rectangle it is about to overwrite; the loaded value
  is not used.) So it runs, from the inputs at any read contents and the outputs at anything, to the inputs unchanged and
  each output at the function assembled from its two stores (`sound_kernel`), which at a grid point is the library's
  body obligation for the proof data (`body_obligation`).
-/
import proofs.«122567_j76991583748156_2_alg».proof.Proof.FrameDefsIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the body finds in the input windows' buffers -/

/-- Input window 0 (the token block): its current staging buffer holds its block at every point, fetched there or not, for
    any proof data whose array is the region-entry contents and whose body leaves the block in place. Where the window
    was not fetched its block index has not moved, so the block left by the point before is this point's. The window
    is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (layer 0's packed weights): its current staging buffer holds its block at every point, fetched there or not, for
    any proof data whose array is the region-entry contents and whose body leaves the block in place. Where the window
    was not fetched its block index has not moved, so the block left by the point before is this point's. The window
    is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (layer 0's packed bias row): its current staging buffer holds its block at every point, fetched there or not, for
    any proof data whose array is the region-entry contents and whose body leaves the block in place. Where the window
    was not fetched its block index has not moved, so the block left by the point before is this point's. The window
    is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (layer 1's packed weights): its current staging buffer holds its block at every point, fetched there or not, for
    any proof data whose array is the region-entry contents and whose body leaves the block in place. Where the window
    was not fetched its block index has not moved, so the block left by the point before is this point's. The window
    is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (layer 1's packed bias row): its current staging buffer holds its block at every point, fetched there or not, for
    any proof data whose array is the region-entry contents and whose body leaves the block in place. Where the window
    was not fetched its block index has not moved, so the block left by the point before is this point's. The window
    is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same of the proof data of this certificate. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The output windows' stores cover their buffers -/

/-- The two column halves tile the per-timestep slab (checked by evaluation), so every index lies in one of them. -/
theorem cover0_5 (p0 : Vec F S1x256x512 .f32) (p1 : Vec F S1x256x512 .f32) (y : S1x256x1024.Idx) :
    ∃ pc ∈ ([⟨rEncHi, p0⟩, ⟨rEncLo, p1⟩] : List (View.Piece (Elt F) S1x256x1024 .f32)), y ∈ pc.1.set :=
  View.cover_of_tiled [⟨rEncHi, p0⟩, ⟨rEncLo, p1⟩] S1x256x512.size (by rfl) y

/-- The two rows tile a last-timestep block (checked by evaluation), so every index lies in one of them: the hidden
    block's stores, -/
theorem cover0_6 (p0 : Vec F S1x1x512 .f32) (p1 : Vec F S1x1x512 .f32) (y : S1x2x512.Idx) :
    ∃ pc ∈ ([⟨rRow1, p0⟩, ⟨rRow0, p1⟩] : List (View.Piece (Elt F) S1x2x512 .f32)), y ∈ pc.1.set :=
  View.cover_of_tiled [⟨rRow1, p0⟩, ⟨rRow0, p1⟩] S1x1x512.size (by rfl) y

/-- and the cell block's, through the same two rectangles. -/
theorem cover0_7 (p0 : Vec F S1x1x512 .f32) (p1 : Vec F S1x1x512 .f32) (y : S1x2x512.Idx) :
    ∃ pc ∈ ([⟨rRow1, p0⟩, ⟨rRow0, p1⟩] : List (View.Piece (Elt F) S1x2x512 .f32)), y ∈ pc.1.set :=
  cover0_6 p0 p1 y

/-! ## The body's triple -/

set_option maxHeartbeats 1000000 in
/-- The kernel body on whole staging memrefs, the five inputs' at read contents `x0 … x4` and the three outputs' at
    anything, runs to the continuation holding the inputs' as they were and each output's at the function assembled
    from its two stores over `x0 … x4`. The printed function and its two parts are their skeletons: five whole loads,
    then per output rectangle one unused load and one store of a named payload of the loaded values. -/
theorem sound_kernel (c : Dev nD) (E : Set ℕ) (i : grid0.Coords) (arg1 : Memref sig .tc .vmem S1x256x512 .bf16) (harg1 : arg1.IsWhole) (arg2 : Memref sig .tc .vmem S512x3072 .bf16) (harg2 : arg2.IsWhole) (arg3 : Memref sig .tc .vmem S1x3072 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S1x256x1024 .f32) (harg6 : arg6.IsWhole) (arg7 : Memref sig .tc .vmem S1x2x512 .f32) (harg7 : arg7.IsWhole) (arg8 : Memref sig .tc .vmem S1x2x512 .f32) (harg8 : arg8.IsWhole)
    (x0 : Vec F S1x256x512 .bf16) (x1 : Vec F S512x3072 .bf16) (x2 : Vec F S1x3072 .f32) (x3 : Vec F S1024x3072 .bf16) (x4 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _ _)
  isplitl [H6]
  · iexists _; isplitr
    swap; · iexact H6
    ipureintro
    try dsimp only
    exact View.read_writes_eq_canon _ _ _ (cover0_6 _ _)
  iexists _; isplitr
  swap; · iexact H7
  ipureintro
  try dsimp only
  exact View.read_writes_eq_canon _ _ _ (cover0_7 _ _)

/-! ## The body obligation, at a generic point -/

/-- What the body is called with at point `t`: the invariant, the core's debt, and each window's current staging buffer
    whole at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: the same with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies at those blocks; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point: its precondition and postcondition are the eight windows conjoined
    one by one. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.FrameIdeal.lean ====
/-
  The frame of the idealized kernel program: every weakly fair execution of its entry function terminates without a
  fault, and its ten argument arrays end as launched.

  The run is the library's frame theorem for an entry function with operations on both sides of its one region, fed the
  launch facts, the body obligation at every grid point, and the host-side facts. Its post says every array a window
  stages ends at what the library computes from the proof data, and every other unscoped buffer as the operations after
  the region leave it. None of the ten arguments is staged by a window (the windows stage the gathered tokens, the
  packed weights and biases, and the three results), so each ends as the later operations leave it, which is as
  launched.
-/
import proofs.«122567_j76991583748156_2_alg».proof.Proof.FrameHostIdeal
import proofs.«122567_j76991583748156_2_alg».proof.Proof.FrameBodyIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The run and the frame -/

-- the frame theorem's implicit arguments are found by unifying its conclusion with this one, which takes unfolding plain
-- definitions in a metavariable's type
set_option backward.isDefEq.respectTransparency.types false in
/-- From any memory with zero counters: every weakly fair execution of the entry function on the TensorCores terminates,
    and every final state has every array of the pipeline at what the library computes from the proof data and every
    other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Frm.run_main' depends on axioms: [propext, Classical.choice, Quot.sound] -/
#guard_msgs in #print axioms run_main

/-- The frame: the ten argument arrays end as launched. Each is an unscoped buffer no window stages, so the run's post
    gives it as the operations after the region leave it, and none of them, nor any before the region, writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Frm

end
-- ==== Proof.Spec.lean ====
/-
  The two-layer, two-direction cell applied independently to every (batch, time) position from a zero state, as plain
  functions on the extended reals.

  For a token embedding row `E[b, t, ·]` and, per direction `d`, a gate matrix `W[d]` of 2048 rows (512 each for the input
  gate, the unused forget gate, the cell candidate and the output gate) with two bias vectors, a gate row `ρ` has the
  pre-activation  `Σ_k x[k] · W[d, ρ, k] + (b_ih[d, ρ] + b_hh[d, ρ])`.  With a zero previous state the cell value is
  `sigmoid(i) · tanh(g)` and the hidden value `sigmoid(o) · tanh(cell)`.  Layer 1 reads, at each position, layer 0's two
  hidden vectors side by side (forward then backward, 1024 entries).  The three results are: per position and layer the sum
  over directions of the hidden values; and for the forward direction at the last time step (t = 255), per layer, the hidden
  value and the cell value.

  Nothing here needs finiteness: only commutative-monoid laws of + on the extended reals are used to meet this form.
-/
import Idealize.ShloMosaic.PureOps.Ideal
import Idealize.ShloMosaic.Lib.ValueIdx

noncomputable section

namespace Cert.Spec

open Idealize.ShloMosaic Idealize.ShloMosaic.ValueIdx

/-- Embedded tokens: batch × time × feature. -/
abbrev TokS : Shape := ⟨3, ![32, 256, 512]⟩
/-- Layer-0 gate weights: direction × gate row × input feature. -/
abbrev W0S : Shape := ⟨3, ![2, 2048, 512]⟩
/-- A bias: direction × gate row. -/
abbrev BS : Shape := ⟨2, ![2, 2048]⟩
/-- Layer-1 gate weights: direction × gate row × (forward hidden, backward hidden). -/
abbrev W1S : Shape := ⟨3, ![2, 2048, 1024]⟩
/-- Per-position output: batch × time × layer × hidden unit. -/
abbrev EncS : Shape := ⟨4, ![32, 256, 2, 512]⟩
/-- Last-step output: layer × batch × hidden unit. -/
abbrev LastS : Shape := ⟨3, ![2, 32, 512]⟩

/-- Hidden unit `n`'s row among a direction's 2048 gate rows: input gate, cell candidate, output gate. -/
def rowI (n : Fin 512) : Fin 2048 := ⟨n.val, by omega⟩
def rowG (n : Fin 512) : Fin 2048 := ⟨1024 + n.val, by omega⟩
def rowO (n : Fin 512) : Fin 2048 := ⟨1536 + n.val, by omega⟩

/-- The last time step. -/
def tLast : Fin 256 := ⟨255, by omega⟩

section
variable (E : TokS.Idx → EReal) (W0 : W0S.Idx → EReal) (bi0 bh0 : BS.Idx → EReal)
  (W1 : W1S.Idx → EReal) (bi1 bh1 : BS.Idx → EReal)

/-- Layer 0: gate row `ρ` of direction `d` at position `(b, t)`. -/
def pre0 (d : Fin 2) (ρ : Fin 2048) (b : Fin 32) (t : Fin 256) : EReal :=
  (∑ k : Fin 512, E (ix3 b t k) * W0 (ix3 d ρ k)) + (bi0 (ix2 d ρ) + bh0 (ix2 d ρ))

def cell0 (d : Fin 2) (b : Fin 32) (t : Fin 256) (n : Fin 512) : EReal :=
  Ideal.logistic (pre0 E W0 bi0 bh0 d (rowI n) b t) * Ideal.tanh (pre0 E W0 bi0 bh0 d (rowG n) b t)

def hid0 (d : Fin 2) (b : Fin 32) (t : Fin 256) (n : Fin 512) : EReal :=
  Ideal.logistic (pre0 E W0 bi0 bh0 d (rowO n) b t) * Ideal.tanh (cell0 E W0 bi0 bh0 d b t n)

/-- Layer 1's input at a position: forward hidden values, then backward. -/
def hcat (b : Fin 32) (t : Fin 256) (k : Fin 1024) : EReal :=
  if h : k.val < 512 then hid0 E W0 bi0 bh0 0 b t ⟨k.val, h⟩ else hid0 E W0 bi0 bh0 1 b t ⟨k.val - 512, by omega⟩

/-- Layer 1: gate row `ρ` of direction `d` at position `(b, t)`. -/
def pre1 (d : Fin 2) (ρ : Fin 2048) (b : Fin 32) (t : Fin 256) : EReal :=
  (∑ k : Fin 1024, hcat E W0 bi0 bh0 b t k * W1 (ix3 d ρ k)) + (bi1 (ix2 d ρ) + bh1 (ix2 d ρ))

def cell1 (d : Fin 2) (b : Fin 32) (t : Fin 256) (n : Fin 512) : EReal :=
  Ideal.logistic (pre1 E W0 bi0 bh0 W1 bi1 bh1 d (rowI n) b t) * Ideal.tanh (pre1 E W0 bi0 bh0 W1 bi1 bh1 d (rowG n) b t)

def hid1 (d : Fin 2) (b : Fin 32) (t : Fin 256) (n : Fin 512) : EReal :=
  Ideal.logistic (pre1 E W0 bi0 bh0 W1 bi1 bh1 d (rowO n) b t) * Ideal.tanh (cell1 E W0 bi0 bh0 W1 bi1 bh1 d b t n)

/-- Per position and layer: the hidden values summed over the two directions. -/
def enc (b : Fin 32) (t : Fin 256) (l : Fin 2) (n : Fin 512) : EReal :=
  if l.val = 0 then hid0 E W0 bi0 bh0 0 b t n + hid0 E W0 bi0 bh0 1 b t n
  else hid1 E W0 bi0 bh0 W1 bi1 bh1 0 b t n + hid1 E W0 bi0 bh0 W1 bi1 bh1 1 b t n

/-- Forward direction, last time step: the hidden value per layer. -/
def hlast (l : Fin 2) (b : Fin 32) (n : Fin 512) : EReal :=
  if l.val = 0 then hid0 E W0 bi0 bh0 0 b tLast n else hid1 E W0 bi0 bh0 W1 bi1 bh1 0 b tLast n

/-- Forward direction, last time step: the cell value per layer. -/
def clast (l : Fin 2) (b : Fin 32) (n : Fin 512) : EReal :=
  if l.val = 0 then cell0 E W0 bi0 bh0 0 b tLast n else cell1 E W0 bi0 bh0 W1 bi1 bh1 0 b tLast n

/-- The three results as arrays. -/
def encArr : EncS.Idx → EReal := fun i => enc E W0 bi0 bh0 W1 bi1 bh1 (i 0) (i 1) (i 2) (i 3)
def hlastArr : LastS.Idx → EReal := fun i => hlast E W0 bi0 bh0 W1 bi1 bh1 (i 0) (i 1) (i 2)
def clastArr : LastS.Idx → EReal := fun i => clast E W0 bi0 bh0 W1 bi1 bh1 (i 0) (i 1) (i 2)

theorem encArr_ix (b : Fin 32) (t : Fin 256) (l : Fin 2) (n : Fin 512) :
    encArr E W0 bi0 bh0 W1 bi1 bh1 (ix4 b t l n) = enc E W0 bi0 bh0 W1 bi1 bh1 b t l n := rfl
theorem hlastArr_ix (l : Fin 2) (b : Fin 32) (n : Fin 512) :
    hlastArr E W0 bi0 bh0 W1 bi1 bh1 (ix3 l b n) = hlast E W0 bi0 bh0 W1 bi1 bh1 l b n := rfl
theorem clastArr_ix (l : Fin 2) (b : Fin 32) (n : Fin 512) :
    clastArr E W0 bi0 bh0 W1 bi1 bh1 (ix3 l b n) = clast E W0 bi0 bh0 W1 bi1 bh1 l b n := rfl

end

/-- The literal one. -/
theorem ofBits_one : Ideal.ofBits .f32 0x3F800000#32 = 1 := by
  simp [Ideal.ofBits, Ideal.ieee, -EReal.coe_mul]; norm_num

/-- The sigmoid spelt with a quotient is the sigmoid. -/
theorem logistic_spelt (x : EReal) : Ideal.div 1 (1 + Ideal.exp (-x)) = Ideal.logistic x := rfl

/-! ## The packed column order

The kernel's wrapper keeps, per direction, only the input-gate, cell-candidate and output-gate rows (in that order, 512
each) and lays the two directions side by side: packed column `j < 3072` belongs to direction `j / 1536` and, with
`q = j % 1536`, to gate row `q` if `q < 512` (input gate) and `q + 512` otherwise (the forget gate's 512 rows skipped). -/

/-- The direction a packed column belongs to. -/
def dirOf (j : Fin 3072) : Fin 2 := ⟨j.val / 1536, by omega⟩
/-- The gate row of packed column `j`, on numbers: with `q = j % 1536`, `q` below 512 and `q + 512` from there on. -/
def rowNat (j : Nat) : Nat := if j % 1536 < 512 then j % 1536 else j % 1536 + 512

theorem rowNat_lt (j : Nat) : rowNat j < 2048 := by
  unfold rowNat; split <;> omega

/-- The gate row (among the direction's 2048) a packed column holds. -/
def rowOf (j : Fin 3072) : Fin 2048 := ⟨rowNat j.val, rowNat_lt _⟩

/-- Packed column `o + n` for the six 512-wide column groups. -/
def col (o : Nat) (ho : o + 512 ≤ 3072) (n : Fin 512) : Fin 3072 := ⟨o + n.val, by omega⟩

theorem dirOf_col0 (n : Fin 512) : dirOf (col 0 (by omega) n) = 0 := Fin.ext (by simp [dirOf, col]; omega)
theorem dirOf_col512 (n : Fin 512) : dirOf (col 512 (by omega) n) = 0 := Fin.ext (by simp [dirOf, col]; omega)
theorem dirOf_col1024 (n : Fin 512) : dirOf (col 1024 (by omega) n) = 0 := Fin.ext (by simp [dirOf, col]; omega)
theorem dirOf_col1536 (n : Fin 512) : dirOf (col 1536 (by omega) n) = 1 := Fin.ext (by simp [dirOf, col]; omega)
theorem dirOf_col2048 (n : Fin 512) : dirOf (col 2048 (by omega) n) = 1 := Fin.ext (by simp [dirOf, col]; omega)
theorem dirOf_col2560 (n : Fin 512) : dirOf (col 2560 (by omega) n) = 1 := Fin.ext (by simp [dirOf, col]; omega)
theorem rowOf_col0 (n : Fin 512) : rowOf (col 0 (by omega) n) = rowI n := Fin.ext (by
  have hn := n.isLt
  show rowNat (0 + n.val) = n.val
  unfold rowNat; rw [if_pos (by omega)]; omega)
theorem rowOf_col512 (n : Fin 512) : rowOf (col 512 (by omega) n) = rowG n := Fin.ext (by
  have hn := n.isLt
  show rowNat (512 + n.val) = 1024 + n.val
  unfold rowNat; rw [if_neg (by omega)]; omega)
theorem rowOf_col1024 (n : Fin 512) : rowOf (col 1024 (by omega) n) = rowO n := Fin.ext (by
  have hn := n.isLt
  show rowNat (1024 + n.val) = 1536 + n.val
  unfold rowNat; rw [if_neg (by omega)]; omega)
theorem rowOf_col1536 (n : Fin 512) : rowOf (col 1536 (by omega) n) = rowI n := Fin.ext (by
  have hn := n.isLt
  show rowNat (1536 + n.val) = n.val
  unfold rowNat; rw [if_pos (by omega)]; omega)
theorem rowOf_col2048 (n : Fin 512) : rowOf (col 2048 (by omega) n) = rowG n := Fin.ext (by
  have hn := n.isLt
  show rowNat (2048 + n.val) = 1024 + n.val
  unfold rowNat; rw [if_neg (by omega)]; omega)
theorem rowOf_col2560 (n : Fin 512) : rowOf (col 2560 (by omega) n) = rowO n := Fin.ext (by
  have hn := n.isLt
  show rowNat (2560 + n.val) = 1536 + n.val
  unfold rowNat; rw [if_neg (by omega)]; omega)

end Cert.Spec

end
-- ==== Proof.KPay.lean ====
/-
  The body's arithmetic at an index, on the extended reals.

  Each named value of the kernel body is a pure term of the five blocks it loads (one batch row's embedded tokens, the two
  packed weight matrices, the two packed bias rows).  Read at an index: a matrix product into a zero accumulator is the sum
  over the contracted coordinate; a column slice shifts the column; the gate nonlinearities act entrywise; two 512-column
  halves laid side by side read the left half below column 512 and the right half from there on.  Given what the blocks hold
  in terms of the unpacked arguments (hypotheses `hX … hB1`), every value is one of the specification's functions: a packed
  column `j` is gate row `rowOf j` of direction `dirOf j`.
-/
import proofs.«122567_j76991583748156_2_alg».proof.Proof.Gen.KernelIdeal.Skeleton
import proofs.«122567_j76991583748156_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The two products' operand indices -/

abbrev D0 : DotDims S256x512 S512x3072 S256x3072 := dot_S256x512_S512x3072_S256x3072_1_0_0_1_n_n
abbrev D1 : DotDims S256x1024 S1024x3072 S256x3072 := dot_S256x1024_S1024x3072_S256x3072_1_0_0_1_n_n

/-- Layer 0's product at entry `(r, j)` reads row `r` of the left factor … -/
theorem D0_lhs (r : Fin 256) (j : Fin 3072) (k : Fin 512) :
    D0.lhsIdx (ix2 r j) ((contrEquiv1 D0 512 rfl rfl).symm k) = ix2 r k := by
  funext a; apply Fin.ext
  match a with
  | ⟨0, _⟩ =>
    show (D0.lhsIdx (ix2 r j) _ 0).val = r.val
    unfold DotDims.lhsIdx
    rw [dif_neg (show ¬(0 : Fin S256x512.rank) ∈ D0.lhsBatch by decide), dif_pos (show (0 : Fin S256x512.rank) ∈ D0.lhsNonContracting by decide)]
    rfl
  | ⟨1, _⟩ => exact (D0.lhsIdx_val_of_single rfl (ix2 r j) _).trans (contrEquiv1_symm_val D0 512 rfl rfl k)

/-- … and column `j` of the right one. -/
theorem D0_rhs (r : Fin 256) (j : Fin 3072) (k : Fin 512) :
    D0.rhsIdx (ix2 r j) ((contrEquiv1 D0 512 rfl rfl).symm k) = ix2 k j := by
  funext a; apply Fin.ext
  match a with
  | ⟨0, _⟩ => exact (D0.rhsIdx_val_of_single rfl (ix2 r j) _).trans (contrEquiv1_symm_val D0 512 rfl rfl k)
  | ⟨1, _⟩ =>
    show (D0.rhsIdx (ix2 r j) _ 1).val = j.val
    unfold DotDims.rhsIdx
    rw [dif_neg (show ¬(1 : Fin S512x3072.rank) ∈ D0.rhsBatch by decide), dif_pos (show (1 : Fin S512x3072.rank) ∈ D0.rhsNonContracting by decide)]
    rfl

theorem D1_lhs (r : Fin 256) (j : Fin 3072) (k : Fin 1024) :
    D1.lhsIdx (ix2 r j) ((contrEquiv1 D1 1024 rfl rfl).symm k) = ix2 r k := by
  funext a; apply Fin.ext
  match a with
  | ⟨0, _⟩ =>
    show (D1.lhsIdx (ix2 r j) _ 0).val = r.val
    unfold DotDims.lhsIdx
    rw [dif_neg (show ¬(0 : Fin S256x1024.rank) ∈ D1.lhsBatch by decide), dif_pos (show (0 : Fin S256x1024.rank) ∈ D1.lhsNonContracting by decide)]
    rfl
  | ⟨1, _⟩ => exact (D1.lhsIdx_val_of_single rfl (ix2 r j) _).trans (contrEquiv1_symm_val D1 1024 rfl rfl k)

theorem D1_rhs (r : Fin 256) (j : Fin 3072) (k : Fin 1024) :
    D1.rhsIdx (ix2 r j) ((contrEquiv1 D1 1024 rfl rfl).symm k) = ix2 k j := by
  funext a; apply Fin.ext
  match a with
  | ⟨0, _⟩ => exact (D1.rhsIdx_val_of_single rfl (ix2 r j) _).trans (contrEquiv1_symm_val D1 1024 rfl rfl k)
  | ⟨1, _⟩ =>
    show (D1.rhsIdx (ix2 r j) _ 1).val = j.val
    unfold DotDims.rhsIdx
    rw [dif_neg (show ¬(1 : Fin S1024x3072.rank) ∈ D1.rhsBatch by decide), dif_pos (show (1 : Fin S1024x3072.rank) ∈ D1.rhsNonContracting by decide)]
    rfl

/-- A 512-column slice at column offset `o` reads column `o + n`. -/
theorem slice_col (o : Nat) (ho : o + 512 ≤ 3072) (Y : FVec Ideal S256x3072 .f32) (h : S256x3072.Slices ![0, o] S256x512)
    (r : Fin 256) (n : Fin 512) :
    extractStridedSlice S256x512 ![0, o] Y h (ix2 r n) = Y (ix2 r (col o ho n)) :=
  slice2_axis1_apply o Y h r n (col o ho n) rfl

/-- The last of 256 rows, kept as a 1×512 matrix, then as a vector, then as a 1×1×512 block. -/
theorem lastRow (Y : FVec Ideal S256x512 .f32) (n : Fin 512) :
    shapeCast S1x1x512 (shapeCast S512 (extractStridedSlice S1x512 ![255, 0] Y slices_S256x512_o255_0_S1x512) shapeCasts_S1x512_S512) shapeCasts_S512_S1x1x512
      (ix3 (0 : Fin 1) (0 : Fin 1) n) = Y (ix2 tLast n) := by
  refine (shapeCast_apply _ shapeCasts_S512_S1x1x512 (ix3 (0 : Fin 1) (0 : Fin 1) n) (ix1 n) (by
    rw [Shape.rowMajor_val_three, Shape.rowMajor_val_one]
    show n.val = ((0 : Fin 1).val * 1 + (0 : Fin 1).val) * 512 + n.val
    simp)).trans ?_
  refine (shapeCast_1a_a_apply _ shapeCasts_S1x512_S512 n).trans ?_
  exact slice2_axis0_apply 255 Y slices_S256x512_o255_0_S1x512 (0 : Fin 1) n tLast rfl

/-! ## The values of the second half of the body, from the eight the first half hands it -/

section Second
variable (v17 v20 v26 v39 v40 v41 v44 v45 : FVec Ideal S256x512 .f32)

theorem pay11_apply (r : Fin 256) (n : Fin 512) :
    k0_pay11 v44 v45 (ix2 r n) = v45 (ix2 r n) * Ideal.tanh (v44 (ix2 r n)) := rfl

theorem pay12_apply (r : Fin 256) (n : Fin 512) :
    k0_pay12 v20 v26 (ix3 (0 : Fin 1) r n) = v20 (ix2 r n) + v26 (ix2 r n) := by
  unfold k0_pay12
  exact shapeCast_ab_1ab_apply _ shapeCasts_S256x512_S1x256x512 (0 : Fin 1) r n

theorem pay13_apply (r : Fin 256) (n : Fin 512) :
    k0_pay13 v39 v40 v41 v44 v45 (ix3 (0 : Fin 1) r n)
      = v45 (ix2 r n) * Ideal.tanh (v44 (ix2 r n))
        + Ideal.logistic (v41 (ix2 r n)) * Ideal.tanh (Ideal.logistic (v39 (ix2 r n)) * Ideal.tanh (v40 (ix2 r n))) := by
  unfold k0_pay13
  exact shapeCast_ab_1ab_apply _ shapeCasts_S256x512_S1x256x512 (0 : Fin 1) r n

theorem pay14_apply (n : Fin 512) : k0_pay14 v20 (ix3 (0 : Fin 1) (0 : Fin 1) n) = v20 (ix2 tLast n) := by
  unfold k0_pay14; exact lastRow v20 n
theorem pay15_apply (n : Fin 512) :
    k0_pay15 v44 v45 (ix3 (0 : Fin 1) (0 : Fin 1) n) = v45 (ix2 tLast n) * Ideal.tanh (v44 (ix2 tLast n)) := by
  unfold k0_pay15; exact lastRow (k0_pay11 v44 v45) n
theorem pay16_apply (n : Fin 512) : k0_pay16 v17 (ix3 (0 : Fin 1) (0 : Fin 1) n) = v17 (ix2 tLast n) := by
  unfold k0_pay16; exact lastRow v17 n
theorem pay17_apply (n : Fin 512) : k0_pay17 v44 (ix3 (0 : Fin 1) (0 : Fin 1) n) = v44 (ix2 tLast n) := by
  unfold k0_pay17; exact lastRow v44 n

end Second

/-! ## The values of the first half, from the five blocks -/

section First
variable (X : FVec Ideal S1x256x512 .bf16) (Wp0 : FVec Ideal S512x3072 .bf16) (Bp0 : FVec Ideal S1x3072 .f32)
  (Wp1 : FVec Ideal S1024x3072 .bf16) (Bp1 : FVec Ideal S1x3072 .f32)

/-- Layer 0's gate pre-activations: the product's sum plus the bias row. -/
theorem pay1_apply (r : Fin 256) (j : Fin 3072) :
    k0_pay1 (F := Ideal) X Wp0 Bp0 (ix2 r j) = (∑ k : Fin 512, X (ix3 (0 : Fin 1) r k) * Wp0 (ix2 k j)) + Bp0 (ix2 (0 : Fin 1) j) := by
  unfold k0_pay1
  refine congrArg₂ (· + ·) ?_ ?_
  · refine (Ideal.matmul_constant_zero_apply D0 none _ _ (ix2 r j)).trans ?_
    rw [← Equiv.sum_comp (contrEquiv1 D0 512 rfl rfl).symm]
    refine Finset.sum_congr rfl fun k _ => ?_
    rw [D0_lhs, D0_rhs, shapeCast_1ab_ab_apply, shapeCast_self]
  · rw [broadcastTo_1b_ab_apply, shapeCast_self]

theorem pay2_apply (r : Fin 256) (n : Fin 512) :
    k0_pay2 (F := Ideal) X Wp0 Bp0 (ix2 r n)
      = Ideal.logistic (k0_pay1 (F := Ideal) X Wp0 Bp0 (ix2 r (col 0 (by omega) n))) * Ideal.tanh (k0_pay1 (F := Ideal) X Wp0 Bp0 (ix2 r (col 512 (by omega) n))) := by
  unfold k0_pay2
  show Ideal.logistic (extractStridedSlice (s := S256x3072) S256x512 ![0, 0] _ _ (ix2 r n)) * Ideal.tanh (extractStridedSlice (s := S256x3072) S256x512 ![0, 512] _ _ (ix2 r n)) = _
  rw [slice_col 0 (by omega), slice_col 512 (by omega)]

theorem pay3_apply (r : Fin 256) (n : Fin 512) :
    k0_pay3 (F := Ideal) X Wp0 Bp0 (ix2 r n)
      = Ideal.logistic (k0_pay1 (F := Ideal) X Wp0 Bp0 (ix2 r (col 1024 (by omega) n))) * Ideal.tanh (k0_pay2 (F := Ideal) X Wp0 Bp0 (ix2 r n)) := by
  unfold k0_pay3
  show Ideal.logistic (extractStridedSlice (s := S256x3072) S256x512 ![0, 1024] _ _ (ix2 r n)) * Ideal.tanh (k0_pay2 (F := Ideal) X Wp0 Bp0 (ix2 r n)) = _
  rw [slice_col 1024 (by omega)]

theorem pay4_apply (r : Fin 256) (n : Fin 512) :
    k0_pay4 (F := Ideal) X Wp0 Bp0 (ix2 r n)
      = Ideal.logistic (k0_pay1 (F := Ideal) X Wp0 Bp0 (ix2 r (col 2560 (by omega) n)))
        * Ideal.tanh (Ideal.logistic (k0_pay1 (F := Ideal) X Wp0 Bp0 (ix2 r (col 1536 (by omega) n))) * Ideal.tanh (k0_pay1 (F := Ideal) X Wp0 Bp0 (ix2 r (col 2048 (by omega) n)))) := by
  unfold k0_pay4
  show Ideal.logistic (extractStridedSlice (s := S256x3072) S256x512 ![0, 2560] _ _ (ix2 r n))
      * Ideal.tanh (Ideal.logistic (extractStridedSlice (s := S256x3072) S256x512 ![0, 1536] _ _ (ix2 r n)) * Ideal.tanh (extractStridedSlice (s := S256x3072) S256x512 ![0, 2048] _ _ (ix2 r n))) = _
  rw [slice_col 2560 (by omega), slice_col 1536 (by omega), slice_col 2048 (by omega)]

end First

/-! ## Two 512-column halves side by side -/

theorem cat_left (A B : FVec Ideal S256x512 .f32) (r : Fin 256) (k : Fin 1024) (hk : k.val < 512) :
    concatenate S256x1024 1 [⟨S256x512, A⟩, ⟨S256x512, B⟩] concatenates_S256x512_S256x512_S256x1024_d1 (ix2 r k)
      = A (ix2 r ⟨k.val, hk⟩) :=
  concatenate_pair_apply_left (1 : Fin S256x1024.rank) A B concatenates_S256x512_S256x512_S256x1024_d1 (ix2 r k) rfl
    (ix2 r ⟨k.val, hk⟩) (fun b => by match b with | ⟨0, _⟩ => rfl | ⟨1, _⟩ => rfl)

theorem cat_right (A B : FVec Ideal S256x512 .f32) (r : Fin 256) (k : Fin 1024) (hk : 512 ≤ k.val) :
    concatenate S256x1024 1 [⟨S256x512, A⟩, ⟨S256x512, B⟩] concatenates_S256x512_S256x512_S256x1024_d1 (ix2 r k)
      = B (ix2 r ⟨k.val - 512, by omega⟩) :=
  concatenate_pair_apply_right (1 : Fin S256x1024.rank) A B concatenates_S256x512_S256x512_S256x1024_d1 (ix2 r k) rfl rfl
    (ix2 r ⟨k.val - 512, by omega⟩)
    (fun b hb => by match b with | ⟨0, _⟩ => rfl | ⟨1, _⟩ => exact absurd rfl hb)
    (by show (k.val - 512) + 512 = k.val; omega)

section Layer1
variable (X : FVec Ideal S1x256x512 .bf16) (Wp0 : FVec Ideal S512x3072 .bf16) (Bp0 : FVec Ideal S1x3072 .f32)
  (Wp1 : FVec Ideal S1024x3072 .bf16) (Bp1 : FVec Ideal S1x3072 .f32)

/-- Layer 1's gate pre-activations: the product of layer 0's two hidden halves with the packed weights, plus the bias row. -/
theorem pay5_apply (r : Fin 256) (j : Fin 3072) :
    k0_pay5 (F := Ideal) X Wp0 Bp0 Wp1 Bp1 (ix2 r j)
      = (∑ k : Fin 1024, concatenate S256x1024 1 [⟨S256x512, k0_pay3 (F := Ideal) X Wp0 Bp0⟩, ⟨S256x512, k0_pay4 (F := Ideal) X Wp0 Bp0⟩]
            concatenates_S256x512_S256x512_S256x1024_d1 (ix2 r k) * Wp1 (ix2 k j))
        + Bp1 (ix2 (0 : Fin 1) j) := by
  unfold k0_pay5
  refine congrArg₂ (· + ·) ?_ ?_
  · refine (Ideal.matmul_constant_zero_apply D1 none _ _ (ix2 r j)).trans ?_
    rw [← Equiv.sum_comp (contrEquiv1 D1 1024 rfl rfl).symm]
    refine Finset.sum_congr rfl fun k _ => ?_
    rw [D1_lhs, D1_rhs, shapeCast_self]
    rfl
  · rw [broadcastTo_1b_ab_apply, shapeCast_self]

theorem pay6_apply (r : Fin 256) (n : Fin 512) :
    k0_pay6 (F := Ideal) X Wp0 Bp0 Wp1 Bp1 (ix2 r n) = k0_pay5 (F := Ideal) X Wp0 Bp0 Wp1 Bp1 (ix2 r (col 1536 (by omega) n)) := by
  unfold k0_pay6; exact slice_col 1536 (by omega) _ _ r n
theorem pay7_apply (r : Fin 256) (n : Fin 512) :
    k0_pay7 (F := Ideal) X Wp0 Bp0 Wp1 Bp1 (ix2 r n) = k0_pay5 (F := Ideal) X Wp0 Bp0 Wp1 Bp1 (ix2 r (col 2048 (by omega) n)) := by
  unfold k0_pay7; exact slice_col 2048 (by omega) _ _ r n
theorem pay8_apply (r : Fin 256) (n : Fin 512) :
    k0_pay8 (F := Ideal) X Wp0 Bp0 Wp1 Bp1 (ix2 r n) = k0_pay5 (F := Ideal) X Wp0 Bp0 Wp1 Bp1 (ix2 r (col 2560 (by omega) n)) := by
  unfold k0_pay8; exact slice_col 2560 (by omega) _ _ r n

theorem pay9_apply (r : Fin 256) (n : Fin 512) :
    k0_pay9 (F := Ideal) X Wp0 Bp0 Wp1 Bp1 (ix2 r n)
      = Ideal.logistic (k0_pay5 (F := Ideal) X Wp0 Bp0 Wp1 Bp1 (ix2 r (col 0 (by omega) n)))
        * Ideal.tanh (k0_pay5 (F := Ideal) X Wp0 Bp0 Wp1 Bp1 (ix2 r (col 512 (by omega) n))) := by
  unfold k0_pay9
  show Ideal.logistic (extractStridedSlice (s := S256x3072) S256x512 ![0, 0] _ _ (ix2 r n)) * Ideal.tanh (extractStridedSlice (s := S256x3072) S256x512 ![0, 512] _ _ (ix2 r n)) = _
  rw [slice_col 0 (by omega), slice_col 512 (by omega)]

theorem pay10_apply (r : Fin 256) (n : Fin 512) :
    k0_pay10 (F := Ideal) X Wp0 Bp0 Wp1 Bp1 (ix2 r n)
      = Ideal.logistic (k0_pay5 (F := Ideal) X Wp0 Bp0 Wp1 Bp1 (ix2 r (col 1024 (by omega) n))) := by
  unfold k0_pay10
  show Ideal.logistic (extractStridedSlice (s := S256x3072) S256x512 ![0, 1024] _ _ (ix2 r n)) = _
  rw [slice_col 1024 (by omega)]

end Layer1

/-! ## The body's values are the specification's

What the five blocks hold, in terms of the unpacked arguments: the token block is batch row `b` of the embedded tokens; a
packed weight column `j` is gate row `rowOf j` of direction `dirOf j`; a packed bias entry is the sum of the two biases there. -/

structure Holds (E : TokS.Idx → EReal) (W0 : W0S.Idx → EReal) (bi0 bh0 : BS.Idx → EReal) (W1 : W1S.Idx → EReal) (bi1 bh1 : BS.Idx → EReal)
    (b : Fin 32) (X : FVec Ideal S1x256x512 .bf16) (Wp0 : FVec Ideal S512x3072 .bf16) (Bp0 : FVec Ideal S1x3072 .f32)
    (Wp1 : FVec Ideal S1024x3072 .bf16) (Bp1 : FVec Ideal S1x3072 .f32) : Prop where
  tok : ∀ (r : Fin 256) (k : Fin 512), X (ix3 (0 : Fin 1) r k) = E (ix3 b r k)
  w0 : ∀ (k : Fin 512) (j : Fin 3072), Wp0 (ix2 k j) = W0 (ix3 (dirOf j) (rowOf j) k)
  b0 : ∀ j : Fin 3072, Bp0 (ix2 (0 : Fin 1) j) = bi0 (ix2 (dirOf j) (rowOf j)) + bh0 (ix2 (dirOf j) (rowOf j))
  w1 : ∀ (k : Fin 1024) (j : Fin 3072), Wp1 (ix2 k j) = W1 (ix3 (dirOf j) (rowOf j) k)
  b1 : ∀ j : Fin 3072, Bp1 (ix2 (0 : Fin 1) j) = bi1 (ix2 (dirOf j) (rowOf j)) + bh1 (ix2 (dirOf j) (rowOf j))

section Meets
variable {E : TokS.Idx → EReal} {W0 : W0S.Idx → EReal} {bi0 bh0 : BS.Idx → EReal} {W1 : W1S.Idx → EReal} {bi1 bh1 : BS.Idx → EReal}
  {b : Fin 32} {X : FVec Ideal S1x256x512 .bf16} {Wp0 : FVec Ideal S512x3072 .bf16} {Bp0 : FVec Ideal S1x3072 .f32}
  {Wp1 : FVec Ideal S1024x3072 .bf16} {Bp1 : FVec Ideal S1x3072 .f32}
  (H : Holds E W0 bi0 bh0 W1 bi1 bh1 b X Wp0 Bp0 Wp1 Bp1)
include H

theorem pay1_spec (r : Fin 256) (j : Fin 3072) :
    k0_pay1 (F := Ideal) X Wp0 Bp0 (ix2 r j) = pre0 E W0 bi0 bh0 (dirOf j) (rowOf j) b r := by
  rw [pay1_apply, H.b0]
  unfold pre0
  refine congrArg (· + _) (Finset.sum_congr rfl fun k _ => ?_)
  rw [H.tok, H.w0]

theorem pay2_spec (r : Fin 256) (n : Fin 512) : k0_pay2 (F := Ideal) X Wp0 Bp0 (ix2 r n) = cell0 E W0 bi0 bh0 0 b r n := by
  rw [pay2_apply, pay1_spec H, pay1_spec H, dirOf_col0, rowOf_col0, dirOf_col512, rowOf_col512]; rfl

theorem pay3_spec (r : Fin 256) (n : Fin 512) : k0_pay3 (F := Ideal) X Wp0 Bp0 (ix2 r n) = hid0 E W0 bi0 bh0 0 b r n := by
  rw [pay3_apply, pay1_spec H, pay2_spec H, dirOf_col1024, rowOf_col1024]; rfl

theorem pay4_spec (r : Fin 256) (n : Fin 512) : k0_pay4 (F := Ideal) X Wp0 Bp0 (ix2 r n) = hid0 E W0 bi0 bh0 1 b r n := by
  rw [pay4_apply, pay1_spec H, pay1_spec H, pay1_spec H, dirOf_col2560, rowOf_col2560, dirOf_col1536, rowOf_col1536,
    dirOf_col2048, rowOf_col2048]; rfl

theorem cat_spec (r : Fin 256) (k : Fin 1024) :
    concatenate S256x1024 1 [⟨S256x512, k0_pay3 (F := Ideal) X Wp0 Bp0⟩, ⟨S256x512, k0_pay4 (F := Ideal) X Wp0 Bp0⟩]
        concatenates_S256x512_S256x512_S256x1024_d1 (ix2 r k) = hcat E W0 bi0 bh0 b r k := by
  by_cases hk : k.val < 512
  · rw [cat_left _ _ r k hk, pay3_spec H]; unfold hcat; rw [dif_pos hk]
  · rw [cat_right _ _ r k (by omega), pay4_spec H]; unfold hcat; rw [dif_neg hk]

theorem pay5_spec (r : Fin 256) (j : Fin 3072) :
    k0_pay5 (F := Ideal) X Wp0 Bp0 Wp1 Bp1 (ix2 r j) = pre1 E W0 bi0 bh0 W1 bi1 bh1 (dirOf j) (rowOf j) b r := by
  rw [pay5_apply, H.b1]
  unfold pre1
  refine congrArg (· + _) (Finset.sum_congr rfl fun k _ => ?_)
  rw [cat_spec H, H.w1]

theorem pay6_spec (r : Fin 256) (n : Fin 512) :
    k0_pay6 (F := Ideal) X Wp0 Bp0 Wp1 Bp1 (ix2 r n) = pre1 E W0 bi0 bh0 W1 bi1 bh1 1 (rowI n) b r := by
  rw [pay6_apply, pay5_spec H, dirOf_col1536, rowOf_col1536]
theorem pay7_spec (r : Fin 256) (n : Fin 512) :
    k0_pay7 (F := Ideal) X Wp0 Bp0 Wp1 Bp1 (ix2 r n) = pre1 E W0 bi0 bh0 W1 bi1 bh1 1 (rowG n) b r := by
  rw [pay7_apply, pay5_spec H, dirOf_col2048, rowOf_col2048]
theorem pay8_spec (r : Fin 256) (n : Fin 512) :
    k0_pay8 (F := Ideal) X Wp0 Bp0 Wp1 Bp1 (ix2 r n) = pre1 E W0 bi0 bh0 W1 bi1 bh1 1 (rowO n) b r := by
  rw [pay8_apply, pay5_spec H, dirOf_col2560, rowOf_col2560]
theorem pay9_spec (r : Fin 256) (n : Fin 512) :
    k0_pay9 (F := Ideal) X Wp0 Bp0 Wp1 Bp1 (ix2 r n) = cell1 E W0 bi0 bh0 W1 bi1 bh1 0 b r n := by
  rw [pay9_apply, pay5_spec H, pay5_spec H, dirOf_col0, rowOf_col0, dirOf_col512, rowOf_col512]; rfl
theorem pay10_spec (r : Fin 256) (n : Fin 512) :
    k0_pay10 (F := Ideal) X Wp0 Bp0 Wp1 Bp1 (ix2 r n) = Ideal.logistic (pre1 E W0 bi0 bh0 W1 bi1 bh1 0 (rowO n) b r) := by
  rw [pay10_apply, pay5_spec H, dirOf_col1024, rowOf_col1024]

/-! ### The six stored values -/

/-- Layer 0's sum over directions, stored in the lower columns. -/
theorem stored_enc0 (r : Fin 256) (n : Fin 512) :
    k0_pay12 (k0_pay3 (F := Ideal) X Wp0 Bp0) (k0_pay4 (F := Ideal) X Wp0 Bp0) (ix3 (0 : Fin 1) r n)
      = enc E W0 bi0 bh0 W1 bi1 bh1 b r 0 n := by
  rw [pay12_apply, pay3_spec H, pay4_spec H]; unfold enc; exact (if_pos rfl).symm

/-- Layer 1's sum over directions, stored in the upper columns. -/
theorem stored_enc1 (r : Fin 256) (n : Fin 512) :
    k0_pay13 (k0_pay6 (F := Ideal) X Wp0 Bp0 Wp1 Bp1) (k0_pay7 (F := Ideal) X Wp0 Bp0 Wp1 Bp1) (k0_pay8 (F := Ideal) X Wp0 Bp0 Wp1 Bp1)
        (k0_pay9 (F := Ideal) X Wp0 Bp0 Wp1 Bp1) (k0_pay10 (F := Ideal) X Wp0 Bp0 Wp1 Bp1) (ix3 (0 : Fin 1) r n)
      = enc E W0 bi0 bh0 W1 bi1 bh1 b r 1 n := by
  rw [pay13_apply, pay6_spec H, pay7_spec H, pay8_spec H, pay9_spec H, pay10_spec H]
  unfold enc; rw [if_neg (by decide)]; rfl

theorem stored_hlast0 (n : Fin 512) :
    k0_pay14 (k0_pay3 (F := Ideal) X Wp0 Bp0) (ix3 (0 : Fin 1) (0 : Fin 1) n) = hlast E W0 bi0 bh0 W1 bi1 bh1 0 b n := by
  rw [pay14_apply, pay3_spec H]; unfold hlast; exact (if_pos rfl).symm

theorem stored_hlast1 (n : Fin 512) :
    k0_pay15 (k0_pay9 (F := Ideal) X Wp0 Bp0 Wp1 Bp1) (k0_pay10 (F := Ideal) X Wp0 Bp0 Wp1 Bp1) (ix3 (0 : Fin 1) (0 : Fin 1) n)
      = hlast E W0 bi0 bh0 W1 bi1 bh1 1 b n := by
  rw [pay15_apply, pay9_spec H, pay10_spec H]; unfold hlast; rw [if_neg (by decide)]; rfl

theorem stored_clast0 (n : Fin 512) :
    k0_pay16 (k0_pay2 (F := Ideal) X Wp0 Bp0) (ix3 (0 : Fin 1) (0 : Fin 1) n) = clast E W0 bi0 bh0 W1 bi1 bh1 0 b n := by
  rw [pay16_apply, pay2_spec H]; unfold clast; exact (if_pos rfl).symm

theorem stored_clast1 (n : Fin 512) :
    k0_pay17 (k0_pay9 (F := Ideal) X Wp0 Bp0 Wp1 Bp1) (ix3 (0 : Fin 1) (0 : Fin 1) n) = clast E W0 bi0 bh0 W1 bi1 bh1 1 b n := by
  rw [pay17_apply, pay9_spec H]; unfold clast; rw [if_neg (by decide)]

end Meets

end Cert.KernelIdeal.Pay

end
-- ==== Proof.KBlock.lean ====
/-
  What each output buffer holds after the body, as one function of the buffer's index.

  For batch row `b` the 1×256×1024 slab holds, at time step `r` and column `c`, layer 0's sum over directions of hidden unit
  `c` when `c < 512` and layer 1's of hidden unit `c − 512` otherwise; each 1×2×512 last-step block holds, in row `l`, layer
  `l`'s forward hidden (resp. cell) value at the last time step.  Each buffer was written by two stores whose rectangles tile
  it, and each stored value is the matching piece of that one function, so the buffer is the function.
-/
import proofs.«122567_j76991583748156_2_alg».proof.Proof.FrameDefsIdeal
import proofs.«122567_j76991583748156_2_alg».proof.Proof.KPay
import Idealize.ShloMosaic.Lib.Pipeline.Value
import Idealize.ShloMosaic.Lib.ValueIdx

set_option maxRecDepth 16384

noncomputable section

namespace Cert.KernelIdeal.Blk

open Cert.KernelIdeal Cert.KernelIdeal.Gen Cert.KernelIdeal.Frm Cert.KernelIdeal.Pay
open Idealize.ShloMosaic Idealize.ShloMosaic.TcCoe Idealize.ShloMosaic.ValueIdx Cert.Spec

theorem hz3 : (![0, 0, 0] : Fin 3 → Nat) = fun _ => 0 := funext fun a => by fin_cases a <;> rfl
theorem hz2 : (![0, 0] : Fin 2 → Nat) = fun _ => 0 := funext fun a => by fin_cases a <;> rfl

section
variable (E : TokS.Idx → EReal) (W0 : W0S.Idx → EReal) (bi0 bh0 : BS.Idx → EReal) (W1 : W1S.Idx → EReal) (bi1 bh1 : BS.Idx → EReal)
  (b : Fin 32)

/-- Batch row `b`'s slab of per-time-step outputs: layer 0 in the lower 512 columns, layer 1 in the upper. -/
def slab : S1x256x1024.Idx → EReal := fun y =>
  if h : (y 2).val < 512 then enc E W0 bi0 bh0 W1 bi1 bh1 b ⟨(y 1).val, (y 1).isLt⟩ 0 ⟨(y 2).val, h⟩
  else enc E W0 bi0 bh0 W1 bi1 bh1 b ⟨(y 1).val, (y 1).isLt⟩ 1 ⟨(y 2).val - 512, by have h2 : (y 2).val < 1024 := (y 2).isLt; omega⟩

/-- Batch row `b`'s last-step hidden values, one row per layer. -/
def hrows : S1x2x512.Idx → EReal := fun y => hlast E W0 bi0 bh0 W1 bi1 bh1 ⟨(y 1).val, (y 1).isLt⟩ b ⟨(y 2).val, (y 2).isLt⟩
/-- Batch row `b`'s last-step cell values, one row per layer. -/
def crows : S1x2x512.Idx → EReal := fun y => clast E W0 bi0 bh0 W1 bi1 bh1 ⟨(y 1).val, (y 1).isLt⟩ b ⟨(y 2).val, (y 2).isLt⟩

theorem slab_lo (y : S1x256x1024.Idx) (r : Fin 256) (n : Fin 512) (h1 : (y 1).val = r.val) (h2 : (y 2).val = n.val) :
    slab E W0 bi0 bh0 W1 bi1 bh1 b y = enc E W0 bi0 bh0 W1 bi1 bh1 b r 0 n := by
  obtain ⟨rv, hr⟩ := r; obtain ⟨nv, hn⟩ := n
  simp only at h1 h2
  subst h1 h2
  unfold slab; rw [dif_pos hn]

theorem slab_hi (y : S1x256x1024.Idx) (r : Fin 256) (n : Fin 512) (h1 : (y 1).val = r.val) (h2 : (y 2).val = 512 + n.val) :
    slab E W0 bi0 bh0 W1 bi1 bh1 b y = enc E W0 bi0 bh0 W1 bi1 bh1 b r 1 n := by
  obtain ⟨rv, hr⟩ := r; obtain ⟨nv, hn⟩ := n
  simp only at h1 h2
  subst h1
  unfold slab; rw [dif_neg (by omega)]
  congr 1
  exact Fin.ext (by show (y 2).val - 512 = nv; omega)

theorem hrows_at (y : S1x2x512.Idx) (l : Fin 2) (n : Fin 512) (h1 : (y 1).val = l.val) (h2 : (y 2).val = n.val) :
    hrows E W0 bi0 bh0 W1 bi1 bh1 b y = hlast E W0 bi0 bh0 W1 bi1 bh1 l b n := by
  obtain ⟨lv, hl⟩ := l; obtain ⟨nv, hn⟩ := n
  simp only at h1 h2
  subst h1 h2
  rfl

theorem crows_at (y : S1x2x512.Idx) (l : Fin 2) (n : Fin 512) (h1 : (y 1).val = l.val) (h2 : (y 2).val = n.val) :
    crows E W0 bi0 bh0 W1 bi1 bh1 b y = clast E W0 bi0 bh0 W1 bi1 bh1 l b n := by
  obtain ⟨lv, hl⟩ := l; obtain ⟨nv, hn⟩ := n
  simp only at h1 h2
  subst h1 h2
  rfl

end

section Buffers
variable {E : TokS.Idx → EReal} {W0 : W0S.Idx → EReal} {bi0 bh0 : BS.Idx → EReal} {W1 : W1S.Idx → EReal} {bi1 bh1 : BS.Idx → EReal}
  {b : Fin 32} {X : FVec Ideal S1x256x512 .bf16} {Wp0 : FVec Ideal S512x3072 .bf16} {Bp0 : FVec Ideal S1x3072 .f32}
  {Wp1 : FVec Ideal S1024x3072 .bf16} {Bp1 : FVec Ideal S1x3072 .f32}
  (H : Holds E W0 bi0 bh0 W1 bi1 bh1 b X Wp0 Bp0 Wp1 Bp1)
include H

/-- The slab after the body. -/
theorem out0_5_eq : out0_5 (F := Ideal) X Wp0 Bp0 Wp1 Bp1 = slab E W0 bi0 bh0 W1 bi1 bh1 b := by
  funext y
  unfold out0_5
  refine View.canon_apply_of_pieces (Val := Elt Ideal) (e := .f32) (slab E W0 bi0 bh0 W1 bi1 bh1 b) _ ?_ y ?_
  swap
  · exact View.cover_of_tiled ([⟨rEncHi, _⟩, ⟨rEncLo, _⟩] : List (View.Piece (Elt Ideal) S1x256x1024 .f32)) S1x256x512.size (by rfl) y
  intro p hp x
  simp only [List.mem_cons, List.mem_nil_iff, or_false] at hp
  rcases hp with rfl | rfl
  · obtain ⟨u, r, n, rfl⟩ : ∃ (u : Fin 1) (r : Fin 256) (n : Fin 512), x = ix3 u r n := ⟨x 0, x 1, x 2, eq_ix3 x⟩
    obtain rfl : u = 0 := Subsingleton.elim _ _
    dsimp only
    unfold pre1bi pre1bg pre1bo cell1f gate1fo
    simp only [View.ld_unit_zero (S := S1x256x512) hz3, View.ld_unit_zero (S := S512x3072) hz2, View.ld_unit_zero (S := S1x3072) hz2, View.ld_unit_zero (S := S1024x3072) hz2]
    rw [stored_enc1 H]
    exact (slab_hi E W0 bi0 bh0 W1 bi1 bh1 b _ r n (by show 0 + 1 * r.val = r.val; omega) (by show 512 + 1 * n.val = 512 + n.val; omega)).symm
  · obtain ⟨u, r, n, rfl⟩ : ∃ (u : Fin 1) (r : Fin 256) (n : Fin 512), x = ix3 u r n := ⟨x 0, x 1, x 2, eq_ix3 x⟩
    obtain rfl : u = 0 := Subsingleton.elim _ _
    dsimp only
    unfold hid0f hid0b
    simp only [View.ld_unit_zero (S := S1x256x512) hz3, View.ld_unit_zero (S := S512x3072) hz2, View.ld_unit_zero (S := S1x3072) hz2]
    rw [stored_enc0 H]
    exact (slab_lo E W0 bi0 bh0 W1 bi1 bh1 b _ r n (by show 0 + 1 * r.val = r.val; omega) (by show 0 + 1 * n.val = n.val; omega)).symm

/-- The last-step hidden block after the body. -/
theorem out0_6_eq : out0_6 (F := Ideal) X Wp0 Bp0 Wp1 Bp1 = hrows E W0 bi0 bh0 W1 bi1 bh1 b := by
  funext y
  unfold out0_6
  refine View.canon_apply_of_pieces (Val := Elt Ideal) (e := .f32) (hrows E W0 bi0 bh0 W1 bi1 bh1 b) _ ?_ y ?_
  swap
  · exact View.cover_of_tiled ([⟨rRow1, _⟩, ⟨rRow0, _⟩] : List (View.Piece (Elt Ideal) S1x2x512 .f32)) S1x1x512.size (by rfl) y
  intro p hp x
  simp only [List.mem_cons, List.mem_nil_iff, or_false] at hp
  rcases hp with rfl | rfl
  · obtain ⟨u, v, n, rfl⟩ : ∃ (u : Fin 1) (v : Fin 1) (n : Fin 512), x = ix3 u v n := ⟨x 0, x 1, x 2, eq_ix3 x⟩
    obtain rfl : u = 0 := Subsingleton.elim _ _
    obtain rfl : v = 0 := Subsingleton.elim _ _
    dsimp only
    unfold cell1f gate1fo
    simp only [View.ld_unit_zero (S := S1x256x512) hz3, View.ld_unit_zero (S := S512x3072) hz2, View.ld_unit_zero (S := S1x3072) hz2, View.ld_unit_zero (S := S1024x3072) hz2]
    rw [stored_hlast1 H]
    exact (hrows_at E W0 bi0 bh0 W1 bi1 bh1 b _ 1 n (by show 1 + 1 * 0 = 1; omega) (by show 0 + 1 * n.val = n.val; omega)).symm
  · obtain ⟨u, v, n, rfl⟩ : ∃ (u : Fin 1) (v : Fin 1) (n : Fin 512), x = ix3 u v n := ⟨x 0, x 1, x 2, eq_ix3 x⟩
    obtain rfl : u = 0 := Subsingleton.elim _ _
    obtain rfl : v = 0 := Subsingleton.elim _ _
    dsimp only
    unfold hid0f
    simp only [View.ld_unit_zero (S := S1x256x512) hz3, View.ld_unit_zero (S := S512x3072) hz2, View.ld_unit_zero (S := S1x3072) hz2]
    rw [stored_hlast0 H]
    exact (hrows_at E W0 bi0 bh0 W1 bi1 bh1 b _ 0 n (by show 0 + 1 * 0 = 0; omega) (by show 0 + 1 * n.val = n.val; omega)).symm

/-- The last-step cell block after the body. -/
theorem out0_7_eq : out0_7 (F := Ideal) X Wp0 Bp0 Wp1 Bp1 = crows E W0 bi0 bh0 W1 bi1 bh1 b := by
  funext y
  unfold out0_7
  refine View.canon_apply_of_pieces (Val := Elt Ideal) (e := .f32) (crows E W0 bi0 bh0 W1 bi1 bh1 b) _ ?_ y ?_
  swap
  · exact View.cover_of_tiled ([⟨rRow1, _⟩, ⟨rRow0, _⟩] : List (View.Piece (Elt Ideal) S1x2x512 .f32)) S1x1x512.size (by rfl) y
  intro p hp x
  simp only [List.mem_cons, List.mem_nil_iff, or_false] at hp
  rcases hp with rfl | rfl
  · obtain ⟨u, v, n, rfl⟩ : ∃ (u : Fin 1) (v : Fin 1) (n : Fin 512), x = ix3 u v n := ⟨x 0, x 1, x 2, eq_ix3 x⟩
    obtain rfl : u = 0 := Subsingleton.elim _ _
    obtain rfl : v = 0 := Subsingleton.elim _ _
    dsimp only
    unfold cell1f
    simp only [View.ld_unit_zero (S := S1x256x512) hz3, View.ld_unit_zero (S := S512x3072) hz2, View.ld_unit_zero (S := S1x3072) hz2, View.ld_unit_zero (S := S1024x3072) hz2]
    rw [stored_clast1 H]
    exact (crows_at E W0 bi0 bh0 W1 bi1 bh1 b _ 1 n (by show 1 + 1 * 0 = 1; omega) (by show 0 + 1 * n.val = n.val; omega)).symm
  · obtain ⟨u, v, n, rfl⟩ : ∃ (u : Fin 1) (v : Fin 1) (n : Fin 512), x = ix3 u v n := ⟨x 0, x 1, x 2, eq_ix3 x⟩
    obtain rfl : u = 0 := Subsingleton.elim _ _
    obtain rfl : v = 0 := Subsingleton.elim _ _
    dsimp only
    unfold cell0f
    simp only [View.ld_unit_zero (S := S1x256x512) hz3, View.ld_unit_zero (S := S512x3072) hz2, View.ld_unit_zero (S := S1x3072) hz2]
    rw [stored_clast0 H]
    exact (crows_at E W0 bi0 bh0 W1 bi1 bh1 b _ 0 n (by show 0 + 1 * 0 = 0; omega) (by show 0 + 1 * n.val = n.val; omega)).symm

end Buffers

end Cert.KernelIdeal.Blk

end
-- ==== Proof.KArr.lean ====
/-
  From blocks to whole arrays.

  Grid point `t` is batch row `t`: every output window's block index is `(t, 0, 0)`, so point `t` writes back rows `t` of
  the three result arrays, and the 32 points cover them.  What point `t` writes back is the buffer's function for batch
  row `t` (given what its five input blocks hold, the hypothesis `hH`), which is block `t` of one function of the whole
  array's index; hence each array ends as that function.
-/
import proofs.«122567_j76991583748156_2_alg».proof.Proof.FrameDefsIdeal
import proofs.«122567_j76991583748156_2_alg».proof.Proof.KBlock
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Frm Cert.KernelIdeal.Pay Cert.KernelIdeal.Blk
open Idealize.ShloMosaic Idealize.ShloMosaic.TcCoe Idealize.ShloMosaic.ValueIdx Cert.Spec Idealize.SL.Sem
open Idealize.ShloMosaic.Pipeline (Dat)

theorem N32 : cfg0.N = 32 := N_0

/-- Grid point `t` works on batch row `t`. -/
def bOf (t : Fin cfg0.N) : Fin 32 := ⟨t.val, by have h := t.isLt; have e : cfg0.N = 32 := N_0; omega⟩

/-- Every output window's block index at point `t` is `(t, 0, 0)`. -/
theorem idx_out : ∀ t : Fin cfg0.N,
    win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

section
variable (E : TokS.Idx → EReal) (W0 : W0S.Idx → EReal) (bi0 bh0 : BS.Idx → EReal) (W1 : W1S.Idx → EReal) (bi1 bh1 : BS.Idx → EReal)

/-- The per-time-step output array, 32×256×1024: row `b` is batch row `b`'s slab. -/
def arrEnc : S32x256x1024.Idx → EReal := fun i =>
  slab E W0 bi0 bh0 W1 bi1 bh1 (⟨(i 0).val, (i 0).isLt⟩ : Fin 32) (ix3 (0 : Fin 1) (⟨(i 1).val, (i 1).isLt⟩ : Fin 256) (⟨(i 2).val, (i 2).isLt⟩ : Fin 1024))
/-- The last-step hidden array, 32×2×512. -/
def arrH : S32x2x512.Idx → EReal := fun i =>
  hrows E W0 bi0 bh0 W1 bi1 bh1 (⟨(i 0).val, (i 0).isLt⟩ : Fin 32) (ix3 (0 : Fin 1) (⟨(i 1).val, (i 1).isLt⟩ : Fin 2) (⟨(i 2).val, (i 2).isLt⟩ : Fin 512))
/-- The last-step cell array, 32×2×512. -/
def arrC : S32x2x512.Idx → EReal := fun i =>
  crows E W0 bi0 bh0 W1 bi1 bh1 (⟨(i 0).val, (i 0).isLt⟩ : Fin 32) (ix3 (0 : Fin 1) (⟨(i 1).val, (i 1).isLt⟩ : Fin 2) (⟨(i 2).val, (i 2).isLt⟩ : Fin 512))

end

/-! ## Which array indices a point's block holds -/

theorem mem_blk5 (t : Fin cfg0.N) (i : S32x256x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v52_0).slice (win0_5.rect t)).set ↔ _
  rw [View.set_slice_whole, Rect.mem_set_unit]
  exact Iff.rfl
theorem mem_blk6 (t : Fin cfg0.N) (i : S32x2x512.Idx) :
    i ∈ ((cfg0.win 6).blk t).view.set ↔ ∀ a : Fin 3, win0_6.index t a * S1x2x512.size a ≤ (i a).val ∧ (i a).val < win0_6.index t a * S1x2x512.size a + S1x2x512.size a := by
  show i ∈ ((View.whole main_v52_1).slice (win0_6.rect t)).set ↔ _
  rw [View.set_slice_whole, Rect.mem_set_unit]
  exact Iff.rfl
theorem mem_blk7 (t : Fin cfg0.N) (i : S32x2x512.Idx) :
    i ∈ ((cfg0.win 7).blk t).view.set ↔ ∀ a : Fin 3, win0_7.index t a * S1x2x512.size a ≤ (i a).val ∧ (i a).val < win0_7.index t a * S1x2x512.size a + S1x2x512.size a := by
  show i ∈ ((View.whole main_v52_2).slice (win0_7.rect t)).set ↔ _
  rw [View.set_slice_whole, Rect.mem_set_unit]
  exact Iff.rfl

/-- Row `i 0` of the array is point `i 0`'s block. -/
theorem cover5 (i : S32x256x1024.Idx) : ∃ t : Fin cfg0.N, (cfg0.win 5).flush t = true ∧ i ∈ ((cfg0.win 5).blk t).view.set := by
  have h0 : (i 0).val < 32 := (i 0).isLt
  have h1 : (i 1).val < 256 := (i 1).isLt
  have h2 : (i 2).val < 1024 := (i 2).isLt
  obtain ⟨e0, e1, e2, -⟩ := idx_out ⟨(i 0).val, by rw [N32]; exact h0⟩
  refine ⟨⟨(i 0).val, by rw [N32]; exact h0⟩, flush0_5 _, ?_⟩
  rw [mem_blk5]
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 256 ≤ (i 1).val ∧ (i 1).val < win0_5.index _ (1 : Fin 3) * 256 + 256; rw [e1]; omega
  | ⟨2, _⟩ => show win0_5.index _ (2 : Fin 3) * 1024 ≤ (i 2).val ∧ (i 2).val < win0_5.index _ (2 : Fin 3) * 1024 + 1024; rw [e2]; omega

theorem cover6 (i : S32x2x512.Idx) : ∃ t : Fin cfg0.N, (cfg0.win 6).flush t = true ∧ i ∈ ((cfg0.win 6).blk t).view.set := by
  have h0 : (i 0).val < 32 := (i 0).isLt
  have h1 : (i 1).val < 2 := (i 1).isLt
  have h2 : (i 2).val < 512 := (i 2).isLt
  obtain ⟨-, -, -, e0, e1, e2, -⟩ := idx_out ⟨(i 0).val, by rw [N32]; exact h0⟩
  refine ⟨⟨(i 0).val, by rw [N32]; exact h0⟩, flush0_6 _, ?_⟩
  rw [mem_blk6]
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 2 ≤ (i 1).val ∧ (i 1).val < win0_6.index _ (1 : Fin 3) * 2 + 2; rw [e1]; omega
  | ⟨2, _⟩ => show win0_6.index _ (2 : Fin 3) * 512 ≤ (i 2).val ∧ (i 2).val < win0_6.index _ (2 : Fin 3) * 512 + 512; rw [e2]; omega

theorem cover7 (i : S32x2x512.Idx) : ∃ t : Fin cfg0.N, (cfg0.win 7).flush t = true ∧ i ∈ ((cfg0.win 7).blk t).view.set := by
  have h0 : (i 0).val < 32 := (i 0).isLt
  have h1 : (i 1).val < 2 := (i 1).isLt
  have h2 : (i 2).val < 512 := (i 2).isLt
  obtain ⟨-, -, -, -, -, -, e0, e1, e2⟩ := idx_out ⟨(i 0).val, by rw [N32]; exact h0⟩
  refine ⟨⟨(i 0).val, by rw [N32]; exact h0⟩, flush0_7 _, ?_⟩
  rw [mem_blk7]
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 2 ≤ (i 1).val ∧ (i 1).val < win0_7.index _ (1 : Fin 3) * 2 + 2; rw [e1]; omega
  | ⟨2, _⟩ => show win0_7.index _ (2 : Fin 3) * 512 ≤ (i 2).val ∧ (i 2).val < win0_7.index _ (2 : Fin 3) * 512 + 512; rw [e2]; omega

/-! ## What each point writes back, and the arrays after the run -/

section Final
variable (m : (ℓ : Loc nD τ sig) → Buf (Elt Ideal) ℓ) (c : Dev nD)
variable {E : TokS.Idx → EReal} {W0 : W0S.Idx → EReal} {bi0 bh0 : BS.Idx → EReal} {W1 : W1S.Idx → EReal} {bi1 bh1 : BS.Idx → EReal}
variable (hH : ∀ t : Fin cfg0.N, Holds E W0 bi0 bh0 W1 bi1 bh1 (bOf t) (iblk m c 0 t) (iblk m c 1 t) (iblk m c 2 t) (iblk m c 3 t) (iblk m c 4 t))
include hH

theorem flushed5_eq (t : Fin cfg0.N) :
    (dats m 0 c).flushed 5 t = ((cfg0.win 5).blk t).view.read (Elt Ideal) (arrEnc E W0 bi0 bh0 W1 bi1 bh1) := by
  show (cfg0.win 5).cut (grid0.coords t) ((dats m 0 c).after 5 t) = _
  rw [after0_5, out0_5_eq (hH t)]
  obtain ⟨e0, e1, e2, -⟩ := idx_out t
  funext y
  have hy0 : (y 0).val < 1 := (y 0).isLt
  show slab E W0 bi0 bh0 W1 bi1 bh1 (bOf t) _ = arrEnc E W0 bi0 bh0 W1 bi1 bh1 (((cfg0.win 5).blk t).view.emb y)
  unfold arrEnc
  refine congrArg₂ (slab E W0 bi0 bh0 W1 bi1 bh1) (Fin.ext ?_) (funext fun a => Fin.ext ?_)
  · show t.val = win0_5.index t (0 : Fin 3) * 1 + 1 * (y 0).val; omega
  · match a with
    | ⟨0, _⟩ => show (y 0).val = 0; omega
    | ⟨1, _⟩ => show (y 1).val = win0_5.index t (1 : Fin 3) * 256 + 1 * (y 1).val; omega
    | ⟨2, _⟩ => show (y 2).val = win0_5.index t (2 : Fin 3) * 1024 + 1 * (y 2).val; omega

theorem flushed6_eq (t : Fin cfg0.N) :
    (dats m 0 c).flushed 6 t = ((cfg0.win 6).blk t).view.read (Elt Ideal) (arrH E W0 bi0 bh0 W1 bi1 bh1) := by
  show (cfg0.win 6).cut (grid0.coords t) ((dats m 0 c).after 6 t) = _
  rw [after0_6, out0_6_eq (hH t)]
  obtain ⟨-, -, -, e0, e1, e2, -⟩ := idx_out t
  funext y
  have hy0 : (y 0).val < 1 := (y 0).isLt
  show hrows E W0 bi0 bh0 W1 bi1 bh1 (bOf t) _ = arrH E W0 bi0 bh0 W1 bi1 bh1 (((cfg0.win 6).blk t).view.emb y)
  unfold arrH
  refine congrArg₂ (hrows E W0 bi0 bh0 W1 bi1 bh1) (Fin.ext ?_) (funext fun a => Fin.ext ?_)
  · show t.val = win0_6.index t (0 : Fin 3) * 1 + 1 * (y 0).val; omega
  · match a with
    | ⟨0, _⟩ => show (y 0).val = 0; omega
    | ⟨1, _⟩ => show (y 1).val = win0_6.index t (1 : Fin 3) * 2 + 1 * (y 1).val; omega
    | ⟨2, _⟩ => show (y 2).val = win0_6.index t (2 : Fin 3) * 512 + 1 * (y 2).val; omega

theorem flushed7_eq (t : Fin cfg0.N) :
    (dats m 0 c).flushed 7 t = ((cfg0.win 7).blk t).view.read (Elt Ideal) (arrC E W0 bi0 bh0 W1 bi1 bh1) := by
  show (cfg0.win 7).cut (grid0.coords t) ((dats m 0 c).after 7 t) = _
  rw [after0_7, out0_7_eq (hH t)]
  obtain ⟨-, -, -, -, -, -, e0, e1, e2⟩ := idx_out t
  funext y
  have hy0 : (y 0).val < 1 := (y 0).isLt
  show crows E W0 bi0 bh0 W1 bi1 bh1 (bOf t) _ = arrC E W0 bi0 bh0 W1 bi1 bh1 (((cfg0.win 7).blk t).view.emb y)
  unfold arrC
  refine congrArg₂ (crows E W0 bi0 bh0 W1 bi1 bh1) (Fin.ext ?_) (funext fun a => Fin.ext ?_)
  · show t.val = win0_7.index t (0 : Fin 3) * 1 + 1 * (y 0).val; omega
  · match a with
    | ⟨0, _⟩ => show (y 0).val = 0; omega
    | ⟨1, _⟩ => show (y 1).val = win0_7.index t (1 : Fin 3) * 2 + 1 * (y 1).val; omega
    | ⟨2, _⟩ => show (y 2).val = win0_7.index t (2 : Fin 3) * 512 + 1 * (y 2).val; omega

/-- The three result arrays of the region after the run. -/
theorem final5 : (dats m 0 c).arrAt 5 cfg0.N = arrEnc E W0 bi0 bh0 W1 bi1 bh1 :=
  (dats m 0 c).arrAt_eq_of_cover 5 (arrEnc E W0 bi0 bh0 W1 bi1 bh1) (fun t _ => flushed5_eq m c hH t) cover5
theorem final6 : (dats m 0 c).arrAt 6 cfg0.N = arrH E W0 bi0 bh0 W1 bi1 bh1 :=
  (dats m 0 c).arrAt_eq_of_cover 6 (arrH E W0 bi0 bh0 W1 bi1 bh1) (fun t _ => flushed6_eq m c hH t) cover6
theorem final7 : (dats m 0 c).arrAt 7 cfg0.N = arrC E W0 bi0 bh0 W1 bi1 bh1 :=
  (dats m 0 c).arrAt_eq_of_cover 7 (arrC E W0 bi0 bh0 W1 bi1 bh1) (fun t _ => flushed7_eq m c hH t) cover7

end Final

end Cert.KernelIdeal.Arr

end
-- ==== Proof.KTail.lean ====
/-
  The three results, after the host operations that follow the region.

  The region leaves a 32×256×1024 array whose row `(b, t)` holds layer 0's 512 outputs then layer 1's; the host reshapes it to
  32×256×2×512, which splits each row into its two layers.  The two 32×2×512 last-step arrays are transposed to 2×32×512,
  layer first.  With the region's arrays known as functions of their indices, each result is the specification's array.
-/
import proofs.«122567_j76991583748156_2_alg».proof.Proof.FrameDefsIdeal
import proofs.«122567_j76991583748156_2_alg».proof.Proof.KArr
import Idealize.ShloMosaic.Lib.StableHlo.Run
import Idealize.ShloMosaic.Lib.Pipeline.Value
import Idealize.ShloMosaic.Lib.ValueIdx

set_option maxRecDepth 16384

noncomputable section

namespace Cert.KernelIdeal.Tail

open Cert.KernelIdeal Cert.KernelIdeal.Gen Cert.KernelIdeal.Frm Cert.KernelIdeal.Pay Cert.KernelIdeal.Blk Cert.KernelIdeal.Arr
open Idealize.ShloMosaic Idealize.ShloMosaic.TcCoe Idealize.ShloMosaic.ValueIdx Cert.Spec Idealize.SL.Sem Idealize.ShloMosaic.StableHlo

variable (m : (ℓ : Loc nD τ sig) → Buf (Elt Ideal) ℓ) (c : Dev nD)

/-- The per-time-step result is the region's first array, reshaped. -/
theorem tail53 : Pipeline.afterTail₀ cfgs (dats m) 0 (V0 m) [hostOps1] c main_v53
    = shapeCast S32x256x2x512 ((dats m 0 c).arrAt 5 cfg0.N) shapeCasts_S32x256x1024_S32x256x2x512 := by
  unfold Pipeline.afterTail₀
  show StableHlo.after hostOps1 _ (Proc.devRef .tc main_v53) = _
  after_results
  exact congrArg (fun z => shapeCast S32x256x2x512 z shapeCasts_S32x256x1024_S32x256x2x512) (Pipeline.withArrays_arr spec0 launch0.win.arr_inj c _ _ (5 : Fin 8))

/-- The last-step hidden result is the region's second array, transposed. -/
theorem tail54 : Pipeline.afterTail₀ cfgs (dats m) 0 (V0 m) [hostOps1] c main_v54
    = transpose S2x32x512 [1, 0, 2] ((dats m 0 c).arrAt 6 cfg0.N) transposes_S32x2x512_S2x32x512_1_0_2 := by
  unfold Pipeline.afterTail₀
  show StableHlo.after hostOps1 _ (Proc.devRef .tc main_v54) = _
  after_results
  exact congrArg (fun z => transpose S2x32x512 [1, 0, 2] z transposes_S32x2x512_S2x32x512_1_0_2) (Pipeline.withArrays_arr spec0 launch0.win.arr_inj c _ _ (6 : Fin 8))

/-- The last-step cell result is the region's third array, transposed. -/
theorem tail55 : Pipeline.afterTail₀ cfgs (dats m) 0 (V0 m) [hostOps1] c main_v55
    = transpose S2x32x512 [1, 0, 2] ((dats m 0 c).arrAt 7 cfg0.N) transposes_S32x2x512_S2x32x512_1_0_2 := by
  unfold Pipeline.afterTail₀
  show StableHlo.after hostOps1 _ (Proc.devRef .tc main_v55) = _
  after_results
  exact congrArg (fun z => transpose S2x32x512 [1, 0, 2] z transposes_S32x2x512_S2x32x512_1_0_2) (Pipeline.withArrays_arr spec0 launch0.win.arr_inj c _ _ (7 : Fin 8))

section Results
variable {E : TokS.Idx → EReal} {W0 : W0S.Idx → EReal} {bi0 bh0 : BS.Idx → EReal} {W1 : W1S.Idx → EReal} {bi1 bh1 : BS.Idx → EReal}
variable (hH : ∀ t : Fin cfg0.N, Holds E W0 bi0 bh0 W1 bi1 bh1 (bOf t) (iblk m c 0 t) (iblk m c 1 t) (iblk m c 2 t) (iblk m c 3 t) (iblk m c 4 t))
include hH

theorem enc_result : Pipeline.afterTail₀ cfgs (dats m) 0 (V0 m) [hostOps1] c main_v53 = encArr E W0 bi0 bh0 W1 bi1 bh1 := by
  rw [tail53, final5 m c hH]
  funext i
  obtain ⟨b, t, l, n, rfl⟩ : ∃ (b : Fin 32) (t : Fin 256) (l : Fin 2) (n : Fin 512), i = ix4 b t l n := ⟨i 0, i 1, i 2, i 3, eq_ix4 i⟩
  rw [encArr_ix]
  have hl := l.isLt; have hn := n.isLt
  refine (shapeCast_apply _ shapeCasts_S32x256x1024_S32x256x2x512 (ix4 b t l n) (ix3 b t (⟨l.val * 512 + n.val, by omega⟩ : Fin 1024)) (by
    rw [Shape.rowMajor_val_three, Shape.rowMajor_val_four]
    show (b.val * 256 + t.val) * 1024 + (l.val * 512 + n.val) = ((b.val * 256 + t.val) * 2 + l.val) * 512 + n.val
    omega)).trans ?_
  unfold arrEnc
  obtain ⟨lv, hlv⟩ := l
  match lv, hlv with
  | 0, _ => exact slab_lo E W0 bi0 bh0 W1 bi1 bh1 b _ t n rfl (by show 0 * 512 + n.val = n.val; omega)
  | 1, _ => exact slab_hi E W0 bi0 bh0 W1 bi1 bh1 b _ t n rfl (by show 1 * 512 + n.val = 512 + n.val; omega)

theorem hlast_result : Pipeline.afterTail₀ cfgs (dats m) 0 (V0 m) [hostOps1] c main_v54 = hlastArr E W0 bi0 bh0 W1 bi1 bh1 := by
  rw [tail54, final6 m c hH]
  funext i
  obtain ⟨l, b, n, rfl⟩ : ∃ (l : Fin 2) (b : Fin 32) (n : Fin 512), i = ix3 l b n := ⟨i 0, i 1, i 2, eq_ix3 i⟩
  rw [hlastArr_ix]
  refine (transpose_apply [1, 0, 2] _ transposes_S32x2x512_S2x32x512_1_0_2 (ix3 l b n) (ix3 b l n)
    (fun a => match a with | ⟨0, _⟩ => rfl | ⟨1, _⟩ => rfl | ⟨2, _⟩ => rfl)).trans ?_
  unfold arrH
  exact hrows_at E W0 bi0 bh0 W1 bi1 bh1 b _ l n rfl rfl

theorem clast_result : Pipeline.afterTail₀ cfgs (dats m) 0 (V0 m) [hostOps1] c main_v55 = clastArr E W0 bi0 bh0 W1 bi1 bh1 := by
  rw [tail55, final7 m c hH]
  funext i
  obtain ⟨l, b, n, rfl⟩ : ∃ (l : Fin 2) (b : Fin 32) (n : Fin 512), i = ix3 l b n := ⟨i 0, i 1, i 2, eq_ix3 i⟩
  rw [clastArr_ix]
  refine (transpose_apply [1, 0, 2] _ transposes_S32x2x512_S2x32x512_1_0_2 (ix3 l b n) (ix3 b l n)
    (fun a => match a with | ⟨0, _⟩ => rfl | ⟨1, _⟩ => rfl | ⟨2, _⟩ => rfl)).trans ?_
  unfold arrC
  exact crows_at E W0 bi0 bh0 W1 bi1 bh1 b _ l n rfl rfl

end Results

end Cert.KernelIdeal.Tail

end
-- ==== Proof.KHost.lean ====
/-
  What the host operations before the region leave in memory, read at an index.

  The embedded tokens are a gather of the embedding table at the tokens (negative tokens wrapped once), kept as one
  opaque term. A packed weight matrix holds, in column j of row k, the gate weight W[d, ρ, k] with d = j / 1536 the
  direction and ρ the gate row of column j (input gate, cell candidate, output gate: the forget gate's rows are skipped);
  a packed bias row holds in column j the sum of the two biases at (d, ρ).
-/
import proofs.«122567_j76991583748156_2_alg».proof.Proof.FrameDefsIdeal
import proofs.«122567_j76991583748156_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Host

open Cert.KernelIdeal Cert.KernelIdeal.Gen Cert.KernelIdeal.Frm
open Idealize.ShloMosaic Idealize.ShloMosaic.TcCoe Idealize.ShloMosaic.ValueIdx
open Idealize.SL.Sem

/-- The embedded tokens as a term of the token array and the embedding table: tokens below zero are moved up by the
    table's height, and each token's row is gathered. -/
def tokTerm {F : FTy → Type} [FloatOps F] (x : (⟨S32x256, .i32⟩ : BufTy).Contents (Elt F))
    (emb : (⟨S50000x512, .f32⟩ : BufTy).Contents (Elt F)) : (⟨S32x256x512, .f32⟩ : BufTy).Contents (Elt F) :=
  Host.gather gather_S50000x512_S32x256x1_S32x256x512_2_0_n_n_0_2_1512 emb
    (broadcastInDim S32x256x1 ![0, 1] bcast_S32x256_S32x256x1_0_1
      (select (cmpi .slt x (broadcastInDim S32x256 ![] bcast_S_S32x256 (constantI S_ 32 0#32)))
        (addi x (broadcastInDim S32x256 ![] bcast_S_S32x256 (constantI S_ 32 50000#32))) x))

/-! ## The operations' results, one buffer at a time -/

/-- An operation on three operands leaves in its result buffer its function of the three operands' contents, each read
    at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same, stated so that a rewrite matches the result reference up to unfolding. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

open Idealize.ShloMosaic.StableHlo in
/-- Rewrites a buffer's contents after a list of operations to the operations' functions of the launch contents: each
    operation's result at its own result buffer is its function's value, at any other reference what was there. -/
macro "host_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## Layout reads

The packing is a chain of slices, concatenations, one transposition and shape casts; each is read at an index written by
coordinates, for any element type and (for the weights) any number `K` of input features. -/

section Layout
variable {α : Type}

/-- A rank-3 array cut along its leading axis from `o` reads, at `(j, a, e)`, the source at `(k, a, e)` with `k = o + j`. -/
theorem slice3_axis0_apply {n0 n1 n2 n : Nat} (o : Nat) (X : (⟨3, ![n0, n1, n2]⟩ : Shape).Idx → α)
    (h : (⟨3, ![n0, n1, n2]⟩ : Shape).Slices ![o, 0, 0] ⟨3, ![n, n1, n2]⟩)
    (j : Fin n) (a : Fin n1) (e : Fin n2) (k : Fin n0) (hk : k.val = o + j.val) :
    extractStridedSlice ⟨3, ![n, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Of each direction's 2048 gate rows keep rows 0–511, 1024–1535 and 1536–2047, in that order. -/
def keepW {K : Nat} (W : (⟨3, ![2, 2048, K]⟩ : Shape).Idx → α)
    (h0 : (⟨3, ![2, 2048, K]⟩ : Shape).Slices ![0, 0, 0] ⟨3, ![2, 512, K]⟩)
    (h1 : (⟨3, ![2, 2048, K]⟩ : Shape).Slices ![0, 1024, 0] ⟨3, ![2, 512, K]⟩)
    (h2 : (⟨3, ![2, 2048, K]⟩ : Shape).Slices ![0, 1536, 0] ⟨3, ![2, 512, K]⟩)
    (hc : Shape.Concatenates [⟨3, ![2, 512, K]⟩, ⟨3, ![2, 512, K]⟩, ⟨3, ![2, 512, K]⟩] ⟨3, ![2, 1536, K]⟩ 1) :
    (⟨3, ![2, 1536, K]⟩ : Shape).Idx → α :=
  concatenate ⟨3, ![2, 1536, K]⟩ 1
    [⟨⟨3, ![2, 512, K]⟩, extractStridedSlice ⟨3, ![2, 512, K]⟩ ![0, 0, 0] W h0⟩,
     ⟨⟨3, ![2, 512, K]⟩, extractStridedSlice ⟨3, ![2, 512, K]⟩ ![0, 1024, 0] W h1⟩,
     ⟨⟨3, ![2, 512, K]⟩, extractStridedSlice ⟨3, ![2, 512, K]⟩ ![0, 1536, 0] W h2⟩] hc

/-- Kept row `q` of direction `d` is gate row `q` below 512 and gate row `q + 512` from there on. -/
theorem keepW_apply {K : Nat} (W : (⟨3, ![2, 2048, K]⟩ : Shape).Idx → α)
    (h0 : (⟨3, ![2, 2048, K]⟩ : Shape).Slices ![0, 0, 0] ⟨3, ![2, 512, K]⟩)
    (h1 : (⟨3, ![2, 2048, K]⟩ : Shape).Slices ![0, 1024, 0] ⟨3, ![2, 512, K]⟩)
    (h2 : (⟨3, ![2, 2048, K]⟩ : Shape).Slices ![0, 1536, 0] ⟨3, ![2, 512, K]⟩)
    (hc : Shape.Concatenates [⟨3, ![2, 512, K]⟩, ⟨3, ![2, 512, K]⟩, ⟨3, ![2, 512, K]⟩] ⟨3, ![2, 1536, K]⟩ 1)
    (d : Fin 2) (q : Fin 1536) (k : Fin K) (r : Fin 2048)
    (hr : r.val = if q.val < 512 then q.val else q.val + 512) :
    keepW W h0 h1 h2 hc (ix3 d q k) = W (ix3 d r k) := by
  have hq := q.isLt
  unfold keepW
  by_cases hq0 : q.val < 512
  · rw [if_pos hq0] at hr
    refine (concatenate_apply_piece (t := ⟨3, ![2, 1536, K]⟩) (1 : Fin 3)
      [⟨⟨3, ![2, 512, K]⟩, extractStridedSlice ⟨3, ![2, 512, K]⟩ ![0, 0, 0] W h0⟩,
       ⟨⟨3, ![2, 512, K]⟩, extractStridedSlice ⟨3, ![2, 512, K]⟩ ![0, 1024, 0] W h1⟩,
       ⟨⟨3, ![2, 512, K]⟩, extractStridedSlice ⟨3, ![2, 512, K]⟩ ![0, 1536, 0] W h2⟩]
      hc (ix3 d q k) 0 (by simp) ⟨3, ![2, 512, K]⟩ _ rfl rfl 0 (by rfl)
      (ix3 d (⟨q.val, hq0⟩ : Fin 512) k) (fun b hb => ?_) ?_).trans ?_
    · match b with
      | ⟨0, _⟩ => rfl
      | ⟨1, _⟩ => exact absurd rfl hb
      | ⟨2, _⟩ => rfl
    · show 0 + q.val = q.val
      omega
    · exact slice3_axis1_apply 0 W h0 d ⟨q.val, hq0⟩ k r (by show r.val = 0 + q.val; omega)
  · rw [if_neg hq0] at hr
    by_cases hq1 : q.val < 1024
    · refine (concatenate_apply_piece (t := ⟨3, ![2, 1536, K]⟩) (1 : Fin 3)
      [⟨⟨3, ![2, 512, K]⟩, extractStridedSlice ⟨3, ![2, 512, K]⟩ ![0, 0, 0] W h0⟩,
       ⟨⟨3, ![2, 512, K]⟩, extractStridedSlice ⟨3, ![2, 512, K]⟩ ![0, 1024, 0] W h1⟩,
       ⟨⟨3, ![2, 512, K]⟩, extractStridedSlice ⟨3, ![2, 512, K]⟩ ![0, 1536, 0] W h2⟩]
      hc (ix3 d q k) 1 (by simp) ⟨3, ![2, 512, K]⟩ _ rfl rfl 512 (by rfl)
        (ix3 d (⟨q.val - 512, by omega⟩ : Fin 512) k) (fun b hb => ?_) ?_).trans ?_
      · match b with
        | ⟨0, _⟩ => rfl
        | ⟨1, _⟩ => exact absurd rfl hb
        | ⟨2, _⟩ => rfl
      · show 512 + (q.val - 512) = q.val
        omega
      · exact slice3_axis1_apply 1024 W h1 d ⟨q.val - 512, by omega⟩ k r (by show r.val = 1024 + (q.val - 512); omega)
    · refine (concatenate_apply_piece (t := ⟨3, ![2, 1536, K]⟩) (1 : Fin 3)
      [⟨⟨3, ![2, 512, K]⟩, extractStridedSlice ⟨3, ![2, 512, K]⟩ ![0, 0, 0] W h0⟩,
       ⟨⟨3, ![2, 512, K]⟩, extractStridedSlice ⟨3, ![2, 512, K]⟩ ![0, 1024, 0] W h1⟩,
       ⟨⟨3, ![2, 512, K]⟩, extractStridedSlice ⟨3, ![2, 512, K]⟩ ![0, 1536, 0] W h2⟩]
      hc (ix3 d q k) 2 (by simp) ⟨3, ![2, 512, K]⟩ _ rfl rfl 1024 (by rfl)
        (ix3 d (⟨q.val - 1024, by omega⟩ : Fin 512) k) (fun b hb => ?_) ?_).trans ?_
      · match b with
        | ⟨0, _⟩ => rfl
        | ⟨1, _⟩ => exact absurd rfl hb
        | ⟨2, _⟩ => rfl
      · show 1024 + (q.val - 1024) = q.val
        omega
      · exact slice3_axis1_apply 1536 W h2 d ⟨q.val - 1024, by omega⟩ k r (by show r.val = 1536 + (q.val - 1024); omega)

/-- The packed weights: the kept rows transposed to columns, the two directions side by side. -/
def packW {K : Nat} (W : (⟨3, ![2, 2048, K]⟩ : Shape).Idx → α)
    (h0 : (⟨3, ![2, 2048, K]⟩ : Shape).Slices ![0, 0, 0] ⟨3, ![2, 512, K]⟩)
    (h1 : (⟨3, ![2, 2048, K]⟩ : Shape).Slices ![0, 1024, 0] ⟨3, ![2, 512, K]⟩)
    (h2 : (⟨3, ![2, 2048, K]⟩ : Shape).Slices ![0, 1536, 0] ⟨3, ![2, 512, K]⟩)
    (hc : Shape.Concatenates [⟨3, ![2, 512, K]⟩, ⟨3, ![2, 512, K]⟩, ⟨3, ![2, 512, K]⟩] ⟨3, ![2, 1536, K]⟩ 1)
    (ht : (⟨3, ![2, 1536, K]⟩ : Shape).Transposes [0, 2, 1] ⟨3, ![2, K, 1536]⟩)
    (hs0 : (⟨3, ![2, K, 1536]⟩ : Shape).Slices ![0, 0, 0] ⟨3, ![1, K, 1536]⟩)
    (hs1 : (⟨3, ![2, K, 1536]⟩ : Shape).Slices ![1, 0, 0] ⟨3, ![1, K, 1536]⟩)
    (hsc : (⟨3, ![1, K, 1536]⟩ : Shape).ShapeCasts ⟨2, ![K, 1536]⟩)
    (hcc : Shape.Concatenates [⟨2, ![K, 1536]⟩, ⟨2, ![K, 1536]⟩] ⟨2, ![K, 3072]⟩ 1) :
    (⟨2, ![K, 3072]⟩ : Shape).Idx → α :=
  concatenate ⟨2, ![K, 3072]⟩ 1
    [⟨⟨2, ![K, 1536]⟩, shapeCast ⟨2, ![K, 1536]⟩ (extractStridedSlice ⟨3, ![1, K, 1536]⟩ ![0, 0, 0]
        (transpose ⟨3, ![2, K, 1536]⟩ [0, 2, 1] (keepW W h0 h1 h2 hc) ht) hs0) hsc⟩,
     ⟨⟨2, ![K, 1536]⟩, shapeCast ⟨2, ![K, 1536]⟩ (extractStridedSlice ⟨3, ![1, K, 1536]⟩ ![1, 0, 0]
        (transpose ⟨3, ![2, K, 1536]⟩ [0, 2, 1] (keepW W h0 h1 h2 hc) ht) hs1) hsc⟩] hcc

/-- Packed column `j` of row `k` is `W[d, ρ, k]` with `d = j / 1536` and, for `q = j % 1536`, `ρ = q` below 512 and
    `q + 512` from there on. -/
theorem packW_apply {K : Nat} (W : (⟨3, ![2, 2048, K]⟩ : Shape).Idx → α)
    (h0 : (⟨3, ![2, 2048, K]⟩ : Shape).Slices ![0, 0, 0] ⟨3, ![2, 512, K]⟩)
    (h1 : (⟨3, ![2, 2048, K]⟩ : Shape).Slices ![0, 1024, 0] ⟨3, ![2, 512, K]⟩)
    (h2 : (⟨3, ![2, 2048, K]⟩ : Shape).Slices ![0, 1536, 0] ⟨3, ![2, 512, K]⟩)
    (hc : Shape.Concatenates [⟨3, ![2, 512, K]⟩, ⟨3, ![2, 512, K]⟩, ⟨3, ![2, 512, K]⟩] ⟨3, ![2, 1536, K]⟩ 1)
    (ht : (⟨3, ![2, 1536, K]⟩ : Shape).Transposes [0, 2, 1] ⟨3, ![2, K, 1536]⟩)
    (hs0 : (⟨3, ![2, K, 1536]⟩ : Shape).Slices ![0, 0, 0] ⟨3, ![1, K, 1536]⟩)
    (hs1 : (⟨3, ![2, K, 1536]⟩ : Shape).Slices ![1, 0, 0] ⟨3, ![1, K, 1536]⟩)
    (hsc : (⟨3, ![1, K, 1536]⟩ : Shape).ShapeCasts ⟨2, ![K, 1536]⟩)
    (hcc : Shape.Concatenates [⟨2, ![K, 1536]⟩, ⟨2, ![K, 1536]⟩] ⟨2, ![K, 3072]⟩ 1)
    (k : Fin K) (j : Fin 3072) (d : Fin 2) (r : Fin 2048) (hd : d.val = j.val / 1536)
    (hr : r.val = if j.val % 1536 < 512 then j.val % 1536 else j.val % 1536 + 512) :
    packW W h0 h1 h2 hc ht hs0 hs1 hsc hcc (ix2 k j) = W (ix3 d r k) := by
  have hj := j.isLt
  unfold packW
  by_cases hlt : j.val < 1536
  · have hmod : j.val % 1536 = j.val := Nat.mod_eq_of_lt hlt
    have hd0 : d.val = 0 + (0 : Fin 1).val := by
      show d.val = 0 + 0
      rw [hd, Nat.div_eq_of_lt hlt]
    rw [hmod] at hr
    refine (concatenate_pair_apply_left (t := ⟨2, ![K, 3072]⟩) (s₁ := ⟨2, ![K, 1536]⟩) (s₂ := ⟨2, ![K, 1536]⟩) (1 : Fin 2) _ _ hcc (ix2 k j) rfl
      (ix2 k (⟨j.val, hlt⟩ : Fin 1536)) (fun b => ?_)).trans ?_
    · match b with
      | ⟨0, _⟩ => rfl
      | ⟨1, _⟩ => rfl
    refine (shapeCast_1ab_ab_apply _ hsc k ⟨j.val, hlt⟩).trans ?_
    refine (slice3_axis0_apply 0 _ hs0 (0 : Fin 1) k ⟨j.val, hlt⟩ d hd0).trans ?_
    refine (transpose_ix3_021_apply _ ht d k ⟨j.val, hlt⟩).trans ?_
    exact keepW_apply W h0 h1 h2 hc d ⟨j.val, hlt⟩ k r hr
  · have hge : 1536 ≤ j.val := Nat.le_of_not_lt hlt
    have hmod : j.val % 1536 = j.val - 1536 := by omega
    have hd1 : d.val = 1 + (0 : Fin 1).val := by
      show d.val = 1 + 0
      rw [hd]; omega
    rw [hmod] at hr
    refine (concatenate_pair_apply_right (t := ⟨2, ![K, 3072]⟩) (s₁ := ⟨2, ![K, 1536]⟩) (s₂ := ⟨2, ![K, 1536]⟩) (1 : Fin 2) _ _ hcc (ix2 k j) rfl rfl
      (ix2 k (⟨j.val - 1536, by omega⟩ : Fin 1536))
      (fun b hb => ?_) ?_).trans ?_
    · match b with
      | ⟨0, _⟩ => rfl
      | ⟨1, _⟩ => exact absurd rfl hb
    · show (j.val - 1536) + 1536 = j.val
      omega
    refine (shapeCast_1ab_ab_apply _ hsc k ⟨j.val - 1536, by omega⟩).trans ?_
    refine (slice3_axis0_apply 1 _ hs1 (0 : Fin 1) k ⟨j.val - 1536, by omega⟩ d hd1).trans ?_
    refine (transpose_ix3_021_apply _ ht d k ⟨j.val - 1536, by omega⟩).trans ?_
    exact keepW_apply W h0 h1 h2 hc d ⟨j.val - 1536, by omega⟩ k r hr

end Layout

section LayoutBias
variable {α : Type}

/-- Of each direction's 2048 bias entries keep entries 0–511, 1024–1535 and 1536–2047, in that order. -/
def keepB (B : (⟨2, ![2, 2048]⟩ : Shape).Idx → α)
    (h0 : (⟨2, ![2, 2048]⟩ : Shape).Slices ![0, 0] ⟨2, ![2, 512]⟩)
    (h1 : (⟨2, ![2, 2048]⟩ : Shape).Slices ![0, 1024] ⟨2, ![2, 512]⟩)
    (h2 : (⟨2, ![2, 2048]⟩ : Shape).Slices ![0, 1536] ⟨2, ![2, 512]⟩)
    (hc : Shape.Concatenates [⟨2, ![2, 512]⟩, ⟨2, ![2, 512]⟩, ⟨2, ![2, 512]⟩] ⟨2, ![2, 1536]⟩ 1) :
    (⟨2, ![2, 1536]⟩ : Shape).Idx → α :=
  concatenate ⟨2, ![2, 1536]⟩ 1
    [⟨⟨2, ![2, 512]⟩, extractStridedSlice ⟨2, ![2, 512]⟩ ![0, 0] B h0⟩,
     ⟨⟨2, ![2, 512]⟩, extractStridedSlice ⟨2, ![2, 512]⟩ ![0, 1024] B h1⟩,
     ⟨⟨2, ![2, 512]⟩, extractStridedSlice ⟨2, ![2, 512]⟩ ![0, 1536] B h2⟩] hc

/-- Kept entry `q` of direction `d` is entry `q` below 512 and entry `q + 512` from there on. -/
theorem keepB_apply (B : (⟨2, ![2, 2048]⟩ : Shape).Idx → α)
    (h0 : (⟨2, ![2, 2048]⟩ : Shape).Slices ![0, 0] ⟨2, ![2, 512]⟩)
    (h1 : (⟨2, ![2, 2048]⟩ : Shape).Slices ![0, 1024] ⟨2, ![2, 512]⟩)
    (h2 : (⟨2, ![2, 2048]⟩ : Shape).Slices ![0, 1536] ⟨2, ![2, 512]⟩)
    (hc : Shape.Concatenates [⟨2, ![2, 512]⟩, ⟨2, ![2, 512]⟩, ⟨2, ![2, 512]⟩] ⟨2, ![2, 1536]⟩ 1)
    (d : Fin 2) (q : Fin 1536) (r : Fin 2048)
    (hr : r.val = if q.val < 512 then q.val else q.val + 512) :
    keepB B h0 h1 h2 hc (ix2 d q) = B (ix2 d r) := by
  have hq := q.isLt
  unfold keepB
  by_cases hq0 : q.val < 512
  · rw [if_pos hq0] at hr
    refine (concatenate_apply_piece (t := ⟨2, ![2, 1536]⟩) (1 : Fin 2)
      [⟨⟨2, ![2, 512]⟩, extractStridedSlice ⟨2, ![2, 512]⟩ ![0, 0] B h0⟩,
       ⟨⟨2, ![2, 512]⟩, extractStridedSlice ⟨2, ![2, 512]⟩ ![0, 1024] B h1⟩,
       ⟨⟨2, ![2, 512]⟩, extractStridedSlice ⟨2, ![2, 512]⟩ ![0, 1536] B h2⟩]
      hc (ix2 d q) 0 (by simp) ⟨2, ![2, 512]⟩ _ rfl rfl 0 (by rfl)
      (ix2 d (⟨q.val, hq0⟩ : Fin 512)) (fun b hb => ?_) ?_).trans ?_
    · match b with
      | ⟨0, _⟩ => rfl
      | ⟨1, _⟩ => exact absurd rfl hb
    · show 0 + q.val = q.val
      omega
    · exact slice2_axis1_apply 0 B h0 d ⟨q.val, hq0⟩ r (by show r.val = 0 + q.val; omega)
  · rw [if_neg hq0] at hr
    by_cases hq1 : q.val < 1024
    · refine (concatenate_apply_piece (t := ⟨2, ![2, 1536]⟩) (1 : Fin 2)
      [⟨⟨2, ![2, 512]⟩, extractStridedSlice ⟨2, ![2, 512]⟩ ![0, 0] B h0⟩,
       ⟨⟨2, ![2, 512]⟩, extractStridedSlice ⟨2, ![2, 512]⟩ ![0, 1024] B h1⟩,
       ⟨⟨2, ![2, 512]⟩, extractStridedSlice ⟨2, ![2, 512]⟩ ![0, 1536] B h2⟩]
      hc (ix2 d q) 1 (by simp) ⟨2, ![2, 512]⟩ _ rfl rfl 512 (by rfl)
        (ix2 d (⟨q.val - 512, by omega⟩ : Fin 512)) (fun b hb => ?_) ?_).trans ?_
      · match b with
        | ⟨0, _⟩ => rfl
        | ⟨1, _⟩ => exact absurd rfl hb
      · show 512 + (q.val - 512) = q.val
        omega
      · exact slice2_axis1_apply 1024 B h1 d ⟨q.val - 512, by omega⟩ r (by show r.val = 1024 + (q.val - 512); omega)
    · refine (concatenate_apply_piece (t := ⟨2, ![2, 1536]⟩) (1 : Fin 2)
      [⟨⟨2, ![2, 512]⟩, extractStridedSlice ⟨2, ![2, 512]⟩ ![0, 0] B h0⟩,
       ⟨⟨2, ![2, 512]⟩, extractStridedSlice ⟨2, ![2, 512]⟩ ![0, 1024] B h1⟩,
       ⟨⟨2, ![2, 512]⟩, extractStridedSlice ⟨2, ![2, 512]⟩ ![0, 1536] B h2⟩]
      hc (ix2 d q) 2 (by simp) ⟨2, ![2, 512]⟩ _ rfl rfl 1024 (by rfl)
        (ix2 d (⟨q.val - 1024, by omega⟩ : Fin 512)) (fun b hb => ?_) ?_).trans ?_
      · match b with
        | ⟨0, _⟩ => rfl
        | ⟨1, _⟩ => exact absurd rfl hb
      · show 1024 + (q.val - 1024) = q.val
        omega
      · exact slice2_axis1_apply 1536 B h2 d ⟨q.val - 1024, by omega⟩ r (by show r.val = 1536 + (q.val - 1024); omega)

/-- The packed bias row: the kept entries of the two directions end to end, as one row. -/
def packB (B : (⟨2, ![2, 2048]⟩ : Shape).Idx → α)
    (h0 : (⟨2, ![2, 2048]⟩ : Shape).Slices ![0, 0] ⟨2, ![2, 512]⟩)
    (h1 : (⟨2, ![2, 2048]⟩ : Shape).Slices ![0, 1024] ⟨2, ![2, 512]⟩)
    (h2 : (⟨2, ![2, 2048]⟩ : Shape).Slices ![0, 1536] ⟨2, ![2, 512]⟩)
    (hc : Shape.Concatenates [⟨2, ![2, 512]⟩, ⟨2, ![2, 512]⟩, ⟨2, ![2, 512]⟩] ⟨2, ![2, 1536]⟩ 1)
    (hs0 : (⟨2, ![2, 1536]⟩ : Shape).Slices ![0, 0] ⟨2, ![1, 1536]⟩)
    (hs1 : (⟨2, ![2, 1536]⟩ : Shape).Slices ![1, 0] ⟨2, ![1, 1536]⟩)
    (hsc : (⟨2, ![1, 1536]⟩ : Shape).ShapeCasts ⟨1, ![1536]⟩)
    (hcc : Shape.Concatenates [⟨1, ![1536]⟩, ⟨1, ![1536]⟩] ⟨1, ![3072]⟩ 0)
    (hsr : (⟨1, ![3072]⟩ : Shape).ShapeCasts ⟨2, ![1, 3072]⟩) :
    (⟨2, ![1, 3072]⟩ : Shape).Idx → α :=
  shapeCast ⟨2, ![1, 3072]⟩
    (concatenate ⟨1, ![3072]⟩ 0
      [⟨⟨1, ![1536]⟩, shapeCast ⟨1, ![1536]⟩ (extractStridedSlice ⟨2, ![1, 1536]⟩ ![0, 0] (keepB B h0 h1 h2 hc) hs0) hsc⟩,
       ⟨⟨1, ![1536]⟩, shapeCast ⟨1, ![1536]⟩ (extractStridedSlice ⟨2, ![1, 1536]⟩ ![1, 0] (keepB B h0 h1 h2 hc) hs1) hsc⟩] hcc) hsr

/-- Packed column `j` is `B[d, ρ]` with `d = j / 1536` and, for `q = j % 1536`, `ρ = q` below 512 and `q + 512` from
    there on. -/
theorem packB_apply (B : (⟨2, ![2, 2048]⟩ : Shape).Idx → α)
    (h0 : (⟨2, ![2, 2048]⟩ : Shape).Slices ![0, 0] ⟨2, ![2, 512]⟩)
    (h1 : (⟨2, ![2, 2048]⟩ : Shape).Slices ![0, 1024] ⟨2, ![2, 512]⟩)
    (h2 : (⟨2, ![2, 2048]⟩ : Shape).Slices ![0, 1536] ⟨2, ![2, 512]⟩)
    (hc : Shape.Concatenates [⟨2, ![2, 512]⟩, ⟨2, ![2, 512]⟩, ⟨2, ![2, 512]⟩] ⟨2, ![2, 1536]⟩ 1)
    (hs0 : (⟨2, ![2, 1536]⟩ : Shape).Slices ![0, 0] ⟨2, ![1, 1536]⟩)
    (hs1 : (⟨2, ![2, 1536]⟩ : Shape).Slices ![1, 0] ⟨2, ![1, 1536]⟩)
    (hsc : (⟨2, ![1, 1536]⟩ : Shape).ShapeCasts ⟨1, ![1536]⟩)
    (hcc : Shape.Concatenates [⟨1, ![1536]⟩, ⟨1, ![1536]⟩] ⟨1, ![3072]⟩ 0)
    (hsr : (⟨1, ![3072]⟩ : Shape).ShapeCasts ⟨2, ![1, 3072]⟩)
    (u : Fin 1) (j : Fin 3072) (d : Fin 2) (r : Fin 2048) (hd : d.val = j.val / 1536)
    (hr : r.val = if j.val % 1536 < 512 then j.val % 1536 else j.val % 1536 + 512) :
    packB B h0 h1 h2 hc hs0 hs1 hsc hcc hsr (ix2 u j) = B (ix2 d r) := by
  have hj := j.isLt
  unfold packB
  refine (shapeCast_a_1a_apply _ hsr u j).trans ?_
  by_cases hlt : j.val < 1536
  · have hmod : j.val % 1536 = j.val := Nat.mod_eq_of_lt hlt
    have hd0 : d.val = 0 + (0 : Fin 1).val := by
      show d.val = 0 + 0
      rw [hd, Nat.div_eq_of_lt hlt]
    rw [hmod] at hr
    refine (concatenate_pair_apply_left (t := ⟨1, ![3072]⟩) (s₁ := ⟨1, ![1536]⟩) (s₂ := ⟨1, ![1536]⟩) (0 : Fin 1) _ _ hcc (ix1 j) rfl
      (ix1 (⟨j.val, hlt⟩ : Fin 1536)) (fun b => ?_)).trans ?_
    · match b with
      | ⟨0, _⟩ => rfl
    refine (shapeCast_1a_a_apply _ hsc ⟨j.val, hlt⟩).trans ?_
    refine (slice2_axis0_apply 0 _ hs0 (0 : Fin 1) ⟨j.val, hlt⟩ d hd0).trans ?_
    exact keepB_apply B h0 h1 h2 hc d ⟨j.val, hlt⟩ r hr
  · have hge : 1536 ≤ j.val := Nat.le_of_not_lt hlt
    have hmod : j.val % 1536 = j.val - 1536 := by omega
    have hd1 : d.val = 1 + (0 : Fin 1).val := by
      show d.val = 1 + 0
      rw [hd]; omega
    rw [hmod] at hr
    refine (concatenate_pair_apply_right (t := ⟨1, ![3072]⟩) (s₁ := ⟨1, ![1536]⟩) (s₂ := ⟨1, ![1536]⟩) (0 : Fin 1) _ _ hcc (ix1 j) rfl rfl
      (ix1 (⟨j.val - 1536, by omega⟩ : Fin 1536))
      (fun b hb => ?_) ?_).trans ?_
    · match b with
      | ⟨0, _⟩ => exact absurd rfl hb
    · show (j.val - 1536) + 1536 = j.val
      omega
    refine (shapeCast_1a_a_apply _ hsc ⟨j.val - 1536, by omega⟩).trans ?_
    refine (slice2_axis0_apply 1 _ hs1 (0 : Fin 1) ⟨j.val - 1536, by omega⟩ d hd1).trans ?_
    exact keepB_apply B h0 h1 h2 hc d ⟨j.val - 1536, by omega⟩ r hr

end LayoutBias

/-! ## The packed arrays as terms of the argument arrays -/

section Terms
variable {F : FTy → Type} [FloatOps F]

/-- Layer 0's packed weights. -/
def packedW0 (W : (⟨S2x2048x512, .f32⟩ : BufTy).Contents (Elt F)) : (⟨S512x3072, .bf16⟩ : BufTy).Contents (Elt F) :=
  truncf .bf16 (packW (α := F .f32) (K := 512) W slices_S2x2048x512_S2x512x512_0_0_0 slices_S2x2048x512_S2x512x512_0_1024_0
    slices_S2x2048x512_S2x512x512_0_1536_0 concatenates_S2x512x512_S2x512x512_S2x512x512_S2x1536x512_d1
    transposes_S2x1536x512_S2x512x1536_0_2_1 slices_S2x512x1536_S1x512x1536_0_0_0 slices_S2x512x1536_S1x512x1536_1_0_0
    shapeCasts_S1x512x1536_S512x1536 concatenates_S512x1536_S512x1536_S512x3072_d1) bitsLt_bf16_f32

/-- Layer 1's packed weights. -/
def packedW1 (W : (⟨S2x2048x1024, .f32⟩ : BufTy).Contents (Elt F)) : (⟨S1024x3072, .bf16⟩ : BufTy).Contents (Elt F) :=
  truncf .bf16 (packW (α := F .f32) (K := 1024) W slices_S2x2048x1024_S2x512x1024_0_0_0 slices_S2x2048x1024_S2x512x1024_0_1024_0
    slices_S2x2048x1024_S2x512x1024_0_1536_0 concatenates_S2x512x1024_S2x512x1024_S2x512x1024_S2x1536x1024_d1
    transposes_S2x1536x1024_S2x1024x1536_0_2_1 slices_S2x1024x1536_S1x1024x1536_0_0_0 slices_S2x1024x1536_S1x1024x1536_1_0_0
    shapeCasts_S1x1024x1536_S1024x1536 concatenates_S1024x1536_S1024x1536_S1024x3072_d1) bitsLt_bf16_f32

/-- A layer's packed bias row: the two bias vectors added, then packed. -/
def packedB (bi bh : (⟨S2x2048, .f32⟩ : BufTy).Contents (Elt F)) : (⟨S1x3072, .f32⟩ : BufTy).Contents (Elt F) :=
  packB (α := F .f32) (addf (F := F) (s := S2x2048) (φ := .f32) bi bh) slices_S2x2048_S2x512_0_0 slices_S2x2048_S2x512_0_1024
    slices_S2x2048_S2x512_0_1536 concatenates_S2x512_S2x512_S2x512_S2x1536_d1 slices_S2x1536_S1x1536_0_0 slices_S2x1536_S1x1536_1_0
    shapeCasts_S1x1536_S1536 concatenates_S1536_S1536_S3072_d0 shapeCasts_S3072_S1x3072

end Terms

/-! ## What the region finds in memory -/

variable (m : (ℓ : Loc nD τ sig) → Buf (Elt Ideal) ℓ) (c : Dev nD)

/-- The token window's array: the embedded tokens. -/
theorem V_tok : (V m c main_v7 : S32x256x512.Idx → EReal)
    = tokTerm (m ((c : Thread nD τ).loc main_arg0)) (m ((c : Thread nD τ).loc main_arg1)) := by
  show StableHlo.after hostOps0 (fun b => m (c, b)) (Proc.devRef .tc main_v7) = _
  host_results
  rfl

/-- Layer 0's weight window's array: the packed weights. -/
theorem V_w0_eq : (V m c main_v18 : S512x3072.Idx → EReal) = packedW0 (m ((c : Thread nD τ).loc main_arg2)) := by
  show StableHlo.after hostOps0 (fun b => m (c, b)) (Proc.devRef .tc main_v18) = _
  host_results
  rfl

/-- Layer 0's packed weights at row `k`, column `j`. -/
theorem V_w0_apply (k : Fin 512) (j : Fin 3072) : (V m c main_v18 : S512x3072.Idx → EReal) (ix2 k j)
    = m ((c : Thread nD τ).loc main_arg2) (ix3 (Cert.Spec.dirOf j) (Cert.Spec.rowOf j) k) := by
  rw [V_w0_eq]
  unfold packedW0
  refine (truncf_apply (s := S512x3072) (φ := .f32) (ψ := .bf16) _ bitsLt_bf16_f32 (ix2 k j)).trans ?_
  exact packW_apply (K := 512) _ _ _ _ _ _ _ _ _ _ k j (Cert.Spec.dirOf j) (Cert.Spec.rowOf j) rfl rfl

/-- Layer 0's bias window's array: the packed bias row. -/
theorem V_b0_eq : (V m c main_v29 : S1x3072.Idx → EReal)
    = packedB (m ((c : Thread nD τ).loc main_arg4)) (m ((c : Thread nD τ).loc main_arg5)) := by
  show StableHlo.after hostOps0 (fun b => m (c, b)) (Proc.devRef .tc main_v29) = _
  host_results
  rfl

/-- Layer 0's packed bias at column `j`. -/
theorem V_b0_apply (j : Fin 3072) : (V m c main_v29 : S1x3072.Idx → EReal) (ix2 0 j)
    = @HAdd.hAdd EReal EReal EReal instHAdd
        (m ((c : Thread nD τ).loc main_arg4) (ix2 (Cert.Spec.dirOf j) (Cert.Spec.rowOf j)))
        (m ((c : Thread nD τ).loc main_arg5) (ix2 (Cert.Spec.dirOf j) (Cert.Spec.rowOf j))) := by
  rw [V_b0_eq]
  unfold packedB
  exact packB_apply _ _ _ _ _ _ _ _ _ _ 0 j (Cert.Spec.dirOf j) (Cert.Spec.rowOf j) rfl rfl

/-- Layer 1's weight window's array: the packed weights. -/
theorem V_w1_eq : (V m c main_v40 : S1024x3072.Idx → EReal) = packedW1 (m ((c : Thread nD τ).loc main_arg6)) := by
  show StableHlo.after hostOps0 (fun b => m (c, b)) (Proc.devRef .tc main_v40) = _
  host_results
  rfl

/-- Layer 1's packed weights at row `k`, column `j`. -/
theorem V_w1_apply (k : Fin 1024) (j : Fin 3072) : (V m c main_v40 : S1024x3072.Idx → EReal) (ix2 k j)
    = m ((c : Thread nD τ).loc main_arg6) (ix3 (Cert.Spec.dirOf j) (Cert.Spec.rowOf j) k) := by
  rw [V_w1_eq]
  unfold packedW1
  refine (truncf_apply (s := S1024x3072) (φ := .f32) (ψ := .bf16) _ bitsLt_bf16_f32 (ix2 k j)).trans ?_
  exact packW_apply (K := 1024) _ _ _ _ _ _ _ _ _ _ k j (Cert.Spec.dirOf j) (Cert.Spec.rowOf j) rfl rfl

/-- Layer 1's bias window's array: the packed bias row. -/
theorem V_b1_eq : (V m c main_v51 : S1x3072.Idx → EReal)
    = packedB (m ((c : Thread nD τ).loc main_arg8)) (m ((c : Thread nD τ).loc main_arg9)) := by
  show StableHlo.after hostOps0 (fun b => m (c, b)) (Proc.devRef .tc main_v51) = _
  host_results
  rfl

/-- Layer 1's packed bias at column `j`. -/
theorem V_b1_apply (j : Fin 3072) : (V m c main_v51 : S1x3072.Idx → EReal) (ix2 0 j)
    = @HAdd.hAdd EReal EReal EReal instHAdd
        (m ((c : Thread nD τ).loc main_arg8) (ix2 (Cert.Spec.dirOf j) (Cert.Spec.rowOf j)))
        (m ((c : Thread nD τ).loc main_arg9) (ix2 (Cert.Spec.dirOf j) (Cert.Spec.rowOf j))) := by
  rw [V_b1_eq]
  unfold packedB
  exact packB_apply _ _ _ _ _ _ _ _ _ _ 0 j (Cert.Spec.dirOf j) (Cert.Spec.rowOf j) rfl rfl

end Cert.KernelIdeal.Host

end
-- ==== Proof.KHolds.lean ====
/-
  What the five input blocks hold at grid point `t`, in terms of the argument arrays.

  The token window's block index at point `t` is `(t, 0, 0)`: its block is batch row `t` of the embedded tokens.  The four
  other input windows have the constant block index `(0, 0)` and a block as large as their array: the whole packed weight
  matrix or bias row, at every point.  What those arrays hold when the region is entered is known from the host operations
  before it: the gathered embeddings, and gate row `rowOf j` of direction `dirOf j` in packed column `j`.
-/
import proofs.«122567_j76991583748156_2_alg».proof.Proof.FrameDefsIdeal
import proofs.«122567_j76991583748156_2_alg».proof.Proof.KHost
import proofs.«122567_j76991583748156_2_alg».proof.Proof.KArr

set_option maxRecDepth 16384

noncomputable section

namespace Cert.KernelIdeal.Blocks

open Cert.KernelIdeal Cert.KernelIdeal.Gen Cert.KernelIdeal.Frm Cert.KernelIdeal.Pay Cert.KernelIdeal.Arr Cert.KernelIdeal.Host
open Idealize.ShloMosaic Idealize.ShloMosaic.TcCoe Idealize.ShloMosaic.ValueIdx Cert.Spec Idealize.SL.Sem

/-- The input windows' block indices, decided over the grid. -/
theorem idx_in : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (m : (ℓ : Loc nD τ sig) → Buf (Elt Ideal) ℓ) (c : Dev nD)

set_option maxHeartbeats 3200000 in
/-- The blocks the body is handed at point `t` are batch row `t` of the embedded tokens and the packed weights and biases. -/
theorem holds (t : Fin cfg0.N) :
    Holds (tokTerm (m ((c : Thread nD τ).loc main_arg0)) (m ((c : Thread nD τ).loc main_arg1)))
      (m ((c : Thread nD τ).loc main_arg2)) (m ((c : Thread nD τ).loc main_arg4)) (m ((c : Thread nD τ).loc main_arg5))
      (m ((c : Thread nD τ).loc main_arg6)) (m ((c : Thread nD τ).loc main_arg8)) (m ((c : Thread nD τ).loc main_arg9))
      (bOf t) (iblk m c 0 t) (iblk m c 1 t) (iblk m c 2 t) (iblk m c 3 t) (iblk m c 4 t) := by
  obtain ⟨a0, a1, a2, b0, b1, c0, c1, d0, d1, e0, e1⟩ := idx_in t
  refine ⟨?_, ?_, ?_, ?_, ?_⟩
  · intro r k
    show (V m c main_v7 : S32x256x512.Idx → EReal) (((cfg0.win 0).blk t).view.emb (ix3 (0 : Fin 1) r k)) = _
    refine (congrArg (V m c main_v7 : S32x256x512.Idx → EReal) ?_).trans (congrFun (V_tok m c) (ix3 (bOf t) r k))
    funext a; apply Fin.ext
    match a with
    | ⟨0, _⟩ => show win0_0.index t (0 : Fin 3) * 1 + 1 * 0 = t.val; omega
    | ⟨1, _⟩ => show win0_0.index t (1 : Fin 3) * 256 + 1 * r.val = r.val; omega
    | ⟨2, _⟩ => show win0_0.index t (2 : Fin 3) * 512 + 1 * k.val = k.val; omega
  · intro k j
    show (V m c main_v18 : S512x3072.Idx → EReal) (((cfg0.win 1).blk t).view.emb (ix2 k j)) = _
    refine (congrArg (V m c main_v18 : S512x3072.Idx → EReal) ?_).trans (V_w0_apply m c k j)
    funext a; apply Fin.ext
    match a with
    | ⟨0, _⟩ => show win0_1.index t (0 : Fin 2) * 512 + 1 * k.val = k.val; omega
    | ⟨1, _⟩ => show win0_1.index t (1 : Fin 2) * 3072 + 1 * j.val = j.val; omega
  · intro j
    show (V m c main_v29 : S1x3072.Idx → EReal) (((cfg0.win 2).blk t).view.emb (ix2 (0 : Fin 1) j)) = _
    refine (congrArg (V m c main_v29 : S1x3072.Idx → EReal) ?_).trans (V_b0_apply m c j)
    funext a; apply Fin.ext
    match a with
    | ⟨0, _⟩ => show win0_2.index t (0 : Fin 2) * 1 + 1 * 0 = 0; omega
    | ⟨1, _⟩ => show win0_2.index t (1 : Fin 2) * 3072 + 1 * j.val = j.val; omega
  · intro k j
    show (V m c main_v40 : S1024x3072.Idx → EReal) (((cfg0.win 3).blk t).view.emb (ix2 k j)) = _
    refine (congrArg (V m c main_v40 : S1024x3072.Idx → EReal) ?_).trans (V_w1_apply m c k j)
    funext a; apply Fin.ext
    match a with
    | ⟨0, _⟩ => show win0_3.index t (0 : Fin 2) * 1024 + 1 * k.val = k.val; omega
    | ⟨1, _⟩ => show win0_3.index t (1 : Fin 2) * 3072 + 1 * j.val = j.val; omega
  · intro j
    show (V m c main_v51 : S1x3072.Idx → EReal) (((cfg0.win 4).blk t).view.emb (ix2 (0 : Fin 1) j)) = _
    refine (congrArg (V m c main_v51 : S1x3072.Idx → EReal) ?_).trans (V_b1_apply m c j)
    funext a; apply Fin.ext
    match a with
    | ⟨0, _⟩ => show win0_4.index t (0 : Fin 2) * 1 + 1 * 0 = 0; omega
    | ⟨1, _⟩ => show win0_4.index t (1 : Fin 2) * 3072 + 1 * j.val = j.val; omega

end Cert.KernelIdeal.Blocks

end
-- ==== Proof.RefRead.lean ====
/-
  The reference's run and its read-at-an-index lemmas, brought in for the modules that compare the reference with the kernel.
-/
import proofs.«122567_j76991583748156_2_alg».proof.Proof.Gen.ReferenceIdeal.Read
-- ==== Proof.RefSide.lean ====
/-
  The reference program read index by index: each of its three results is the specification's array of the embedded
  tokens.

  The program is two layers of two independent directions. In each, a gate pre-activation is a contraction of the
  position's input vector with one row of the direction's weight matrix plus two biases; the cell value is
  sigmoid(input gate) · tanh(candidate) and the hidden value sigmoid(output gate) · tanh(cell), the sigmoid spelt
  1 / (1 + exp(-x)). Layer 1's input is layer 0's two hidden vectors side by side. The results stack, per layer, the sum of
  the two directions' hidden values, and the forward direction's hidden and cell values at the last time step.

  The embedded tokens stay one opaque array throughout: nothing here depends on which rows the tokens select.
  The only algebra used is associativity of + on the extended reals, to regroup (s + b) + b' as s + (b + b').
-/
import proofs.«122567_j76991583748156_2_alg».proof.Proof.RefRead
import proofs.«122567_j76991583748156_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefSide

open Cert.ReferenceIdeal Cert.ReferenceIdeal.Read Idealize.ShloMosaic Idealize.ShloMosaic.ValueIdx

variable (x0 : (⟨S32x256, .i32⟩ : BufTy).Contents (Elt Ideal)) (x1 : (⟨S50000x512, .f32⟩ : BufTy).Contents (Elt Ideal))
  (x2 : (⟨S2x2048x512, .f32⟩ : BufTy).Contents (Elt Ideal)) (x4 x5 : (⟨S2x2048, .f32⟩ : BufTy).Contents (Elt Ideal))
  (x6 : (⟨S2x2048x1024, .f32⟩ : BufTy).Contents (Elt Ideal)) (x8 x9 : (⟨S2x2048, .f32⟩ : BufTy).Contents (Elt Ideal))

/-! ### Layer 0, forward direction -/

/-- The gate pre-activation of row `ρ` at position `(b, t)`: the contraction over the input features plus the two biases. -/
theorem pre_l0d0 (b : Fin 32) (t : Fin 256) (ρ : Fin 2048) :
    val_main_v19 (F := Ideal) x0 x1 x2 x4 x5 (ix3 b t ρ) = Cert.Spec.pre0 (val_main_v6 (F := Ideal) x0 x1) x2 x4 x5 0 ρ b t := by
  have hE : ∀ k : Fin 512, lidx_main_v13 (ix3 b t ρ) k = ix3 b t k := fun k =>
    funext fun a => by match a with | ⟨0, _⟩ => rfl | ⟨1, _⟩ => rfl | ⟨2, _⟩ => rfl
  have hW : ∀ k : Fin 512, idx_main_v7 (idx_main_v8 (ridx_main_v13 (ix3 b t ρ) k)) = ix3 (0 : Fin 2) ρ k :=
    fun k => funext fun a => Fin.ext (by
      have hρ := ρ.isLt; have hk := k.isLt
      match a with
      | ⟨0, _⟩ => rfl
      | ⟨1, _⟩ => show (ρ.val * 512 + k.val) / 512 % 2048 = ρ.val; omega
      | ⟨2, _⟩ => show (ρ.val * 512 + k.val) % 512 = k.val; omega)
  have hbi : idx_main_v9 (idx_main_v10 (idx_main_v14 (idx_main_v15 (ix3 b t ρ)))) = ix2 (0 : Fin 2) ρ :=
    funext fun a => Fin.ext (by
      have hρ := ρ.isLt
      match a with
      | ⟨0, _⟩ => rfl
      | ⟨1, _⟩ => show ρ.val % 2048 = ρ.val; omega)
  have hbh : idx_main_v11 (idx_main_v12 (idx_main_v17 (idx_main_v18 (ix3 b t ρ)))) = ix2 (0 : Fin 2) ρ :=
    funext fun a => Fin.ext (by
      have hρ := ρ.isLt
      match a with
      | ⟨0, _⟩ => rfl
      | ⟨1, _⟩ => show ρ.val % 2048 = ρ.val; omega)
  rw [val_main_v19_apply, val_main_v16_apply, val_main_v13_apply, val_main_v15_apply, val_main_v14_apply, val_main_v10_apply,
    val_main_v9_apply, val_main_v18_apply, val_main_v17_apply, val_main_v12_apply, val_main_v11_apply, hbi, hbh]
  simp only [val_main_v8_apply, val_main_v7_apply, hE, hW]
  generalize val_main_v6 (F := Ideal) x0 x1 = E
  simp only [Ideal.addf_def]
  rw [add_assoc]
  rfl

/-- The cell value of hidden unit `n`: sigmoid of the input gate times tanh of the candidate. -/
theorem cell_l0d0 (b : Fin 32) (t : Fin 256) (n : Fin 512) :
    val_main_v31 (F := Ideal) x0 x1 x2 x4 x5 (ix3 b t n) = Cert.Spec.cell0 (val_main_v6 (F := Ideal) x0 x1) x2 x4 x5 0 b t n := by
  have hI : idx_main_v20 (ix3 b t n) = ix3 b t (Cert.Spec.rowI n) :=
    funext fun a => by match a with | ⟨0, _⟩ => rfl | ⟨1, _⟩ => rfl | ⟨2, _⟩ => rfl
  have hG : idx_main_v22 (ix3 b t n) = ix3 b t (Cert.Spec.rowG n) :=
    funext fun a => by match a with | ⟨0, _⟩ => rfl | ⟨1, _⟩ => rfl | ⟨2, _⟩ => rfl
  rw [val_main_v31_apply, val_main_v29_apply, val_main_v28_apply, val_main_cst_1_apply, val_main_v27_apply, val_main_v26_apply,
    val_main_cst_apply, val_main_v25_apply, val_main_v24_apply, val_main_v20_apply, hI, val_main_v30_apply, val_main_v22_apply, hG,
    pre_l0d0, pre_l0d0]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-- The hidden value of unit `n`: sigmoid of the output gate times tanh of the cell value. -/
theorem hid_l0d0 (b : Fin 32) (t : Fin 256) (n : Fin 512) :
    val_main_v39 (F := Ideal) x0 x1 x2 x4 x5 (ix3 b t n) = Cert.Spec.hid0 (val_main_v6 (F := Ideal) x0 x1) x2 x4 x5 0 b t n := by
  have hO : idx_main_v23 (ix3 b t n) = ix3 b t (Cert.Spec.rowO n) :=
    funext fun a => by match a with | ⟨0, _⟩ => rfl | ⟨1, _⟩ => rfl | ⟨2, _⟩ => rfl
  rw [val_main_v39_apply, val_main_v37_apply, val_main_v36_apply, val_main_cst_3_apply, val_main_v35_apply, val_main_v34_apply,
    val_main_cst_2_apply, val_main_v33_apply, val_main_v32_apply, val_main_v23_apply, hO, val_main_v38_apply, cell_l0d0, pre_l0d0]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-! ### Layer 0, backward direction -/

/-- The gate pre-activation of row `ρ` at position `(b, t)`: the contraction over the input features plus the two biases. -/
theorem pre_l0d1 (b : Fin 32) (t : Fin 256) (ρ : Fin 2048) :
    val_main_v52 (F := Ideal) x0 x1 x2 x4 x5 (ix3 b t ρ) = Cert.Spec.pre0 (val_main_v6 (F := Ideal) x0 x1) x2 x4 x5 1 ρ b t := by
  have hE : ∀ k : Fin 512, lidx_main_v46 (ix3 b t ρ) k = ix3 b t k := fun k =>
    funext fun a => by match a with | ⟨0, _⟩ => rfl | ⟨1, _⟩ => rfl | ⟨2, _⟩ => rfl
  have hW : ∀ k : Fin 512, idx_main_v40 (idx_main_v41 (ridx_main_v46 (ix3 b t ρ) k)) = ix3 (1 : Fin 2) ρ k :=
    fun k => funext fun a => Fin.ext (by
      have hρ := ρ.isLt; have hk := k.isLt
      match a with
      | ⟨0, _⟩ => rfl
      | ⟨1, _⟩ => show (ρ.val * 512 + k.val) / 512 % 2048 = ρ.val; omega
      | ⟨2, _⟩ => show (ρ.val * 512 + k.val) % 512 = k.val; omega)
  have hbi : idx_main_v42 (idx_main_v43 (idx_main_v47 (idx_main_v48 (ix3 b t ρ)))) = ix2 (1 : Fin 2) ρ :=
    funext fun a => Fin.ext (by
      have hρ := ρ.isLt
      match a with
      | ⟨0, _⟩ => rfl
      | ⟨1, _⟩ => show ρ.val % 2048 = ρ.val; omega)
  have hbh : idx_main_v44 (idx_main_v45 (idx_main_v50 (idx_main_v51 (ix3 b t ρ)))) = ix2 (1 : Fin 2) ρ :=
    funext fun a => Fin.ext (by
      have hρ := ρ.isLt
      match a with
      | ⟨0, _⟩ => rfl
      | ⟨1, _⟩ => show ρ.val % 2048 = ρ.val; omega)
  rw [val_main_v52_apply, val_main_v49_apply, val_main_v46_apply, val_main_v48_apply, val_main_v47_apply, val_main_v43_apply,
    val_main_v42_apply, val_main_v51_apply, val_main_v50_apply, val_main_v45_apply, val_main_v44_apply, hbi, hbh]
  simp only [val_main_v41_apply, val_main_v40_apply, hE, hW]
  generalize val_main_v6 (F := Ideal) x0 x1 = E
  simp only [Ideal.addf_def]
  rw [add_assoc]
  rfl

/-- The cell value of hidden unit `n`: sigmoid of the input gate times tanh of the candidate. -/
theorem cell_l0d1 (b : Fin 32) (t : Fin 256) (n : Fin 512) :
    val_main_v64 (F := Ideal) x0 x1 x2 x4 x5 (ix3 b t n) = Cert.Spec.cell0 (val_main_v6 (F := Ideal) x0 x1) x2 x4 x5 1 b t n := by
  have hI : idx_main_v53 (ix3 b t n) = ix3 b t (Cert.Spec.rowI n) :=
    funext fun a => by match a with | ⟨0, _⟩ => rfl | ⟨1, _⟩ => rfl | ⟨2, _⟩ => rfl
  have hG : idx_main_v55 (ix3 b t n) = ix3 b t (Cert.Spec.rowG n) :=
    funext fun a => by match a with | ⟨0, _⟩ => rfl | ⟨1, _⟩ => rfl | ⟨2, _⟩ => rfl
  rw [val_main_v64_apply, val_main_v62_apply, val_main_v61_apply, val_main_cst_5_apply, val_main_v60_apply, val_main_v59_apply,
    val_main_cst_4_apply, val_main_v58_apply, val_main_v57_apply, val_main_v53_apply, hI, val_main_v63_apply, val_main_v55_apply, hG,
    pre_l0d1, pre_l0d1]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-- The hidden value of unit `n`: sigmoid of the output gate times tanh of the cell value. -/
theorem hid_l0d1 (b : Fin 32) (t : Fin 256) (n : Fin 512) :
    val_main_v72 (F := Ideal) x0 x1 x2 x4 x5 (ix3 b t n) = Cert.Spec.hid0 (val_main_v6 (F := Ideal) x0 x1) x2 x4 x5 1 b t n := by
  have hO : idx_main_v56 (ix3 b t n) = ix3 b t (Cert.Spec.rowO n) :=
    funext fun a => by match a with | ⟨0, _⟩ => rfl | ⟨1, _⟩ => rfl | ⟨2, _⟩ => rfl
  rw [val_main_v72_apply, val_main_v70_apply, val_main_v69_apply, val_main_cst_7_apply, val_main_v68_apply, val_main_v67_apply,
    val_main_cst_6_apply, val_main_v66_apply, val_main_v65_apply, val_main_v56_apply, hO, val_main_v71_apply, cell_l0d1, pre_l0d1]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-! ### Layer 1's input -/

/-- Layer 1's input at a position is layer 0's forward hidden vector followed by its backward hidden vector. -/
theorem cat_l1 (b : Fin 32) (t : Fin 256) (k : Fin 1024) :
    val_main_v73 (F := Ideal) x0 x1 x2 x4 x5 (ix3 b t k) = Cert.Spec.hcat (val_main_v6 (F := Ideal) x0 x1) x2 x4 x5 b t k := by
  have h0 := hid_l0d0 x0 x1 x2 x4 x5 b t
  have h1 := hid_l0d1 x0 x1 x2 x4 x5 b t
  unfold val_main_v73
  generalize val_main_v39 (F := Ideal) x0 x1 x2 x4 x5 = y0 at h0 ⊢
  generalize val_main_v72 (F := Ideal) x0 x1 x2 x4 x5 = y1 at h1 ⊢
  generalize val_main_v6 (F := Ideal) x0 x1 = E at h0 h1 ⊢
  by_cases h : k.val < 512
  · rw [Cert.Spec.hcat, dif_pos h, ← h0]
    exact concatenate_pair_apply_left _ y0 y1 _ (ix3 b t k) rfl (ix3 b t (⟨k.val, h⟩ : Fin 512)) (fun c => by
      match c with
      | ⟨0, _⟩ => rfl
      | ⟨1, _⟩ => rfl
      | ⟨2, _⟩ => rfl)
  · rw [Cert.Spec.hcat, dif_neg h, ← h1]
    exact concatenate_pair_apply_right _ y0 y1 _ (ix3 b t k) rfl rfl
      (ix3 b t (⟨k.val - 512, by have := k.isLt; omega⟩ : Fin 512))
      (fun c hc => by
        match c with
        | ⟨0, _⟩ => rfl
        | ⟨1, _⟩ => rfl
        | ⟨2, _⟩ => exact absurd rfl hc)
      (by show k.val - 512 + 512 = k.val; omega)

/-! ### Layer 1, forward direction -/

/-- The gate pre-activation of row `ρ` at position `(b, t)`: the contraction over the input features plus the two biases. -/
theorem pre_l1d0 (b : Fin 32) (t : Fin 256) (ρ : Fin 2048) :
    val_main_v86 (F := Ideal) x0 x1 x2 x4 x5 x6 x8 x9 (ix3 b t ρ) = Cert.Spec.pre1 (val_main_v6 (F := Ideal) x0 x1) x2 x4 x5 x6 x8 x9 0 ρ b t := by
  have hE : ∀ k : Fin 1024, lidx_main_v80 (ix3 b t ρ) k = ix3 b t k := fun k =>
    funext fun a => by match a with | ⟨0, _⟩ => rfl | ⟨1, _⟩ => rfl | ⟨2, _⟩ => rfl
  have hW : ∀ k : Fin 1024, idx_main_v74 (idx_main_v75 (ridx_main_v80 (ix3 b t ρ) k)) = ix3 (0 : Fin 2) ρ k :=
    fun k => funext fun a => Fin.ext (by
      have hρ := ρ.isLt; have hk := k.isLt
      match a with
      | ⟨0, _⟩ => rfl
      | ⟨1, _⟩ => show (ρ.val * 1024 + k.val) / 1024 % 2048 = ρ.val; omega
      | ⟨2, _⟩ => show (ρ.val * 1024 + k.val) % 1024 = k.val; omega)
  have hbi : idx_main_v76 (idx_main_v77 (idx_main_v81 (idx_main_v82 (ix3 b t ρ)))) = ix2 (0 : Fin 2) ρ :=
    funext fun a => Fin.ext (by
      have hρ := ρ.isLt
      match a with
      | ⟨0, _⟩ => rfl
      | ⟨1, _⟩ => show ρ.val % 2048 = ρ.val; omega)
  have hbh : idx_main_v78 (idx_main_v79 (idx_main_v84 (idx_main_v85 (ix3 b t ρ)))) = ix2 (0 : Fin 2) ρ :=
    funext fun a => Fin.ext (by
      have hρ := ρ.isLt
      match a with
      | ⟨0, _⟩ => rfl
      | ⟨1, _⟩ => show ρ.val % 2048 = ρ.val; omega)
  rw [val_main_v86_apply, val_main_v83_apply, val_main_v80_apply, val_main_v82_apply, val_main_v81_apply, val_main_v77_apply,
    val_main_v76_apply, val_main_v85_apply, val_main_v84_apply, val_main_v79_apply, val_main_v78_apply, hbi, hbh]
  simp only [val_main_v75_apply, val_main_v74_apply, hE, hW, cat_l1]
  generalize val_main_v6 (F := Ideal) x0 x1 = E
  simp only [Ideal.addf_def]
  rw [add_assoc]
  rfl

/-- The cell value of hidden unit `n`: sigmoid of the input gate times tanh of the candidate. -/
theorem cell_l1d0 (b : Fin 32) (t : Fin 256) (n : Fin 512) :
    val_main_v98 (F := Ideal) x0 x1 x2 x4 x5 x6 x8 x9 (ix3 b t n) = Cert.Spec.cell1 (val_main_v6 (F := Ideal) x0 x1) x2 x4 x5 x6 x8 x9 0 b t n := by
  have hI : idx_main_v87 (ix3 b t n) = ix3 b t (Cert.Spec.rowI n) :=
    funext fun a => by match a with | ⟨0, _⟩ => rfl | ⟨1, _⟩ => rfl | ⟨2, _⟩ => rfl
  have hG : idx_main_v89 (ix3 b t n) = ix3 b t (Cert.Spec.rowG n) :=
    funext fun a => by match a with | ⟨0, _⟩ => rfl | ⟨1, _⟩ => rfl | ⟨2, _⟩ => rfl
  rw [val_main_v98_apply, val_main_v96_apply, val_main_v95_apply, val_main_cst_9_apply, val_main_v94_apply, val_main_v93_apply,
    val_main_cst_8_apply, val_main_v92_apply, val_main_v91_apply, val_main_v87_apply, hI, val_main_v97_apply, val_main_v89_apply, hG,
    pre_l1d0, pre_l1d0]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-- The hidden value of unit `n`: sigmoid of the output gate times tanh of the cell value. -/
theorem hid_l1d0 (b : Fin 32) (t : Fin 256) (n : Fin 512) :
    val_main_v106 (F := Ideal) x0 x1 x2 x4 x5 x6 x8 x9 (ix3 b t n) = Cert.Spec.hid1 (val_main_v6 (F := Ideal) x0 x1) x2 x4 x5 x6 x8 x9 0 b t n := by
  have hO : idx_main_v90 (ix3 b t n) = ix3 b t (Cert.Spec.rowO n) :=
    funext fun a => by match a with | ⟨0, _⟩ => rfl | ⟨1, _⟩ => rfl | ⟨2, _⟩ => rfl
  rw [val_main_v106_apply, val_main_v104_apply, val_main_v103_apply, val_main_cst_11_apply, val_main_v102_apply, val_main_v101_apply,
    val_main_cst_10_apply, val_main_v100_apply, val_main_v99_apply, val_main_v90_apply, hO, val_main_v105_apply, cell_l1d0, pre_l1d0]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-! ### Layer 1, backward direction -/

/-- The gate pre-activation of row `ρ` at position `(b, t)`: the contraction over the input features plus the two biases. -/
theorem pre_l1d1 (b : Fin 32) (t : Fin 256) (ρ : Fin 2048) :
    val_main_v119 (F := Ideal) x0 x1 x2 x4 x5 x6 x8 x9 (ix3 b t ρ) = Cert.Spec.pre1 (val_main_v6 (F := Ideal) x0 x1) x2 x4 x5 x6 x8 x9 1 ρ b t := by
  have hE : ∀ k : Fin 1024, lidx_main_v113 (ix3 b t ρ) k = ix3 b t k := fun k =>
    funext fun a => by match a with | ⟨0, _⟩ => rfl | ⟨1, _⟩ => rfl | ⟨2, _⟩ => rfl
  have hW : ∀ k : Fin 1024, idx_main_v107 (idx_main_v108 (ridx_main_v113 (ix3 b t ρ) k)) = ix3 (1 : Fin 2) ρ k :=
    fun k => funext fun a => Fin.ext (by
      have hρ := ρ.isLt; have hk := k.isLt
      match a with
      | ⟨0, _⟩ => rfl
      | ⟨1, _⟩ => show (ρ.val * 1024 + k.val) / 1024 % 2048 = ρ.val; omega
      | ⟨2, _⟩ => show (ρ.val * 1024 + k.val) % 1024 = k.val; omega)
  have hbi : idx_main_v109 (idx_main_v110 (idx_main_v114 (idx_main_v115 (ix3 b t ρ)))) = ix2 (1 : Fin 2) ρ :=
    funext fun a => Fin.ext (by
      have hρ := ρ.isLt
      match a with
      | ⟨0, _⟩ => rfl
      | ⟨1, _⟩ => show ρ.val % 2048 = ρ.val; omega)
  have hbh : idx_main_v111 (idx_main_v112 (idx_main_v117 (idx_main_v118 (ix3 b t ρ)))) = ix2 (1 : Fin 2) ρ :=
    funext fun a => Fin.ext (by
      have hρ := ρ.isLt
      match a with
      | ⟨0, _⟩ => rfl
      | ⟨1, _⟩ => show ρ.val % 2048 = ρ.val; omega)
  rw [val_main_v119_apply, val_main_v116_apply, val_main_v113_apply, val_main_v115_apply, val_main_v114_apply, val_main_v110_apply,
    val_main_v109_apply, val_main_v118_apply, val_main_v117_apply, val_main_v112_apply, val_main_v111_apply, hbi, hbh]
  simp only [val_main_v108_apply, val_main_v107_apply, hE, hW, cat_l1]
  generalize val_main_v6 (F := Ideal) x0 x1 = E
  simp only [Ideal.addf_def]
  rw [add_assoc]
  rfl

/-- The cell value of hidden unit `n`: sigmoid of the input gate times tanh of the candidate. -/
theorem cell_l1d1 (b : Fin 32) (t : Fin 256) (n : Fin 512) :
    val_main_v131 (F := Ideal) x0 x1 x2 x4 x5 x6 x8 x9 (ix3 b t n) = Cert.Spec.cell1 (val_main_v6 (F := Ideal) x0 x1) x2 x4 x5 x6 x8 x9 1 b t n := by
  have hI : idx_main_v120 (ix3 b t n) = ix3 b t (Cert.Spec.rowI n) :=
    funext fun a => by match a with | ⟨0, _⟩ => rfl | ⟨1, _⟩ => rfl | ⟨2, _⟩ => rfl
  have hG : idx_main_v122 (ix3 b t n) = ix3 b t (Cert.Spec.rowG n) :=
    funext fun a => by match a with | ⟨0, _⟩ => rfl | ⟨1, _⟩ => rfl | ⟨2, _⟩ => rfl
  rw [val_main_v131_apply, val_main_v129_apply, val_main_v128_apply, val_main_cst_13_apply, val_main_v127_apply, val_main_v126_apply,
    val_main_cst_12_apply, val_main_v125_apply, val_main_v124_apply, val_main_v120_apply, hI, val_main_v130_apply, val_main_v122_apply, hG,
    pre_l1d1, pre_l1d1]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-- The hidden value of unit `n`: sigmoid of the output gate times tanh of the cell value. -/
theorem hid_l1d1 (b : Fin 32) (t : Fin 256) (n : Fin 512) :
    val_main_v139 (F := Ideal) x0 x1 x2 x4 x5 x6 x8 x9 (ix3 b t n) = Cert.Spec.hid1 (val_main_v6 (F := Ideal) x0 x1) x2 x4 x5 x6 x8 x9 1 b t n := by
  have hO : idx_main_v123 (ix3 b t n) = ix3 b t (Cert.Spec.rowO n) :=
    funext fun a => by match a with | ⟨0, _⟩ => rfl | ⟨1, _⟩ => rfl | ⟨2, _⟩ => rfl
  rw [val_main_v139_apply, val_main_v137_apply, val_main_v136_apply, val_main_cst_15_apply, val_main_v135_apply, val_main_v134_apply,
    val_main_cst_14_apply, val_main_v133_apply, val_main_v132_apply, val_main_v123_apply, hO, val_main_v138_apply, cell_l1d1, pre_l1d1]
  generalize val_main_v6 (F := Ideal) x0 x1 = E
  simp only [Ideal.mulf_def, Ideal.hostDivf_def, Ideal.ofBits_def, Ideal.addf_def, Ideal.hostUnary_exp_def,
    Ideal.hostNegf_def, Ideal.negf_def, Ideal.hostUnary_tanh_def, Cert.Spec.ofBits_one, Cert.Spec.logistic_spelt]
  rfl

/-! ### The three results -/

/-- Per position and layer: the two directions' hidden values added. -/
theorem enc_at (b : Fin 32) (t : Fin 256) (l : Fin 2) (n : Fin 512) :
    val_main_v144 (F := Ideal) x0 x1 x2 x4 x5 x6 x8 x9 (ix4 b t l n) = Cert.Spec.enc (val_main_v6 (F := Ideal) x0 x1) x2 x4 x5 x6 x8 x9 b t l n := by
  have h0 : ∀ u : Fin 1, val_main_v142 (F := Ideal) x0 x1 x2 x4 x5 (ix4 b t u n)
      = Cert.Spec.hid0 (val_main_v6 (F := Ideal) x0 x1) x2 x4 x5 0 b t n + Cert.Spec.hid0 (val_main_v6 (F := Ideal) x0 x1) x2 x4 x5 1 b t n := fun u => by
    have hi : idx_main_v142 (ix4 b t u n) = ix3 b t n :=
      funext fun a => by match a with | ⟨0, _⟩ => rfl | ⟨1, _⟩ => rfl | ⟨2, _⟩ => rfl
    rw [val_main_v142_apply, hi, val_main_v140_apply, hid_l0d0, hid_l0d1, Ideal.addf_def]
  have h1 : ∀ u : Fin 1, val_main_v143 (F := Ideal) x0 x1 x2 x4 x5 x6 x8 x9 (ix4 b t u n)
      = Cert.Spec.hid1 (val_main_v6 (F := Ideal) x0 x1) x2 x4 x5 x6 x8 x9 0 b t n + Cert.Spec.hid1 (val_main_v6 (F := Ideal) x0 x1) x2 x4 x5 x6 x8 x9 1 b t n := fun u => by
    have hi : idx_main_v143 (ix4 b t u n) = ix3 b t n :=
      funext fun a => by match a with | ⟨0, _⟩ => rfl | ⟨1, _⟩ => rfl | ⟨2, _⟩ => rfl
    rw [val_main_v143_apply, hi, val_main_v141_apply, hid_l1d0, hid_l1d1, Ideal.addf_def]
  unfold val_main_v144
  generalize val_main_v142 (F := Ideal) x0 x1 x2 x4 x5 = y0 at h0 ⊢
  generalize val_main_v143 (F := Ideal) x0 x1 x2 x4 x5 x6 x8 x9 = y1 at h1 ⊢
  generalize val_main_v6 (F := Ideal) x0 x1 = E at h0 h1 ⊢
  by_cases hl : l.val = 0
  · rw [Cert.Spec.enc, if_pos hl, ← h0 0]
    obtain rfl : l = 0 := Fin.ext hl
    exact concatenate_pair_apply_left (t := S32x256x2x512) 2 y0 y1 _ (ix4 b t (0 : Fin 2) n) rfl
      (ix4 b t (0 : Fin 1) n) (fun c => by
        match c with
        | ⟨0, _⟩ => rfl
        | ⟨1, _⟩ => rfl
        | ⟨2, _⟩ => rfl
        | ⟨3, _⟩ => rfl)
  · rw [Cert.Spec.enc, if_neg hl, ← h1 0]
    obtain rfl : l = 1 := Fin.ext (by have := l.isLt; show l.val = 1; omega)
    exact concatenate_pair_apply_right (t := S32x256x2x512) 2 y0 y1 _ (ix4 b t (1 : Fin 2) n) rfl rfl
      (ix4 b t (0 : Fin 1) n)
      (fun c hc => by
        match c with
        | ⟨0, _⟩ => rfl
        | ⟨1, _⟩ => rfl
        | ⟨2, _⟩ => exact absurd rfl hc
        | ⟨3, _⟩ => rfl)
      rfl

theorem ref_enc : val_main_v144 (F := Ideal) x0 x1 x2 x4 x5 x6 x8 x9 = Cert.Spec.encArr (val_main_v6 (F := Ideal) x0 x1) x2 x4 x5 x6 x8 x9 := by
  funext i
  obtain ⟨b, t, l, n, rfl⟩ : ∃ (b : Fin 32) (t : Fin 256) (l : Fin 2) (n : Fin 512), i = ix4 b t l n :=
    ⟨i 0, i 1, i 2, i 3, eq_ix4 i⟩
  rw [Cert.Spec.encArr_ix]
  exact enc_at x0 x1 x2 x4 x5 x6 x8 x9 b t l n

/-- Forward direction at the last time step: the hidden value, per layer. -/
theorem hlast_at (l : Fin 2) (b : Fin 32) (n : Fin 512) :
    val_main_v151 (F := Ideal) x0 x1 x2 x4 x5 x6 x8 x9 (ix3 l b n) = Cert.Spec.hlast (val_main_v6 (F := Ideal) x0 x1) x2 x4 x5 x6 x8 x9 l b n := by
  have hb := b.isLt
  have hn := n.isLt
  have h0 : ∀ u : Fin 1, val_main_v149 (F := Ideal) x0 x1 x2 x4 x5 (ix3 u b n)
      = Cert.Spec.hid0 (val_main_v6 (F := Ideal) x0 x1) x2 x4 x5 0 b Cert.Spec.tLast n := fun u => by
    have hi : idx_main_v145 (idx_main_v146 (idx_main_v149 (ix3 u b n))) = ix3 b Cert.Spec.tLast n :=
      funext fun a => Fin.ext (by
        match a with
        | ⟨0, _⟩ => show (b.val * 512 + n.val) / 512 = b.val; omega
        | ⟨1, _⟩ => rfl
        | ⟨2, _⟩ => show (b.val * 512 + n.val) % 512 = n.val; omega)
    rw [val_main_v149_apply, val_main_v146_apply, val_main_v145_apply, hi, hid_l0d0]
  have h1 : ∀ u : Fin 1, val_main_v150 (F := Ideal) x0 x1 x2 x4 x5 x6 x8 x9 (ix3 u b n)
      = Cert.Spec.hid1 (val_main_v6 (F := Ideal) x0 x1) x2 x4 x5 x6 x8 x9 0 b Cert.Spec.tLast n := fun u => by
    have hi : idx_main_v147 (idx_main_v148 (idx_main_v150 (ix3 u b n))) = ix3 b Cert.Spec.tLast n :=
      funext fun a => Fin.ext (by
        match a with
        | ⟨0, _⟩ => show (b.val * 512 + n.val) / 512 = b.val; omega
        | ⟨1, _⟩ => rfl
        | ⟨2, _⟩ => show (b.val * 512 + n.val) % 512 = n.val; omega)
    rw [val_main_v150_apply, val_main_v148_apply, val_main_v147_apply, hi, hid_l1d0]
  unfold val_main_v151
  generalize val_main_v149 (F := Ideal) x0 x1 x2 x4 x5 = y0 at h0 ⊢
  generalize val_main_v150 (F := Ideal) x0 x1 x2 x4 x5 x6 x8 x9 = y1 at h1 ⊢
  generalize val_main_v6 (F := Ideal) x0 x1 = E at h0 h1 ⊢
  by_cases hl : l.val = 0
  · rw [Cert.Spec.hlast, if_pos hl, ← h0 0]
    obtain rfl : l = 0 := Fin.ext hl
    exact concatenate_pair_apply_left (t := S2x32x512) 0 y0 y1 _ (ix3 (0 : Fin 2) b n) rfl
      (ix3 (0 : Fin 1) b n) (fun c => by
        match c with
        | ⟨0, _⟩ => rfl
        | ⟨1, _⟩ => rfl
        | ⟨2, _⟩ => rfl)
  · rw [Cert.Spec.hlast, if_neg hl, ← h1 0]
    obtain rfl : l = 1 := Fin.ext (by have := l.isLt; show l.val = 1; omega)
    exact concatenate_pair_apply_right (t := S2x32x512) 0 y0 y1 _ (ix3 (1 : Fin 2) b n) rfl rfl
      (ix3 (0 : Fin 1) b n)
      (fun c hc => by
        match c with
        | ⟨0, _⟩ => exact absurd rfl hc
        | ⟨1, _⟩ => rfl
        | ⟨2, _⟩ => rfl)
      rfl

theorem ref_hlast : val_main_v151 (F := Ideal) x0 x1 x2 x4 x5 x6 x8 x9 = Cert.Spec.hlastArr (val_main_v6 (F := Ideal) x0 x1) x2 x4 x5 x6 x8 x9 := by
  funext i
  obtain ⟨l, b, n, rfl⟩ : ∃ (l : Fin 2) (b : Fin 32) (n : Fin 512), i = ix3 l b n := ⟨i 0, i 1, i 2, eq_ix3 i⟩
  rw [Cert.Spec.hlastArr_ix]
  exact hlast_at x0 x1 x2 x4 x5 x6 x8 x9 l b n

/-- Forward direction at the last time step: the cell value, per layer. -/
theorem clast_at (l : Fin 2) (b : Fin 32) (n : Fin 512) :
    val_main_v158 (F := Ideal) x0 x1 x2 x4 x5 x6 x8 x9 (ix3 l b n) = Cert.Spec.clast (val_main_v6 (F := Ideal) x0 x1) x2 x4 x5 x6 x8 x9 l b n := by
  have hb := b.isLt
  have hn := n.isLt
  have h0 : ∀ u : Fin 1, val_main_v156 (F := Ideal) x0 x1 x2 x4 x5 (ix3 u b n)
      = Cert.Spec.cell0 (val_main_v6 (F := Ideal) x0 x1) x2 x4 x5 0 b Cert.Spec.tLast n := fun u => by
    have hi : idx_main_v152 (idx_main_v153 (idx_main_v156 (ix3 u b n))) = ix3 b Cert.Spec.tLast n :=
      funext fun a => Fin.ext (by
        match a with
        | ⟨0, _⟩ => show (b.val * 512 + n.val) / 512 = b.val; omega
        | ⟨1, _⟩ => rfl
        | ⟨2, _⟩ => show (b.val * 512 + n.val) % 512 = n.val; omega)
    rw [val_main_v156_apply, val_main_v153_apply, val_main_v152_apply, hi, cell_l0d0]
  have h1 : ∀ u : Fin 1, val_main_v157 (F := Ideal) x0 x1 x2 x4 x5 x6 x8 x9 (ix3 u b n)
      = Cert.Spec.cell1 (val_main_v6 (F := Ideal) x0 x1) x2 x4 x5 x6 x8 x9 0 b Cert.Spec.tLast n := fun u => by
    have hi : idx_main_v154 (idx_main_v155 (idx_main_v157 (ix3 u b n))) = ix3 b Cert.Spec.tLast n :=
      funext fun a => Fin.ext (by
        match a with
        | ⟨0, _⟩ => show (b.val * 512 + n.val) / 512 = b.val; omega
        | ⟨1, _⟩ => rfl
        | ⟨2, _⟩ => show (b.val * 512 + n.val) % 512 = n.val; omega)
    rw [val_main_v157_apply, val_main_v155_apply, val_main_v154_apply, hi, cell_l1d0]
  unfold val_main_v158
  generalize val_main_v156 (F := Ideal) x0 x1 x2 x4 x5 = y0 at h0 ⊢
  generalize val_main_v157 (F := Ideal) x0 x1 x2 x4 x5 x6 x8 x9 = y1 at h1 ⊢
  generalize val_main_v6 (F := Ideal) x0 x1 = E at h0 h1 ⊢
  by_cases hl : l.val = 0
  · rw [Cert.Spec.clast, if_pos hl, ← h0 0]
    obtain rfl : l = 0 := Fin.ext hl
    exact concatenate_pair_apply_left (t := S2x32x512) 0 y0 y1 _ (ix3 (0 : Fin 2) b n) rfl
      (ix3 (0 : Fin 1) b n) (fun c => by
        match c with
        | ⟨0, _⟩ => rfl
        | ⟨1, _⟩ => rfl
        | ⟨2, _⟩ => rfl)
  · rw [Cert.Spec.clast, if_neg hl, ← h1 0]
    obtain rfl : l = 1 := Fin.ext (by have := l.isLt; show l.val = 1; omega)
    exact concatenate_pair_apply_right (t := S2x32x512) 0 y0 y1 _ (ix3 (1 : Fin 2) b n) rfl rfl
      (ix3 (0 : Fin 1) b n)
      (fun c hc => by
        match c with
        | ⟨0, _⟩ => exact absurd rfl hc
        | ⟨1, _⟩ => rfl
        | ⟨2, _⟩ => rfl)
      rfl

theorem ref_clast : val_main_v158 (F := Ideal) x0 x1 x2 x4 x5 x6 x8 x9 = Cert.Spec.clastArr (val_main_v6 (F := Ideal) x0 x1) x2 x4 x5 x6 x8 x9 := by
  funext i
  obtain ⟨l, b, n, rfl⟩ : ∃ (l : Fin 2) (b : Fin 32) (n : Fin 512), i = ix3 l b n := ⟨i 0, i 1, i 2, eq_ix3 i⟩
  rw [Cert.Spec.clastArr_ix]
  exact clast_at x0 x1 x2 x4 x5 x6 x8 x9 l b n

end Cert.RefSide

end
-- ==== Proof.lean ====
/-
  A fused kernel for a two-layer, two-direction cell applied to every (batch, time) position from a zero state computes
  what the plain reference computes, on the extended reals.

  The kernel's entry function gathers the token embeddings, packs per layer the input-gate, cell-candidate and output-gate
  rows of both directions into one matrix (the forget gate cannot matter from a zero state) and the two bias vectors into
  one row, runs one grid point per batch row — two matrix products, the gate nonlinearities, sums over directions — and
  reshapes and transposes the three results.  The reference does the same position by position with the unpacked
  arguments, the sigmoid spelt as a quotient and the two biases added one after the other.

  Each program runs to completion leaving its arguments as launched (the three frames).  Nothing was rewritten between the
  word-level kernel and its idealization.  For the value claim both programs' results are shown to be one specification
  (Proof/Spec.lean) of the argument arrays: the kernel's by reading the body's values at an index, the blocks through the
  pipeline's write-backs and the host operations on both sides of the region; the reference's operation by operation.  The
  only algebra used is that addition on the extended reals is associative, so no finiteness of the inputs is needed.
-/
import proofs.«122567_j76991583748156_2_alg».proof.Defs
import proofs.«122567_j76991583748156_2_alg».proof.Proof.Gen.Kernel
import proofs.«122567_j76991583748156_2_alg».proof.Proof.Gen.KernelIdeal
import proofs.«122567_j76991583748156_2_alg».proof.Proof.Gen.ReferenceIdeal
import proofs.«122567_j76991583748156_2_alg».proof.Proof.Gen.Pre_finite_inputs
import proofs.«122567_j76991583748156_2_alg».proof.Proof.FrameBits
import proofs.«122567_j76991583748156_2_alg».proof.Proof.FrameIdeal
import proofs.«122567_j76991583748156_2_alg».proof.Proof.KTail
import proofs.«122567_j76991583748156_2_alg».proof.Proof.KHolds
import proofs.«122567_j76991583748156_2_alg».proof.Proof.RefRead
import proofs.«122567_j76991583748156_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-! ## The values -/

/-- The two programs gather the embeddings by the same operations of the same arguments. -/
theorem tok_eq (x : (⟨Cert.ReferenceIdeal.S32x256, .i32⟩ : BufTy).Contents (Elt Ideal))
    (emb : (⟨Cert.ReferenceIdeal.S50000x512, .f32⟩ : BufTy).Contents (Elt Ideal)) :
    Cert.ReferenceIdeal.Read.val_main_v6 (F := Ideal) x emb = Cert.KernelIdeal.Host.tokTerm (F := Ideal) x emb := rfl

/-- Both programs end with the specification's three arrays of the (agreeing) arguments. -/
theorem algebraic : Cert.algebraic_KernelIdeal_ReferenceIdeal := by
  intro m ρ m' ρ' _ hagree
  refine ⟨fun c => Cert.Spec.hlastArr (Cert.KernelIdeal.Host.tokTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.clastArr (Cert.KernelIdeal.Host.tokTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.encArr (Cert.KernelIdeal.Host.tokTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Frm.run_main (F := Ideal) m ρ)
    have hH := Cert.KernelIdeal.Blocks.holds m c
    exact ⟨((h c).2 Cert.KernelIdeal.main_v54 (Pipeline.mem_restRefs_of Cert.KernelIdeal.main_v54 (by decide) (by decide))).trans (Cert.KernelIdeal.Tail.hlast_result m c hH),
      ((h c).2 Cert.KernelIdeal.main_v55 (Pipeline.mem_restRefs_of Cert.KernelIdeal.main_v55 (by decide) (by decide))).trans (Cert.KernelIdeal.Tail.clast_result m c hH),
      ((h c).2 Cert.KernelIdeal.main_v53 (Pipeline.mem_restRefs_of Cert.KernelIdeal.main_v53 (by decide) (by decide))).trans (Cert.KernelIdeal.Tail.enc_result m c hH),
      ((h c).2 Cert.KernelIdeal.main_arg0 (Pipeline.mem_restRefs_of Cert.KernelIdeal.main_arg0 (by decide) (by decide))).trans (Cert.KernelIdeal.Frm.W_main_arg0 m (Cert.KernelIdeal.Frm.dats m) c),
      ((h c).2 Cert.KernelIdeal.main_arg1 (Pipeline.mem_restRefs_of Cert.KernelIdeal.main_arg1 (by decide) (by decide))).trans (Cert.KernelIdeal.Frm.W_main_arg1 m (Cert.KernelIdeal.Frm.dats m) c),
      ((h c).2 Cert.KernelIdeal.main_arg2 (Pipeline.mem_restRefs_of Cert.KernelIdeal.main_arg2 (by decide) (by decide))).trans (Cert.KernelIdeal.Frm.W_main_arg2 m (Cert.KernelIdeal.Frm.dats m) c),
      ((h c).2 Cert.KernelIdeal.main_arg3 (Pipeline.mem_restRefs_of Cert.KernelIdeal.main_arg3 (by decide) (by decide))).trans (Cert.KernelIdeal.Frm.W_main_arg3 m (Cert.KernelIdeal.Frm.dats m) c),
      ((h c).2 Cert.KernelIdeal.main_arg4 (Pipeline.mem_restRefs_of Cert.KernelIdeal.main_arg4 (by decide) (by decide))).trans (Cert.KernelIdeal.Frm.W_main_arg4 m (Cert.KernelIdeal.Frm.dats m) c),
      ((h c).2 Cert.KernelIdeal.main_arg5 (Pipeline.mem_restRefs_of Cert.KernelIdeal.main_arg5 (by decide) (by decide))).trans (Cert.KernelIdeal.Frm.W_main_arg5 m (Cert.KernelIdeal.Frm.dats m) c),
      ((h c).2 Cert.KernelIdeal.main_arg6 (Pipeline.mem_restRefs_of Cert.KernelIdeal.main_arg6 (by decide) (by decide))).trans (Cert.KernelIdeal.Frm.W_main_arg6 m (Cert.KernelIdeal.Frm.dats m) c),
      ((h c).2 Cert.KernelIdeal.main_arg7 (Pipeline.mem_restRefs_of Cert.KernelIdeal.main_arg7 (by decide) (by decide))).trans (Cert.KernelIdeal.Frm.W_main_arg7 m (Cert.KernelIdeal.Frm.dats m) c),
      ((h c).2 Cert.KernelIdeal.main_arg8 (Pipeline.mem_restRefs_of Cert.KernelIdeal.main_arg8 (by decide) (by decide))).trans (Cert.KernelIdeal.Frm.W_main_arg8 m (Cert.KernelIdeal.Frm.dats m) c),
      ((h c).2 Cert.KernelIdeal.main_arg9 (Pipeline.mem_restRefs_of Cert.KernelIdeal.main_arg9 (by decide) (by decide))).trans (Cert.KernelIdeal.Frm.W_main_arg9 m (Cert.KernelIdeal.Frm.dats m) c)⟩
  · refine (θ_run Cert.ReferenceIdeal.defs _ _).mono (fun r h c => ?_) (Cert.ReferenceIdeal.Value.run (F := Ideal) m' ρ')
    obtain ⟨a0, a1, a2, a3, a4, a5, a6, a7, a8, a9⟩ := hagree c
    refine ⟨?_, ?_, ?_, (h c).2.2.2⟩
    · rw [(h c).1, Cert.ReferenceIdeal.Read.val_main_v151_eq, Cert.RefSide.ref_hlast, tok_eq, a0, a1, a2, a4, a5, a6, a8, a9]
    · rw [(h c).2.1, Cert.ReferenceIdeal.Read.val_main_v158_eq, Cert.RefSide.ref_clast, tok_eq, a0, a1, a2, a4, a5, a6, a8, a9]
    · rw [(h c).2.2.1, Cert.ReferenceIdeal.Read.val_main_v144_eq, Cert.RefSide.ref_enc, tok_eq, a0, a1, a2, a4, a5, a6, a8, a9]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
